-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S8192x128 : Shape := ⟨2, ![8192, 128]⟩
abbrev S1024x128 : Shape := ⟨2, ![1024, 128]⟩
abbrev S1024 : Shape := ⟨1, ![1024]⟩
abbrev S1024x1 : Shape := ⟨2, ![1024, 1]⟩
abbrev S8192x1 : Shape := ⟨2, ![8192, 1]⟩
abbrev S256x128 : Shape := ⟨2, ![256, 128]⟩
abbrev S256x1 : Shape := ⟨2, ![256, 1]⟩
abbrev S256x8192 : Shape := ⟨2, ![256, 8192]⟩
abbrev S1x8192 : Shape := ⟨2, ![1, 8192]⟩
abbrev S256 : Shape := ⟨1, ![256]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S256x128, .f32⟩
  | .local _ .vmem, ⟨5, _⟩ => ⟨S256x128, .f32⟩
  | .local _ .vmem, ⟨6, _⟩ => ⟨S8192x128, .f32⟩
  | .local _ .vmem, ⟨7, _⟩ => ⟨S256x1, .f32⟩
  | .local _ .vmem, ⟨8, _⟩ => ⟨S256x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S4096x128_S4096x128_S8192x128_d0 : Shape.Concatenates [S4096x128, S4096x128] S8192x128 0
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  broadcasts_S1024x1_S1024x128 : S1024x1.Broadcasts S1024x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  iota_S256x1_d0_w32 : S256x1.Iotas .tc 32 [0]
  iota_S1x8192_d1_w32 : S1x8192.Iotas .tc 32 [1]
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reducesTo_S8192x1_S_d0_1 : S8192x1.ReducesTo [0, 1] S_
  h_S_ : 0 < S_.numel
  dot_S256x128_S8192x128_S256x8192_1_1_0_0_n_n_wf : DotDims.WF S256x128 S8192x128 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S8192x128.size a
  hwx1_0 : ∀ i : grid1.Coords, EltTy.bits .f32 = 32 ∨ (Rect.block (s := S8192x128) S256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S8192x1.size a
  hwx1_2 : ∀ i : grid1.Coords, EltTy.bits .f32 = 32 ∨ (Rect.block (s := S8192x1) S256x1.size (cc1_transform_2 i) (hinb1_2 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S8192x2 : Shape := ⟨2, ![8192, 2]⟩
abbrev S4096 : Shape := ⟨1, ![4096]⟩

abbrev nBuf : Space → Nat
  | .hbm => 80
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x1, .i32⟩
  | .hbm, ⟨35, _⟩ => ⟨S8192x2, .i32⟩
  | .hbm, ⟨36, _⟩ => ⟨S_, .f32⟩
  | .hbm, ⟨37, _⟩ => ⟨S8192, .f32⟩
  | .hbm, ⟨38, _⟩ => ⟨S8192x8192, .f32⟩
  | .hbm, ⟨39, _⟩ => ⟨S4096, .i32⟩
  | .hbm, ⟨40, _⟩ => ⟨S4096, .i32⟩
  | .hbm, ⟨41, _⟩ => ⟨S8192, .i32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1, .f32⟩
  | .hbm, ⟨55, _⟩ => ⟨S8192x8192, .f32⟩
  | .hbm, ⟨56, _⟩ => ⟨S8192x8192, .f32⟩
  | .hbm, ⟨57, _⟩ => ⟨S_, .i32⟩
  | .hbm, ⟨58, _⟩ => ⟨S8192, .i32⟩
  | .hbm, ⟨59, _⟩ => ⟨S8192, .i1⟩
  | .hbm, ⟨60, _⟩ => ⟨S_, .i32⟩
  | .hbm, ⟨61, _⟩ => ⟨S8192, .i32⟩
  | .hbm, ⟨62, _⟩ => ⟨S8192, .i32⟩
  | .hbm, ⟨63, _⟩ => ⟨S8192, .i32⟩
  | .hbm, ⟨64, _⟩ => ⟨S_, .i32⟩
  | .hbm, ⟨65, _⟩ => ⟨S8192, .i32⟩
  | .hbm, ⟨66, _⟩ => ⟨S8192, .i1⟩
  | .hbm, ⟨67, _⟩ => ⟨S_, .i32⟩
  | .hbm, ⟨68, _⟩ => ⟨S8192, .i32⟩
  | .hbm, ⟨69, _⟩ => ⟨S8192, .i32⟩
  | .hbm, ⟨70, _⟩ => ⟨S8192, .i32⟩
  | .hbm, ⟨71, _⟩ => ⟨S8192x1, .i32⟩
  | .hbm, ⟨72, _⟩ => ⟨S8192x1, .i32⟩
  | .hbm, ⟨73, _⟩ => ⟨S8192x2, .i32⟩
  | .hbm, ⟨74, _⟩ => ⟨S8192, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call1_cst : Ref sig .tc := ⟨.hbm, 42, rfl⟩
abbrev main_call1_v0 : Ref sig .tc := ⟨.hbm, 43, rfl⟩
abbrev main_call1_cst_0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_cst_1 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_v29 : Ref sig .tc := ⟨.hbm, 56, rfl⟩
abbrev main_c_5 : Ref sig .tc := ⟨.hbm, 57, rfl⟩
abbrev main_v30 : Ref sig .tc := ⟨.hbm, 58, rfl⟩
abbrev main_v31 : Ref sig .tc := ⟨.hbm, 59, rfl⟩
abbrev main_c_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_7 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_cst_10 : Ref sig .tc := ⟨.hbm, 77, rfl⟩
abbrev main_v45 : Ref sig .tc := ⟨.hbm, 78, rfl⟩
abbrev main_v46 : Ref sig .tc := ⟨.hbm, 79, rfl⟩

abbrev nD : Nat := 1
abbrev τ : Topo := Topo.v7x

variable {F : FTy → Type} [FloatOps F]

class Facts₀ : Prop where
  concatenates_S4096x128_S4096x128_S8192x128_d0 : Shape.Concatenates [S4096x128, S4096x128] S8192x128 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  bcast_S_S8192 : S_.BroadcastsInDim S8192 (![] : Fin 0 → Fin S8192.rank)
  concatenates_S8192x1_S8192x1_S8192x2_d1 : Shape.Concatenates [S8192x1, S8192x1] S8192x2 1
  slices_S8192_S4096_4096 : S8192.Slices ![4096] S4096
  slices_S8192_S4096_0 : S8192.Slices ![0] S4096
  concatenates_S4096_S4096_S8192_d0 : Shape.Concatenates [S4096, S4096] S8192 0
  reducesTo_S8192x8192_S8192_d1 : S8192x8192.ReducesTo [1] S8192
  bcast_S8192x1_S8192x8192_0_1 : S8192x1.BroadcastsInDim S8192x8192 (![0, 1] : Fin 2 → Fin S8192x8192.rank)
  reducesTo_S8192_S_d0 : S8192.ReducesTo [0] S_
  dot_S8192x128_S128x8192_S8192x8192_1_0_0_1_n_n_wf : DotDims.WF S8192x128 S128x8192 S8192x8192 [1] [0] [0] [1] [] []
  scatter_S8192x8192_S8192x2_S8192_n_01_01_1_wf : ScatterDims.WF S8192x8192 S8192x2 S8192 [] [0, 1] [0, 1] 1
  gather_S8192x8192_S8192x2_S8192_n_01_n_n_01_1_11_wf : GatherDims.WF S8192x8192 S8192x2 S8192 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.KB.Dat0.lean ====
/-
  The first kernel region (row normalisation): the data its pipeline is run with.
  A grid point t handles the block of 1024 consecutive rows t of the stacked input: the input window's staging
  buffer holds that block, and after the body the output window's staging buffer holds the body's one store over
  it.  Stated at a parameter V, the buffers' contents when the region is entered.
-/
import proofs.«181090_j11141145166516_2_alg».proof.Proof.Gen.Kernel.Launch
import proofs.«181090_j11141145166516_2_alg».proof.Proof.Gen.Kernel.Skeleton
import proofs.«181090_j11141145166516_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle the body reads and writes: the whole block. -/
abbrev r0_0 : Rect S1024x128 := Rect.unit (s := S1024x128) ![0, 0] S1024x128.size inb_S1024x128_S1024x128_0_0

/-- The output buffer after the body: its one store, of the normalised rows of the input block. -/
def out0_1 (x0 : Vec F S1024x128 .f32) : Vec F S1024x128 .f32 :=
  View.canon [⟨r0_0, k0_pay1 (View.ld x0 r0_0)⟩]

/-- The store covers the buffer. -/
theorem cover0_1 (p0 : Vec F S1024x128 .f32) (y : S1024x128.Idx) :
    ∃ pc ∈ ([⟨r0_0, p0⟩] : List (View.Piece (Elt F) S1024x128 .f32)), y ∈ pc.1.set :=
  View.cover_of_tiled [⟨r0_0, p0⟩] S1024x128.size (by rfl) y

/-- The pipeline's data on core c: arrays as found; after the body the input buffer at its block, the output buffer
    at the body's store over it; the invariant the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

end Cert.Kernel.Hand

end
-- ==== Proof.KB.Body0.lean ====
/-
  The first kernel region's body at a grid point: it reads the whole input block, and overwrites the whole output
  block with the normalised rows; the input buffer is left as it was.  From this, the pipeline's obligation at every
  point: the input window's staging buffer holds the array's block t whether or not it was fetched at that point.
-/
import proofs.«181090_j11141145166516_2_alg».proof.Proof.Gen.Kernel.Launch
import proofs.«181090_j11141145166516_2_alg».proof.Proof.Gen.Kernel.Skeleton
import proofs.«181090_j11141145166516_2_alg».proof.Proof.Gen.Kernel.Points
import proofs.«181090_j11141145166516_2_alg».proof.Proof.KB.Dat0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body on whole staging buffers, the input's at contents x0 and the output's at anything, ends with the input's
    as it was and the output's at the one store over x0. -/
theorem sound_kernel0 (c : Dev nD) (E : Set ℕ) (i : grid0.Coords) (arg0 : Memref sig .tc .vmem S1024x128 .f32) (harg0 : arg0.IsWhole) (arg1 : Memref sig .tc .vmem S1024x128 .f32) (harg1 : arg1.IsWhole)
    (x0 : Vec F S1024x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Dat1.lean ====
/-
  The second kernel region (row losses): the data its pipeline is run with.
  A grid point t handles the 256 consecutive rows of block t of the normalised array: window 0's staging buffer
  holds that block, window 1's the whole normalised array (fetched once, at the first point), and after the body
  window 2's staging buffer holds the body's one store, the 256 row losses.  Windows 0 and 1 read the same array,
  each holding half of it.  Stated at a parameter V, the buffers' contents when the region is entered.
-/
import proofs.«181090_j11141145166516_2_alg».proof.Proof.Gen.Kernel.Launch
import proofs.«181090_j11141145166516_2_alg».proof.Proof.Gen.Kernel.Skeleton
import proofs.«181090_j11141145166516_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangle of the one store: the whole output block. -/
abbrev r1_2 : Rect S256x1 := Rect.unit (s := S256x1) ![0, 0] S256x1.size inb_S256x1_S256x1_0_0
/-- The rectangles of the two loads: the whole input blocks. -/
abbrev r1_0 : Rect S256x128 := Rect.unit (s := S256x128) ![0, 0] S256x128.size inb_S256x128_S256x128_0_0
abbrev r1_1 : Rect S8192x128 := Rect.unit (s := S8192x128) ![0, 0] S8192x128.size inb_S8192x128_S8192x128_0_0

/-- The output buffer after the body at grid coordinates i: its one store, the row losses of the block's rows
    against all rows. -/
def out1_2 (i : grid1.Coords) (x0 : Vec F S256x128 .f32) (x1 : Vec F S8192x128 .f32) : Vec F S256x1 .f32 :=
  View.canon [⟨r1_2, k1_pay1 i (View.ld x0 r1_0) (View.ld x1 r1_1)⟩]

/-- The store covers the buffer. -/
theorem cover1_2 (p0 : Vec F S256x1 .f32) (y : S256x1.Idx) :
    ∃ pc ∈ ([⟨r1_2, p0⟩] : List (View.Piece (Elt F) S256x1 .f32)), y ∈ pc.1.set :=
  View.cover_of_tiled [⟨r1_2, p0⟩] S256x1.size (by rfl) y

/-- The pipeline's data on core c: arrays as found; after the body each input buffer at its block, the output buffer
    at the body's store over them; the invariant the scoped rest and the generator register; nothing owed; the two
    input windows hold the two halves of the array they share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (grid1.coords t) (iblk1 V c 0 t) (iblk1 V c 1 t) := by dsimp only [dat1]

end Cert.Kernel.Hand

end
-- ==== Proof.KB.Body1.lean ====
/-
  The second kernel region's body at a grid point: it reads the block of 256 rows and the whole array of rows, and
  overwrites the whole output block with the 256 row losses; both input buffers are left as they were.  From this,
  the pipeline's obligation at every point: window 0's staging buffer holds block t, window 1's the whole array
  (fetched at the first point, kept afterwards).
-/
import proofs.«181090_j11141145166516_2_alg».proof.Proof.Gen.Kernel.Launch
import proofs.«181090_j11141145166516_2_alg».proof.Proof.Gen.Kernel.Skeleton
import proofs.«181090_j11141145166516_2_alg».proof.Proof.Gen.Kernel.Points
import proofs.«181090_j11141145166516_2_alg».proof.Proof.KB.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the whole array at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body on whole staging buffers, the inputs' at contents x0, x1 and the output's at anything, ends with the
    inputs' as they were and the output's at the one store over them. -/
theorem sound_kernel1 (c : Dev nD) (E : Set ℕ) (i : grid1.Coords) (arg0 : Memref sig .tc .vmem S256x128 .f32) (harg0 : arg0.IsWhole)
    (arg1 : Memref sig .tc .vmem S8192x128 .f32) (harg1 : arg1.IsWhole) (arg2 : Memref sig .tc .vmem S256x1 .f32) (harg2 : arg2.IsWhole)
    (x0 : Vec F S256x128 .f32) (x1 : Vec F S8192x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 i x0 x1)) -∗ K ⟨⟩))
      ⊢ wp frame (wpE (defs₀ (F := F)) Variants.none c none) E (cc1__loss_kernel i arg0 harg0 arg1 harg1 arg2 harg2) K := by
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Run.lean ====
/-
  The whole program as four segments — the host's stacking of the two inputs, the normalising region, the loss
  region, the host's mean — run from the launch memory to the return.  Between segments every unscoped buffer is
  held whole at a known valuation: the launch memory, then what the stacking writes, then the normalised array as
  the first region's write-backs leave it, then the row losses as the second region's write-backs leave them, then
  what the mean writes.  The second region reads the normalised array through two windows: on entry the array's
  buffer is split into two halves, one per window, and on exit the halves (both still at the entry contents: an
  input array is never written) are joined again.
-/
import proofs.«181090_j11141145166516_2_alg».proof.Proof.Gen.Kernel.Launch
import proofs.«181090_j11141145166516_2_alg».proof.Proof.Gen.Kernel.Skeleton
import proofs.«181090_j11141145166516_2_alg».proof.Proof.Gen.Kernel.Points
import proofs.«181090_j11141145166516_2_alg».proof.Proof.KB.Body0
import proofs.«181090_j11141145166516_2_alg».proof.Proof.KB.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
/-- After the stacking (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its output array at what the write-backs leave, everything else as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: the row-loss array at what the write-backs leave, everything else as entered. -/
def W3 (c : Dev nD) : Valuation τ sig (Elt F) :=
  Function.update (W2 m ρ c) (Proc.devRef .tc main_v2) ((dat1 (V2 m ρ) c).arrAt 2 cfg1.N)
abbrev V3 : (c : Dev nD) → (b : Ref sig .tc) → Buf (Elt F) ((c : Thread nD τ).loc b) := fun c b => W3 m ρ c b
theorem V3_v2 (c : Dev nD) : V3 m ρ c main_v2 = (dat1 (V2 m ρ) c).arrAt 2 cfg1.N := by
  show W3 m ρ c (Proc.devRef .tc main_v2) = _
  unfold W3; exact Function.update_self ..
theorem V3_of_ne (c : Dev nD) (b : Ref sig .tc) (hb : b ≠ main_v2) : V3 m ρ c b = V2 m ρ c b := by
  show W3 m ρ c (Proc.devRef .tc b) = W2 m ρ c (Proc.devRef .tc b)
  unfold W3; exact Function.update_of_ne (StableHlo.devRef_ne_of_ne hb) ..
/-- After the mean (the return). -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Each pipeline's data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last valuation, the register at some state. -/
abbrev Tₙ (c : Dev nD) : sProp 𝕄 := iprop(StableHlo.held (c : Thread nD τ) (Pipeline.ucRefs τ sig) (W4 m ρ c) ∗ ∃ r, prngReg c r)

/-! ## The unscoped buffers one by one, and the second region's arrays -/

/-- The core's nine unscoped buffers, each whole at V. -/
theorem ub_list (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)
          ∗ (((c : Thread nD τ).loc main_v2) ↦{fullShare} V main_v2) ∗ (((c : Thread nD τ).loc main_cst) ↦{fullShare} V main_cst)
          ∗ (((c : Thread nD τ).loc main_v3) ↦{fullShare} V main_v3) ∗ (((c : Thread nD τ).loc main_cst_0) ↦{fullShare} V main_cst_0)
          ∗ (((c : Thread nD τ).loc main_v4) ↦{fullShare} V main_v4)) := by
  unfold unscopedBufs
  exact bigSep_eq_bigSepL_of_eq [main_arg0, main_arg1, main_v0, main_v1, main_v2, main_cst, main_v3, main_cst_0, main_v4] (by decide) (by decide) _

/-- The second region's arrays: the normalised array's buffer in two halves, the row-loss array's whole. -/
theorem arrays1_eq (V : (c : Dev nD) → (b : Ref sig .tc) → Buf (Elt F) ((c : Thread nD τ).loc b)) (c : Dev nD)
    (Fw : (w : Fin cfg1.W) → Buf (Elt F) ((cfg1.win w).arr.view.loc (c : Thread nD τ))) :
    ((dat1 V c).arrays Fw : sProp 𝕄)
      = iprop((((c : Thread nD τ).loc main_v1) ↦{fullShare.left} Fw 0) ∗ (((c : Thread nD τ).loc main_v1) ↦{fullShare.right} Fw 1)
          ∗ (((c : Thread nD τ).loc main_v2) ↦{fullShare} Fw 2)) := by
  unfold Dat.arrays
  rw [bigSep_W1, (arr_whole1 0).set_eq_univ, (arr_whole1 2).set_eq_univ]
  rfl

end Cert.Kernel.Hand

end
-- ==== Proof.KB.Segs.lean ====
/-
  The two kernel regions as segments over the thread state "every unscoped buffer at the boundary's valuation, the
  generator register at some state, nothing owed", and the run of the four segments: every weakly fair execution
  of the program terminates, and the final memory holds every unscoped buffer at the last valuation.
-/
import proofs.«181090_j11141145166516_2_alg».proof.Proof.Gen.Kernel.Launch
import proofs.«181090_j11141145166516_2_alg».proof.Proof.Gen.Kernel.Skeleton
import proofs.«181090_j11141145166516_2_alg».proof.Proof.Gen.Kernel.Points
import proofs.«181090_j11141145166516_2_alg».proof.Proof.KB.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The normalising region: entered with every unscoped buffer at W1, left with them at W2.  Its two arrays are
    split out of the unscoped buffers on entry and put back, the output at the write-backs' result, on exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers at W2, one by one, with the normalised array's buffer in its two halves. -/
theorem entry1 (c : Dev nD) :
    (StableHlo.held (c : Thread nD τ) (Pipeline.ucRefs τ sig) (W2 m ρ c) : sProp 𝕄)
      ⊢ iprop((dat1 (V2 m ρ) c).arrays ((dat1 (V2 m ρ) c).arrAt · 0)
          ∗ Pipeline.unscopedRest (Ix := Unit) (Name := ℕ) (U := UR sig nD τ) (Lvl := ℕ) spec1 c (V2 m ρ c)) := by
  rw [← Pipeline.unscopedBufs_held (Ix := Unit) (Name := ℕ) (U := UR sig nD τ) (Lvl := ℕ) c (W2 m ρ c),
    ub_list c (V2 m ρ c), arrays1_eq, unscopedRest1_eq]
  iintro ⟨Ha0, Ha1, Hv0, Hv1, Hv2, Hc, Hv3, Hc0, Hv4⟩
  ihave H12 := (pointsTo_share (PosShare.mem_left_op_right fullShare)).1 $$ Hv1
  icases H12 with ⟨Hl, Hr⟩
  isplitl [Hl Hr Hv2]
  · isplitl [Hl]; · iexact Hl
    isplitl [Hr]; · iexact Hr
    iexact Hv2
  isplitl [Ha0]; · iexact Ha0
  isplitl [Ha1]; · iexact Ha1
  isplitl [Hv0]; · iexact Hv0
  isplitl [Hc]; · iexact Hc
  isplitl [Hv3]; · iexact Hv3
  isplitl [Hc0]; · iexact Hc0
  iexact Hv4

/-- The second region's arrays after its last point, with the rest as entered, are the unscoped buffers at W3. -/
theorem exit1 (c : Dev nD) :
    iprop((dat1 (V2 m ρ) c).arrays ((dat1 (V2 m ρ) c).arrAt · cfg1.N)
        ∗ Pipeline.unscopedRest (Ix := Unit) (Name := ℕ) (U := UR sig nD τ) (Lvl := ℕ) spec1 c (V2 m ρ c))
      ⊢ (StableHlo.held (c : Thread nD τ) (Pipeline.ucRefs τ sig) (W3 m ρ c) : sProp 𝕄) := by
  rw [← Pipeline.unscopedBufs_held (Ix := Unit) (Name := ℕ) (U := UR sig nD τ) (Lvl := ℕ) c (W3 m ρ c),
    ub_list c (V3 m ρ c), arrays1_eq, unscopedRest1_eq,
    V3_v2, V3_of_ne m ρ c main_arg0 (by decide), V3_of_ne m ρ c main_arg1 (by decide), V3_of_ne m ρ c main_v0 (by decide),
    V3_of_ne m ρ c main_v1 (by decide), V3_of_ne m ρ c main_cst (by decide), V3_of_ne m ρ c main_v3 (by decide),
    V3_of_ne m ρ c main_cst_0 (by decide), V3_of_ne m ρ c main_v4 (by decide),
    (dat1 (V2 m ρ) c).arrAt_in 0 rfl _, (dat1 (V2 m ρ) c).arrAt_in 1 rfl _, A_eq1, A_eq1]
  iintro ⟨⟨Hl, Hr, Hv2⟩, Ha0, Ha1, Hv0, Hc, Hv3, Hc0, Hv4⟩
  isplitl [Ha0]; · iexact Ha0
  isplitl [Ha1]; · iexact Ha1
  isplitl [Hv0]; · iexact Hv0
  isplitl [Hl Hr]
  · iapply (pointsTo_share (PosShare.mem_left_op_right fullShare)).2
    isplitl [Hl]; · iexact Hl
    iexact Hr
  isplitl [Hv2]; · iexact Hv2
  isplitl [Hc]; · iexact Hc
  isplitl [Hv3]; · iexact Hv3
  isplitl [Hc0]; · iexact Hc0
  iexact Hv4

set_option backward.isDefEq.respectTransparency.types false in
/-- The loss region: entered with every unscoped buffer at W2, left with them at W3. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    iintro ⟨⟨Hub, Hp, HO⟩, -, -⟩
    ihave H := entry1 m ρ c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply exit1 m ρ c
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program from memory m terminates, nothing faulting, and the final memory
    holds every unscoped buffer at the last valuation W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => (show iprop(StableHlo.held (c : Thread nD τ) (Pipeline.ucRefs τ sig) (W4 m ρ c) ∗ R c)
          ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.KB.Tail.lean ====
/-
  What the last valuation holds: the two arguments as launched (no host operation writes them and no region has
  them as an output), the stacked input as the concatenation of the two arguments, and the result as the host's
  quotient of the host's sum of the row-loss array by the constant 8192.
-/
import proofs.«181090_j11141145166516_2_alg».proof.Proof.Gen.Kernel.Launch
import proofs.«181090_j11141145166516_2_alg».proof.Proof.Gen.Kernel.Skeleton
import proofs.«181090_j11141145166516_2_alg».proof.Proof.Gen.Kernel.Points
import proofs.«181090_j11141145166516_2_alg».proof.Proof.KB.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stacking writes the concatenation of the two arguments. -/
theorem V1_v0 (c : Dev nD) :
    V1 m ρ c main_v0 = concatenate S8192x128 0 [⟨S4096x128, m ((c : Thread nD τ).loc main_arg0)⟩, ⟨S4096x128, m ((c : Thread nD τ).loc main_arg1)⟩]
      concatenates_S4096x128_S4096x128_S8192x128_d0 := by
  show StableHlo.after hostOps0 (W0 m ρ c) (Proc.devRef .tc main_v0) = _
  after_results

/-- The first region finds the stacked input where the stacking left it, and leaves it there. -/
theorem V2_v0 (c : Dev nD) : V2 m ρ c main_v0 = V1 m ρ c main_v0 :=
  (W2_arr m ρ c 0).trans (((dat0 (V1 m ρ) c).arrAt_in 0 rfl _).trans (A_eq0 (V1 m ρ) c 0))

/-- The first region leaves in the normalised array what its write-backs make. -/
theorem V2_v1 (c : Dev nD) : V2 m ρ c main_v1 = (dat0 (V1 m ρ) c).arrAt 1 cfg0.N := W2_arr m ρ c 1

/-- The result: the sum of the row-loss array from zero, divided by the constant. -/
theorem W4_v4 (c : Dev nD) :
    W4 m ρ c (Proc.devRef .tc main_v4)
      = Host.divf (Host.reduceAdd (V3 m ρ c main_v2) (constant (F := F) S_ .f32 0x00000000#32) reducesTo_S8192x1_S_d0_1 h_S_)
          (constant (F := F) S_ .f32 0x46000000#32) := by
  show StableHlo.after hostOps2 (W3 m ρ c) (Proc.devRef .tc main_v4) = _
  after_results

/-- A buffer the mean's four operations do not write keeps its contents through them. -/
theorem W4_main_arg0' (c : Dev nD) : W4 m ρ c (Proc.devRef .tc main_arg0) = W3 m ρ c (Proc.devRef .tc main_arg0) :=
  StableHlo.after_of_forall_not_mem (b := Proc.devRef .tc main_arg0) _ _ (List.forall_iff_forall_mem.mp (by
    simp only [hostOps2, List.Forall, StableHlo.nullary_writes, StableHlo.unary_writes, StableHlo.binary_writes, Finset.mem_singleton]
    repeat' apply And.intro
    all_goals exact StableHlo.devRef_ne_of_ne (by decide)))
theorem W4_main_arg1' (c : Dev nD) : W4 m ρ c (Proc.devRef .tc main_arg1) = W3 m ρ c (Proc.devRef .tc main_arg1) :=
  StableHlo.after_of_forall_not_mem (b := Proc.devRef .tc main_arg1) _ _ (List.forall_iff_forall_mem.mp (by
    simp only [hostOps2, List.Forall, StableHlo.nullary_writes, StableHlo.unary_writes, StableHlo.binary_writes, Finset.mem_singleton]
    repeat' apply And.intro
    all_goals exact StableHlo.devRef_ne_of_ne (by decide)))
/-- The stacking writes neither argument. -/
theorem W1_main_arg0' (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem W1_main_arg1' (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- The first argument ends as launched. -/
theorem W4_main_arg0 (c : Dev nD) : W4 m ρ c (Proc.devRef .tc main_arg0) = m ((c : Thread nD τ).loc main_arg0) :=
  (W4_main_arg0' m ρ c).trans <| (V3_of_ne m ρ c main_arg0 (by decide)).trans <|
    (W2_of_ne m ρ c main_arg0 (by decide)).trans <| (W1_main_arg0' m ρ c).trans rfl
/-- The second argument ends as launched. -/
theorem W4_main_arg1 (c : Dev nD) : W4 m ρ c (Proc.devRef .tc main_arg1) = m ((c : Thread nD τ).loc main_arg1) :=
  (W4_main_arg1' m ρ c).trans <| (V3_of_ne m ρ c main_arg1 (by decide)).trans <|
    (W2_of_ne m ρ c main_arg1 (by decide)).trans <| (W1_main_arg1' m ρ c).trans rfl

/-- The frame: every weakly fair execution terminates, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

/-- The run with the result named: the result buffer ends at the last valuation's, the arguments as launched. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v4 (by decide)),
     (h c _ (mem_uc main_arg0 (by decide))).trans (W4_main_arg0 m ρ c),
     (h c _ (mem_uc main_arg1 (by decide))).trans (W4_main_arg1 m ρ c)⟩) (run_all m ρ)

end Cert.Kernel.Hand

end
-- ==== Proof.KI.Dat0.lean ====
/-
  The first kernel region (row normalisation): the data its pipeline is run with.
  A grid point t handles the block of 1024 consecutive rows t of the stacked input: the input window's staging
  buffer holds that block, and after the body the output window's staging buffer holds the body's one store over
  it.  Stated at a parameter V, the buffers' contents when the region is entered.
-/
import proofs.«181090_j11141145166516_2_alg».proof.Proof.Gen.KernelIdeal.Launch
import proofs.«181090_j11141145166516_2_alg».proof.Proof.Gen.KernelIdeal.Skeleton
import proofs.«181090_j11141145166516_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle the body reads and writes: the whole block. -/
abbrev r0_0 : Rect S1024x128 := Rect.unit (s := S1024x128) ![0, 0] S1024x128.size inb_S1024x128_S1024x128_0_0

/-- The output buffer after the body: its one store, of the normalised rows of the input block. -/
def out0_1 (x0 : Vec F S1024x128 .f32) : Vec F S1024x128 .f32 :=
  View.canon [⟨r0_0, k0_pay1 (View.ld x0 r0_0)⟩]

/-- The store covers the buffer. -/
theorem cover0_1 (p0 : Vec F S1024x128 .f32) (y : S1024x128.Idx) :
    ∃ pc ∈ ([⟨r0_0, p0⟩] : List (View.Piece (Elt F) S1024x128 .f32)), y ∈ pc.1.set :=
  View.cover_of_tiled [⟨r0_0, p0⟩] S1024x128.size (by rfl) y

/-- The pipeline's data on core c: arrays as found; after the body the input buffer at its block, the output buffer
    at the body's store over it; the invariant the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

end Cert.KernelIdeal.Hand

end
-- ==== Proof.KI.Body0.lean ====
/-
  The first kernel region's body at a grid point: it reads the whole input block, and overwrites the whole output
  block with the normalised rows; the input buffer is left as it was.  From this, the pipeline's obligation at every
  point: the input window's staging buffer holds the array's block t whether or not it was fetched at that point.
-/
import proofs.«181090_j11141145166516_2_alg».proof.Proof.Gen.KernelIdeal.Launch
import proofs.«181090_j11141145166516_2_alg».proof.Proof.Gen.KernelIdeal.Skeleton
import proofs.«181090_j11141145166516_2_alg».proof.Proof.Gen.KernelIdeal.Points
import proofs.«181090_j11141145166516_2_alg».proof.Proof.KI.Dat0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body on whole staging buffers, the input's at contents x0 and the output's at anything, ends with the input's
    as it was and the output's at the one store over x0. -/
theorem sound_kernel0 (c : Dev nD) (E : Set ℕ) (i : grid0.Coords) (arg0 : Memref sig .tc .vmem S1024x128 .f32) (harg0 : arg0.IsWhole) (arg1 : Memref sig .tc .vmem S1024x128 .f32) (harg1 : arg1.IsWhole)
    (x0 : Vec F S1024x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Dat1.lean ====
/-
  The second kernel region (row losses): the data its pipeline is run with.
  A grid point t handles the 256 consecutive rows of block t of the normalised array: window 0's staging buffer
  holds that block, window 1's the whole normalised array (fetched once, at the first point), and after the body
  window 2's staging buffer holds the body's one store, the 256 row losses.  Windows 0 and 1 read the same array,
  each holding half of it.  Stated at a parameter V, the buffers' contents when the region is entered.
-/
import proofs.«181090_j11141145166516_2_alg».proof.Proof.Gen.KernelIdeal.Launch
import proofs.«181090_j11141145166516_2_alg».proof.Proof.Gen.KernelIdeal.Skeleton
import proofs.«181090_j11141145166516_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangle of the one store: the whole output block. -/
abbrev r1_2 : Rect S256x1 := Rect.unit (s := S256x1) ![0, 0] S256x1.size inb_S256x1_S256x1_0_0
/-- The rectangles of the two loads: the whole input blocks. -/
abbrev r1_0 : Rect S256x128 := Rect.unit (s := S256x128) ![0, 0] S256x128.size inb_S256x128_S256x128_0_0
abbrev r1_1 : Rect S8192x128 := Rect.unit (s := S8192x128) ![0, 0] S8192x128.size inb_S8192x128_S8192x128_0_0

/-- The output buffer after the body at grid coordinates i: its one store, the row losses of the block's rows
    against all rows. -/
def out1_2 (i : grid1.Coords) (x0 : Vec F S256x128 .f32) (x1 : Vec F S8192x128 .f32) : Vec F S256x1 .f32 :=
  View.canon [⟨r1_2, k1_pay1 i (View.ld x0 r1_0) (View.ld x1 r1_1)⟩]

/-- The store covers the buffer. -/
theorem cover1_2 (p0 : Vec F S256x1 .f32) (y : S256x1.Idx) :
    ∃ pc ∈ ([⟨r1_2, p0⟩] : List (View.Piece (Elt F) S256x1 .f32)), y ∈ pc.1.set :=
  View.cover_of_tiled [⟨r1_2, p0⟩] S256x1.size (by rfl) y

/-- The pipeline's data on core c: arrays as found; after the body each input buffer at its block, the output buffer
    at the body's store over them; the invariant the scoped rest and the generator register; nothing owed; the two
    input windows hold the two halves of the array they share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (grid1.coords t) (iblk1 V c 0 t) (iblk1 V c 1 t) := by dsimp only [dat1]

end Cert.KernelIdeal.Hand

end
-- ==== Proof.KI.Body1.lean ====
/-
  The second kernel region's body at a grid point: it reads the block of 256 rows and the whole array of rows, and
  overwrites the whole output block with the 256 row losses; both input buffers are left as they were.  From this,
  the pipeline's obligation at every point: window 0's staging buffer holds block t, window 1's the whole array
  (fetched at the first point, kept afterwards).
-/
import proofs.«181090_j11141145166516_2_alg».proof.Proof.Gen.KernelIdeal.Launch
import proofs.«181090_j11141145166516_2_alg».proof.Proof.Gen.KernelIdeal.Skeleton
import proofs.«181090_j11141145166516_2_alg».proof.Proof.Gen.KernelIdeal.Points
import proofs.«181090_j11141145166516_2_alg».proof.Proof.KI.Dat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the whole array at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body on whole staging buffers, the inputs' at contents x0, x1 and the output's at anything, ends with the
    inputs' as they were and the output's at the one store over them. -/
theorem sound_kernel1 (c : Dev nD) (E : Set ℕ) (i : grid1.Coords) (arg0 : Memref sig .tc .vmem S256x128 .f32) (harg0 : arg0.IsWhole)
    (arg1 : Memref sig .tc .vmem S8192x128 .f32) (harg1 : arg1.IsWhole) (arg2 : Memref sig .tc .vmem S256x1 .f32) (harg2 : arg2.IsWhole)
    (x0 : Vec F S256x128 .f32) (x1 : Vec F S8192x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 i x0 x1)) -∗ K ⟨⟩))
      ⊢ wp frame (wpE (defs₀ (F := F)) Variants.none c none) E (cc1__loss_kernel i arg0 harg0 arg1 harg1 arg2 harg2) K := by
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as four segments — the host's stacking of the two inputs, the normalising region, the loss
  region, the host's mean — run from the launch memory to the return.  Between segments every unscoped buffer is
  held whole at a known valuation: the launch memory, then what the stacking writes, then the normalised array as
  the first region's write-backs leave it, then the row losses as the second region's write-backs leave them, then
  what the mean writes.  The second region reads the normalised array through two windows: on entry the array's
  buffer is split into two halves, one per window, and on exit the halves (both still at the entry contents: an
  input array is never written) are joined again.
-/
import proofs.«181090_j11141145166516_2_alg».proof.Proof.Gen.KernelIdeal.Launch
import proofs.«181090_j11141145166516_2_alg».proof.Proof.Gen.KernelIdeal.Skeleton
import proofs.«181090_j11141145166516_2_alg».proof.Proof.Gen.KernelIdeal.Points
import proofs.«181090_j11141145166516_2_alg».proof.Proof.KI.Body0
import proofs.«181090_j11141145166516_2_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
/-- After the stacking (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its output array at what the write-backs leave, everything else as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: the row-loss array at what the write-backs leave, everything else as entered. -/
def W3 (c : Dev nD) : Valuation τ sig (Elt F) :=
  Function.update (W2 m ρ c) (Proc.devRef .tc main_v2) ((dat1 (V2 m ρ) c).arrAt 2 cfg1.N)
abbrev V3 : (c : Dev nD) → (b : Ref sig .tc) → Buf (Elt F) ((c : Thread nD τ).loc b) := fun c b => W3 m ρ c b
theorem V3_v2 (c : Dev nD) : V3 m ρ c main_v2 = (dat1 (V2 m ρ) c).arrAt 2 cfg1.N := by
  show W3 m ρ c (Proc.devRef .tc main_v2) = _
  unfold W3; exact Function.update_self ..
theorem V3_of_ne (c : Dev nD) (b : Ref sig .tc) (hb : b ≠ main_v2) : V3 m ρ c b = V2 m ρ c b := by
  show W3 m ρ c (Proc.devRef .tc b) = W2 m ρ c (Proc.devRef .tc b)
  unfold W3; exact Function.update_of_ne (StableHlo.devRef_ne_of_ne hb) ..
/-- After the mean (the return). -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Each pipeline's data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last valuation, the register at some state. -/
abbrev Tₙ (c : Dev nD) : sProp 𝕄 := iprop(StableHlo.held (c : Thread nD τ) (Pipeline.ucRefs τ sig) (W4 m ρ c) ∗ ∃ r, prngReg c r)

/-! ## The unscoped buffers one by one, and the second region's arrays -/

/-- The core's nine unscoped buffers, each whole at V. -/
theorem ub_list (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)
          ∗ (((c : Thread nD τ).loc main_v2) ↦{fullShare} V main_v2) ∗ (((c : Thread nD τ).loc main_cst) ↦{fullShare} V main_cst)
          ∗ (((c : Thread nD τ).loc main_v3) ↦{fullShare} V main_v3) ∗ (((c : Thread nD τ).loc main_cst_0) ↦{fullShare} V main_cst_0)
          ∗ (((c : Thread nD τ).loc main_v4) ↦{fullShare} V main_v4)) := by
  unfold unscopedBufs
  exact bigSep_eq_bigSepL_of_eq [main_arg0, main_arg1, main_v0, main_v1, main_v2, main_cst, main_v3, main_cst_0, main_v4] (by decide) (by decide) _

/-- The second region's arrays: the normalised array's buffer in two halves, the row-loss array's whole. -/
theorem arrays1_eq (V : (c : Dev nD) → (b : Ref sig .tc) → Buf (Elt F) ((c : Thread nD τ).loc b)) (c : Dev nD)
    (Fw : (w : Fin cfg1.W) → Buf (Elt F) ((cfg1.win w).arr.view.loc (c : Thread nD τ))) :
    ((dat1 V c).arrays Fw : sProp 𝕄)
      = iprop((((c : Thread nD τ).loc main_v1) ↦{fullShare.left} Fw 0) ∗ (((c : Thread nD τ).loc main_v1) ↦{fullShare.right} Fw 1)
          ∗ (((c : Thread nD τ).loc main_v2) ↦{fullShare} Fw 2)) := by
  unfold Dat.arrays
  rw [bigSep_W1, (arr_whole1 0).set_eq_univ, (arr_whole1 2).set_eq_univ]
  rfl

end Cert.KernelIdeal.Hand

end
-- ==== Proof.KI.Segs.lean ====
/-
  The two kernel regions as segments over the thread state "every unscoped buffer at the boundary's valuation, the
  generator register at some state, nothing owed", and the run of the four segments: every weakly fair execution
  of the program terminates, and the final memory holds every unscoped buffer at the last valuation.
-/
import proofs.«181090_j11141145166516_2_alg».proof.Proof.Gen.KernelIdeal.Launch
import proofs.«181090_j11141145166516_2_alg».proof.Proof.Gen.KernelIdeal.Skeleton
import proofs.«181090_j11141145166516_2_alg».proof.Proof.Gen.KernelIdeal.Points
import proofs.«181090_j11141145166516_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The normalising region: entered with every unscoped buffer at W1, left with them at W2.  Its two arrays are
    split out of the unscoped buffers on entry and put back, the output at the write-backs' result, on exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers at W2, one by one, with the normalised array's buffer in its two halves. -/
theorem entry1 (c : Dev nD) :
    (StableHlo.held (c : Thread nD τ) (Pipeline.ucRefs τ sig) (W2 m ρ c) : sProp 𝕄)
      ⊢ iprop((dat1 (V2 m ρ) c).arrays ((dat1 (V2 m ρ) c).arrAt · 0)
          ∗ Pipeline.unscopedRest (Ix := Unit) (Name := ℕ) (U := UR sig nD τ) (Lvl := ℕ) spec1 c (V2 m ρ c)) := by
  rw [← Pipeline.unscopedBufs_held (Ix := Unit) (Name := ℕ) (U := UR sig nD τ) (Lvl := ℕ) c (W2 m ρ c),
    ub_list c (V2 m ρ c), arrays1_eq, unscopedRest1_eq]
  iintro ⟨Ha0, Ha1, Hv0, Hv1, Hv2, Hc, Hv3, Hc0, Hv4⟩
  ihave H12 := (pointsTo_share (PosShare.mem_left_op_right fullShare)).1 $$ Hv1
  icases H12 with ⟨Hl, Hr⟩
  isplitl [Hl Hr Hv2]
  · isplitl [Hl]; · iexact Hl
    isplitl [Hr]; · iexact Hr
    iexact Hv2
  isplitl [Ha0]; · iexact Ha0
  isplitl [Ha1]; · iexact Ha1
  isplitl [Hv0]; · iexact Hv0
  isplitl [Hc]; · iexact Hc
  isplitl [Hv3]; · iexact Hv3
  isplitl [Hc0]; · iexact Hc0
  iexact Hv4

/-- The second region's arrays after its last point, with the rest as entered, are the unscoped buffers at W3. -/
theorem exit1 (c : Dev nD) :
    iprop((dat1 (V2 m ρ) c).arrays ((dat1 (V2 m ρ) c).arrAt · cfg1.N)
        ∗ Pipeline.unscopedRest (Ix := Unit) (Name := ℕ) (U := UR sig nD τ) (Lvl := ℕ) spec1 c (V2 m ρ c))
      ⊢ (StableHlo.held (c : Thread nD τ) (Pipeline.ucRefs τ sig) (W3 m ρ c) : sProp 𝕄) := by
  rw [← Pipeline.unscopedBufs_held (Ix := Unit) (Name := ℕ) (U := UR sig nD τ) (Lvl := ℕ) c (W3 m ρ c),
    ub_list c (V3 m ρ c), arrays1_eq, unscopedRest1_eq,
    V3_v2, V3_of_ne m ρ c main_arg0 (by decide), V3_of_ne m ρ c main_arg1 (by decide), V3_of_ne m ρ c main_v0 (by decide),
    V3_of_ne m ρ c main_v1 (by decide), V3_of_ne m ρ c main_cst (by decide), V3_of_ne m ρ c main_v3 (by decide),
    V3_of_ne m ρ c main_cst_0 (by decide), V3_of_ne m ρ c main_v4 (by decide),
    (dat1 (V2 m ρ) c).arrAt_in 0 rfl _, (dat1 (V2 m ρ) c).arrAt_in 1 rfl _, A_eq1, A_eq1]
  iintro ⟨⟨Hl, Hr, Hv2⟩, Ha0, Ha1, Hv0, Hc, Hv3, Hc0, Hv4⟩
  isplitl [Ha0]; · iexact Ha0
  isplitl [Ha1]; · iexact Ha1
  isplitl [Hv0]; · iexact Hv0
  isplitl [Hl Hr]
  · iapply (pointsTo_share (PosShare.mem_left_op_right fullShare)).2
    isplitl [Hl]; · iexact Hl
    iexact Hr
  isplitl [Hv2]; · iexact Hv2
  isplitl [Hc]; · iexact Hc
  isplitl [Hv3]; · iexact Hv3
  isplitl [Hc0]; · iexact Hc0
  iexact Hv4

set_option backward.isDefEq.respectTransparency.types false in
/-- The loss region: entered with every unscoped buffer at W2, left with them at W3. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    iintro ⟨⟨Hub, Hp, HO⟩, -, -⟩
    ihave H := entry1 m ρ c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply exit1 m ρ c
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program from memory m terminates, nothing faulting, and the final memory
    holds every unscoped buffer at the last valuation W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => (show iprop(StableHlo.held (c : Thread nD τ) (Pipeline.ucRefs τ sig) (W4 m ρ c) ∗ R c)
          ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KI.Tail.lean ====
/-
  What the last valuation holds: the two arguments as launched (no host operation writes them and no region has
  them as an output), the stacked input as the concatenation of the two arguments, and the result as the host's
  quotient of the host's sum of the row-loss array by the constant 8192.
-/
import proofs.«181090_j11141145166516_2_alg».proof.Proof.Gen.KernelIdeal.Launch
import proofs.«181090_j11141145166516_2_alg».proof.Proof.Gen.KernelIdeal.Skeleton
import proofs.«181090_j11141145166516_2_alg».proof.Proof.Gen.KernelIdeal.Points
import proofs.«181090_j11141145166516_2_alg».proof.Proof.KI.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stacking writes the concatenation of the two arguments. -/
theorem V1_v0 (c : Dev nD) :
    V1 m ρ c main_v0 = concatenate S8192x128 0 [⟨S4096x128, m ((c : Thread nD τ).loc main_arg0)⟩, ⟨S4096x128, m ((c : Thread nD τ).loc main_arg1)⟩]
      concatenates_S4096x128_S4096x128_S8192x128_d0 := by
  show StableHlo.after hostOps0 (W0 m ρ c) (Proc.devRef .tc main_v0) = _
  after_results

/-- The first region finds the stacked input where the stacking left it, and leaves it there. -/
theorem V2_v0 (c : Dev nD) : V2 m ρ c main_v0 = V1 m ρ c main_v0 :=
  (W2_arr m ρ c 0).trans (((dat0 (V1 m ρ) c).arrAt_in 0 rfl _).trans (A_eq0 (V1 m ρ) c 0))

/-- The first region leaves in the normalised array what its write-backs make. -/
theorem V2_v1 (c : Dev nD) : V2 m ρ c main_v1 = (dat0 (V1 m ρ) c).arrAt 1 cfg0.N := W2_arr m ρ c 1

/-- The result: the sum of the row-loss array from zero, divided by the constant. -/
theorem W4_v4 (c : Dev nD) :
    W4 m ρ c (Proc.devRef .tc main_v4)
      = Host.divf (Host.reduceAdd (V3 m ρ c main_v2) (constant (F := F) S_ .f32 0x00000000#32) reducesTo_S8192x1_S_d0_1 h_S_)
          (constant (F := F) S_ .f32 0x46000000#32) := by
  show StableHlo.after hostOps2 (W3 m ρ c) (Proc.devRef .tc main_v4) = _
  after_results

/-- A buffer the mean's four operations do not write keeps its contents through them. -/
theorem W4_main_arg0' (c : Dev nD) : W4 m ρ c (Proc.devRef .tc main_arg0) = W3 m ρ c (Proc.devRef .tc main_arg0) :=
  StableHlo.after_of_forall_not_mem (b := Proc.devRef .tc main_arg0) _ _ (List.forall_iff_forall_mem.mp (by
    simp only [hostOps2, List.Forall, StableHlo.nullary_writes, StableHlo.unary_writes, StableHlo.binary_writes, Finset.mem_singleton]
    repeat' apply And.intro
    all_goals exact StableHlo.devRef_ne_of_ne (by decide)))
theorem W4_main_arg1' (c : Dev nD) : W4 m ρ c (Proc.devRef .tc main_arg1) = W3 m ρ c (Proc.devRef .tc main_arg1) :=
  StableHlo.after_of_forall_not_mem (b := Proc.devRef .tc main_arg1) _ _ (List.forall_iff_forall_mem.mp (by
    simp only [hostOps2, List.Forall, StableHlo.nullary_writes, StableHlo.unary_writes, StableHlo.binary_writes, Finset.mem_singleton]
    repeat' apply And.intro
    all_goals exact StableHlo.devRef_ne_of_ne (by decide)))
/-- The stacking writes neither argument. -/
theorem W1_main_arg0' (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
theorem W1_main_arg1' (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- The first argument ends as launched. -/
theorem W4_main_arg0 (c : Dev nD) : W4 m ρ c (Proc.devRef .tc main_arg0) = m ((c : Thread nD τ).loc main_arg0) :=
  (W4_main_arg0' m ρ c).trans <| (V3_of_ne m ρ c main_arg0 (by decide)).trans <|
    (W2_of_ne m ρ c main_arg0 (by decide)).trans <| (W1_main_arg0' m ρ c).trans rfl
/-- The second argument ends as launched. -/
theorem W4_main_arg1 (c : Dev nD) : W4 m ρ c (Proc.devRef .tc main_arg1) = m ((c : Thread nD τ).loc main_arg1) :=
  (W4_main_arg1' m ρ c).trans <| (V3_of_ne m ρ c main_arg1 (by decide)).trans <|
    (W2_of_ne m ρ c main_arg1 (by decide)).trans <| (W1_main_arg1' m ρ c).trans rfl

/-- The frame: every weakly fair execution terminates, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

/-- The run with the result named: the result buffer ends at the last valuation's, the arguments as launched. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v4 (by decide)),
     (h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.Spec.lean ====
/-
  The loss both programs compute, written once over plain index types.

  Rows r of the stacked input z (the first argument's 4096 rows, then the second's) are scaled to unit length,
  zn r = z r / max (sqrt (sum_d (z r d)^2)) eps.  The similarity of rows r and c is the dot product of zn r and
  zn c divided by the temperature 1/2 (one program multiplies by 2, the other divides by 1/2), except on the
  diagonal, where it is the constant -50000.  The label of row r is the row 4096 places further on, cyclically.
  Per row the loss is  (max_c s r c + log (sum_c exp (s r c - max_c s r c))) - s r (label r);  the result is
  the mean of the 8192 row losses.  One program subtracts in this order and picks the label entry by a masked
  sum over the row; the other forms the log-probability  (s r (label r) - max) - log(sum exp)  and negates
  the mean.
-/
import Idealize.ShloMosaic.PureOps.Ideal
import Idealize.ShloMosaic.Lib.ValueIdx

noncomputable section

namespace Cert.Loss

open Idealize.ShloMosaic

/-- Row and column index types. -/
abbrev R := Fin 8192
abbrev D := Fin 128

/-- The literals of the two programs, as the extended reals their patterns denote. -/
def eps : EReal := Ideal.ofBits .f32 0x322BCC77#32
def two : EReal := Ideal.ofBits .f32 0x40000000#32
def half : EReal := Ideal.ofBits .f32 0x3F000000#32
def dneg : EReal := Ideal.ofBits .f32 0xC7435000#32
def ninf : EReal := Ideal.ofBits .f32 0xFF800000#32
def zero : EReal := Ideal.ofBits .f32 0x00000000#32
def cnt : EReal := Ideal.ofBits .f32 0x46000000#32

/-- A two-axis array of literal extents read as a function of its two coordinates. -/
def ofArr2 {a b : ℕ} (A : (⟨2, ![a, b]⟩ : Shape).Idx → EReal) : Fin a → Fin b → EReal :=
  fun p q => A (ValueIdx.ix2 p q)

/-- The second array's rows placed under the first's. -/
def stack (a b : Fin 4096 → D → EReal) : R → D → EReal :=
  fun r k => if h : r.val < 4096 then a ⟨r.val, h⟩ k else b ⟨r.val - 4096, by have := r.isLt; omega⟩ k

/-- Each row divided by its Euclidean length, the length clipped below at eps. -/
def zn (z : R → D → EReal) : R → D → EReal :=
  fun r k => Ideal.div (z r k) (max (Ideal.sqrt (∑ d : D, z r d * z r d)) eps)

/-- The dot product of rows r and c. -/
def dot (y : R → D → EReal) (r c : R) : EReal := ∑ k : D, y r k * y c k

/-- The similarity with the diagonal replaced, the temperature applied as a factor 2 ... -/
def simK (y : R → D → EReal) (r c : R) : EReal := if r = c then dneg else dot y r c * two
/-- ... or as a divisor 1/2. -/
def simR (y : R → D → EReal) (r c : R) : EReal := if r = c then dneg else Ideal.div (dot y r c) half

/-- The positive partner of row r: the same row of the other view. -/
def lab (r : R) : R :=
  if h : r.val < 4096 then ⟨r.val + 4096, by omega⟩ else ⟨r.val - 4096, by have := r.isLt; omega⟩

/-- The maximum of a row, folded from -inf. -/
def rmax (f : R → EReal) : EReal := (Finset.univ : Finset R).fold max ninf f

/-- log of the sum of the exponentials of a row shifted by its maximum. -/
def lse (f : R → EReal) : EReal := Ideal.log (∑ c : R, Ideal.exp (f c - rmax f))

/-- The row loss as (max + log-sum-exp) minus the label entry picked by a masked sum. -/
def rowK (s : R → R → EReal) (r : R) : EReal :=
  (rmax (s r) + lse (s r)) - ∑ c : R, (if c = lab r then s r c else zero)

/-- The log-probability of the label entry. -/
def rowR (s : R → R → EReal) (r : R) : EReal := (s r (lab r) - rmax (s r)) - lse (s r)

/-- The mean of the row losses. -/
def totalK (a b : Fin 4096 → D → EReal) : EReal := Ideal.div (∑ r : R, rowK (simK (zn (stack a b))) r) cnt

/-- Minus the mean of the log-probabilities. -/
def totalR (a b : Fin 4096 → D → EReal) : EReal := - Ideal.div (∑ r : R, rowR (simR (zn (stack a b))) r) cnt

end Cert.Loss

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.KI0Pay.lean ====
/-
  The first region's body at one entry of a block.

  The body takes a block x of 1024 rows of 128 entries, forms for each row p the sum over the 128 columns d of
  x(p, d)², takes its square root, clips it below at eps, and divides every entry of the row by that number.  So at
  the entry (p, q) the stored value is  x(p, q) / max (sqrt (Σ_d x(p, d)·x(p, d))) eps.
  The sum is kept as a column [1024, 1] and repeated along the 128 columns; both are read at an entry by the row
  they belong to.
-/
import proofs.«181090_j11141145166516_2_alg».proof.Proof.Spec
import proofs.«181090_j11141145166516_2_alg».proof.Proof.Gen.KernelIdeal.Skeleton
import proofs.«181090_j11141145166516_2_alg».proof.Proof.LibRowOps
import proofs.«181090_j11141145166516_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelIdeal.Val0

open Idealize.ShloMosaic Idealize.ShloMosaic.ValueIdx
open Cert.KernelIdeal Cert.KernelIdeal.Gen

/-- The clipped length of row p of a block: the square root of the sum of the squares of its 128 entries, at least eps. -/
def len (x0 : Vec Ideal S1024x128 .f32) (p : Fin 1024) : EReal :=
  max (Ideal.sqrt (∑ d : Fin 128, x0 (ix2 p d) * x0 (ix2 p d))) Cert.Loss.eps

/-- The column of clipped lengths, [1024, 1], reads at (p, 0) the clipped length of row p. -/
theorem len_column_apply (x0 : Vec Ideal S1024x128 .f32) (p : Fin 1024) :
    (maximumf (F := Ideal) (sqrt (F := Ideal) (shapeCast S1024x1
        (multiReduction (F := Ideal) .add [1] S1024 (mulf (F := Ideal) x0 x0) 0x00000000#32 reduces_S1024x128_S1024 (.inl rfl) rfl)
        shapeCasts_S1024_S1024x1))
      (broadcast S1024x1 (Scalar.ofBits (F := Ideal) .f32 0x322BCC77#32)) : FVec Ideal S1024x1 .f32) (ix2 p (0 : Fin 1))
      = len x0 p := by
  refine (maximumf_apply _ _ _).trans ?_
  unfold len
  refine congrArg (max · Cert.Loss.eps) ?_
  show Ideal.sqrt (shapeCast S1024x1 _ shapeCasts_S1024_S1024x1 (ix2 p (0 : Fin 1))) = _
  refine congrArg Ideal.sqrt ?_
  refine (Cert.Keepdims.column_cast_apply _ shapeCasts_S1024_S1024x1 p).trans ?_
  refine (Cert.RowOps.sum_over_columns_apply (mulf (F := Ideal) x0 x0) reduces_S1024x128_S1024 (.inl rfl) rfl p).trans ?_
  exact Finset.sum_congr rfl fun d _ => mulf_apply x0 x0 (ix2 p d)

/-- The body's stored value at the entry (p, q): the block's entry divided by the clipped length of its row. -/
theorem pay0_apply (x0 : Vec Ideal S1024x128 .f32) (p : Fin 1024) (q : Fin 128) :
    Cert.KernelIdeal.Gen.k0_pay1 (F := Ideal) x0 (ValueIdx.ix2 p q)
      = Ideal.div (x0 (ValueIdx.ix2 p q))
          (max (Ideal.sqrt (∑ d : Fin 128, x0 (ValueIdx.ix2 p d) * x0 (ValueIdx.ix2 p d))) Cert.Loss.eps) := by
  unfold Cert.KernelIdeal.Gen.k0_pay1
  rw [shapeCast_self]
  refine (divf_apply _ _ _).trans ?_
  refine congrArg (Ideal.div (x0 (ix2 p q))) ?_
  refine (Cert.Keepdims.column_repeat_apply _ broadcasts_S1024x1_S1024x128 p q).trans ?_
  exact len_column_apply x0 p

end Cert.KernelIdeal.Val0

end
-- ==== Proof.KI0Final.lean ====
/-
  The first region's output array after its run: the stacked input with every row divided by its clipped length.

  Point t of the grid of 8 handles rows 1024·t … 1024·t + 1023: its input block is those rows of the input array, the
  body stores over the whole block the rows divided by their clipped lengths, and the write-back puts the block at the
  same rows of the output array.  A row's clipped length depends on that row alone, so the block written at point t is
  the block at t of ONE function of the whole input array, and since the 8 blocks fill the 8192 rows (row r lies in the
  block of point r / 1024) the output array ends holding that function everywhere.
-/
import proofs.«181090_j11141145166516_2_alg».proof.Proof.Spec
import proofs.«181090_j11141145166516_2_alg».proof.Proof.KI.Dat0
import proofs.«181090_j11141145166516_2_alg».proof.Proof.KI0Pay
import Idealize.ShloMosaic.Lib.Pipeline.Value
import Idealize.ShloMosaic.Lib.ValueIdx

noncomputable section

open scoped BigOperators

namespace Cert.KernelIdeal.Val0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The normalised rows of a whole [8192, 128] array, entry by entry. -/
def rowsNormed (A : S8192x128.Idx → EReal) : S8192x128.Idx → EReal :=
  fun i => Cert.Loss.zn (fun r' k' => A (ix2 r' k')) (i 0) (i 1)

theorem rowsNormed_apply (A : S8192x128.Idx → EReal) (r : Fin 8192) (k : Fin 128) :
    rowsNormed A (ix2 r k) = Cert.Loss.zn (fun r' k' => A (ix2 r' k')) r k := rfl

theorem zeroOffsets : (![0, 0] : Fin 2 → Nat) = fun _ => 0 := funext fun a => by fin_cases a <;> rfl

/-- Both windows' block at point t is block row t, block column 0. -/
theorem block_indices : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- If a block x0 holds rows 1024·b … of an array A, the body's value at the block's entry j is the normalised array at
    the array's entry i that j sits on. -/
theorem body_on_rows (A : S8192x128.Idx → EReal) (x0 : Vec Ideal S1024x128 .f32) (b : ℕ)
    (hx : ∀ (y : S1024x128.Idx) (k : S8192x128.Idx), (k 0).val = b * 1024 + (y 0).val → (k 1).val = (y 1).val → x0 y = A k)
    (j : S1024x128.Idx) (i : S8192x128.Idx) (hi0 : (i 0).val = b * 1024 + (j 0).val) (hi1 : (i 1).val = (j 1).val) :
    k0_pay1 (F := Ideal) x0 j = rowsNormed A i := by
  obtain ⟨p, q, rfl⟩ : ∃ (p : Fin 1024) (q : Fin 128), j = ix2 p q := ⟨j 0, j 1, eq_ix2 j⟩
  obtain ⟨r, s, rfl⟩ : ∃ (r : Fin 8192) (s : Fin 128), i = ix2 r s := ⟨i 0, i 1, eq_ix2 i⟩
  have hr : r.val = b * 1024 + p.val := hi0
  obtain rfl : s = q := Fin.ext hi1
  rw [pay0_apply, rowsNormed_apply]
  unfold Cert.Loss.zn
  rw [hx (ix2 p s) (ix2 r s) hr rfl]
  refine congrArg (fun u => Ideal.div (A (ix2 r s)) (max (Ideal.sqrt u) Cert.Loss.eps)) ?_
  exact Finset.sum_congr rfl fun d _ => by rw [hx (ix2 p d) (ix2 r d) hr rfl]

/-- The input window's block at point t holds rows 1024·t … 1024·t + 1023 of the input array. -/
theorem input_block_apply (c : Dev nD) (t : Fin cfg0.N) (y : S1024x128.Idx) (k : S8192x128.Idx)
    (hk0 : (k 0).val = t.val * 1024 + (y 0).val) (hk1 : (k 1).val = (y 1).val) :
    (iblk0 V c 0 t : Vec Ideal S1024x128 .f32) y = (V c main_v0 : S8192x128.Idx → EReal) k := by
  obtain ⟨e0, e1, -, -⟩ := block_indices t
  unfold iblk0
  rw [View.read_apply]
  show V c main_v0 (((cfg0.win 0).blk t).view.emb y) = V c main_v0 k
  refine congrArg (V c main_v0) ?_
  funext a
  apply Fin.ext
  match a with
  | ⟨0, _⟩ => show win0_0.index t (0 : Fin 2) * 1024 + 1 * (y 0).val = (k 0).val; rw [e0, hk0]; omega
  | ⟨1, _⟩ => show win0_0.index t (1 : Fin 2) * 128 + 1 * (y 1).val = (k 1).val; rw [e1, hk1]; omega

/-- What point t writes back is block t of the normalised input array. -/
theorem flushed_eq (c : Dev nD) (t : Fin cfg0.N) :
    (dat0 V c).flushed 1 t = ((cfg0.win 1).blk t).view.read (Elt Ideal) (rowsNormed (V c main_v0)) := by
  show (cfg0.win 1).cut (grid0.coords t) ((dat0 V c).after 1 t) = _
  rw [after0_1]
  unfold out0_1
  rw [View.canon_unit_zero zeroOffsets]
  simp only [View.ld_unit_zero (S := S1024x128) zeroOffsets]
  obtain ⟨-, -, e2, e3⟩ := block_indices t
  funext j
  show k0_pay1 (F := Ideal) (iblk0 V c 0 t) j = rowsNormed (V c main_v0) (((cfg0.win 1).blk t).view.emb j)
  refine body_on_rows (V c main_v0) (iblk0 V c 0 t) t.val (fun y k h0 h1 => input_block_apply V c t y k h0 h1) j
    (((cfg0.win 1).blk t).view.emb j) ?_ ?_
  · show win0_1.index t (0 : Fin 2) * 1024 + 1 * (j 0).val = t.val * 1024 + (j 0).val
    rw [e2]; omega
  · show win0_1.index t (1 : Fin 2) * 128 + 1 * (j 1).val = (j 1).val
    rw [e3]; omega

/-- An entry of the output array is in point t's block iff each coordinate is in the block's range on its axis. -/
theorem mem_block (t : Fin cfg0.N) (i : S8192x128.Idx) :
    i ∈ ((cfg0.win 1).blk t).view.set ↔ ∀ a : Fin 2, win0_1.index t a * S1024x128.size a ≤ (i a).val ∧ (i a).val < win0_1.index t a * S1024x128.size a + S1024x128.size a := by
  show i ∈ ((View.whole main_v1).slice (win0_1.rect t)).set ↔ _
  rw [View.set_slice_whole, Rect.mem_set_unit]
  exact Iff.rfl

/-- Every entry of the output array lies in some point's block: row r is in the block of point r / 1024. -/
theorem covered (i : S8192x128.Idx) :
    ∃ t : Fin cfg0.N, (cfg0.win 1).flush t = true ∧ i ∈ ((cfg0.win 1).blk t).view.set := by
  have hi0 : (i 0).val < 8192 := (i 0).isLt
  have hi1 : (i 1).val < 128 := (i 1).isLt
  have hN : cfg0.N = 8 := rfl
  let t : Fin cfg0.N := ⟨(i 0).val / 1024, by rw [hN]; omega⟩
  have ht : t.val = (i 0).val / 1024 := rfl
  obtain ⟨-, -, e2, e3⟩ := block_indices t
  refine ⟨t, flush0_1 t, ?_⟩
  rw [mem_block]
  intro a
  match a with
  | ⟨0, _⟩ => show win0_1.index t (0 : Fin 2) * 1024 ≤ (i 0).val ∧ (i 0).val < win0_1.index t (0 : Fin 2) * 1024 + 1024; rw [e2, ht]; omega
  | ⟨1, _⟩ => show win0_1.index t (1 : Fin 2) * 128 ≤ (i 1).val ∧ (i 1).val < win0_1.index t (1 : Fin 2) * 128 + 128; rw [e3]; omega

/-- The output array after the region's run is the normalised input array. -/
theorem final0_array (c : Dev nD) : (dat0 V c).arrAt 1 cfg0.N = rowsNormed (V c main_v0) :=
  (dat0 V c).arrAt_eq_of_cover 1 (rowsNormed (V c main_v0)) (fun t _ => flushed_eq V c t) covered

/-- Entry (r, k) of the output array after the region's run: the input's entry divided by the clipped length of row r. -/
theorem final0 (c : Dev nD) (r : Fin 8192) (k : Fin 128) :
    (dat0 V c).arrAt 1 cfg0.N (ValueIdx.ix2 r k) = Cert.Loss.zn (fun r' k' => V c main_v0 (ValueIdx.ix2 r' k')) r k := by
  rw [final0_array V c]
  exact rowsNormed_apply (V c main_v0) r k

end Cert.KernelIdeal.Val0

end
-- ==== Proof.KI1Final.lean ====
/-
  The second kernel region, from blocks to the array.

  Grid point t of the 32 handles rows 256 t ... 256 t + 255.  Its first input block is those rows of the
  normalised array y, its second input block is all of y, and the block it writes back is rows
  256 t ... 256 t + 255 of the one-column output.  Given that the body's store at local row p is the row loss
  of global row g = 256 t + p, computed from the similarity row  c |-> (if g = c then dneg else <x0 p, x1 c> * 2),
  each written block is the restriction to its rows of ONE function of the whole array,
      G y (r, 0) = rowK (simK y) r,
  because the row loss of row r reads only row r of the similarity, and that row is the same whether its
  entries are read from the blocks or from y.  The 32 blocks tile the output (row r lies in block r / 256), so
  after the region the output array is G y.
-/
import proofs.«181090_j11141145166516_2_alg».proof.Proof.KI.Dat1
import proofs.«181090_j11141145166516_2_alg».proof.Proof.Spec
import Idealize.ShloMosaic.Lib.Pipeline.Value

set_option maxRecDepth 16384

noncomputable section

namespace Cert.KernelIdeal.Val1F

open Idealize.ShloMosaic Idealize.ShloMosaic.TcCoe Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The offsets of the whole-block rectangles are zero. -/
theorem hz : (![0, 0] : Fin 2 → Nat) = fun _ => 0 := funext fun a => by fin_cases a <;> rfl

/-- The row loss of row r reads only row r of the similarity. -/
theorem rowK_congr (s s' : Cert.Loss.R → Cert.Loss.R → EReal) (r : Cert.Loss.R) (h : s r = s' r) :
    Cert.Loss.rowK s r = Cert.Loss.rowK s' r := by
  unfold Cert.Loss.rowK
  rw [h]

/-- The block indices at point t: the first input and the output move down the rows with t, the second input
    stays at the whole array; the grid coordinate of point t is t. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0
    ∧ (grid1.coords t 0).val = t.val :=
  (by decide +kernel : ∀ t : Fin grid1.N, _)

/-- The whole-array function: at (r, 0), the row loss of row r of the similarity of the array y. -/
def G (y : S8192x128.Idx → Elt Ideal .f32) : S8192x1.Idx → Elt Ideal .f32 :=
  fun i => Cert.Loss.rowK (Cert.Loss.simK (fun r' k' => y (ValueIdx.ix2 r' k'))) ⟨(i 0).val, (i 0).isLt⟩

/-- The whole-array function at an index whose row coordinate is g. -/
theorem G_apply (y : S8192x128.Idx → Elt Ideal .f32) (i : S8192x1.Idx) (g : Fin 8192) (h : (i 0).val = g.val) :
    G y i = Cert.Loss.rowK (Cert.Loss.simK (fun r' k' => y (ValueIdx.ix2 r' k'))) g := by
  unfold G
  congr 1
  exact Fin.ext h

/-- The first input block at point t: its entry (p, k) is the array's entry (256 t + p, k). -/
theorem blk0_apply (c : Dev nD) (t : Fin cfg1.N) (p : Fin 256) (k : Fin 128) (g : Fin 8192)
    (hg : g.val = 256 * t.val + p.val) :
    (iblk1 V c 0 t : Vec Ideal S256x128 .f32) (ValueIdx.ix2 p k) = V c main_v1 (ValueIdx.ix2 g k) := by
  obtain ⟨e0, e1, -⟩ := idx_facts t
  unfold iblk1
  rw [View.read_apply]
  show V c main_v1 _ = V c main_v1 _
  congr 1
  funext a
  apply Fin.ext
  match a with
  | ⟨0, _⟩ => show win1_0.index t (0 : Fin 2) * 256 + 1 * p.val = g.val; rw [e0, hg]; omega
  | ⟨1, _⟩ => show win1_0.index t (1 : Fin 2) * 128 + 1 * k.val = k.val; rw [e1]; omega

/-- The second input block at every point is the whole array. -/
theorem blk1_apply (c : Dev nD) (t : Fin cfg1.N) (q : Fin 8192) (k : Fin 128) :
    (iblk1 V c 1 t : Vec Ideal S8192x128 .f32) (ValueIdx.ix2 q k) = V c main_v1 (ValueIdx.ix2 q k) := by
  obtain ⟨-, -, e2, e3, -⟩ := idx_facts t
  unfold iblk1
  rw [View.read_apply]
  show V c main_v1 _ = V c main_v1 _
  congr 1
  funext a
  apply Fin.ext
  match a with
  | ⟨0, _⟩ => show win1_1.index t (0 : Fin 2) * 8192 + 1 * q.val = q.val; rw [e2]; omega
  | ⟨1, _⟩ => show win1_1.index t (1 : Fin 2) * 128 + 1 * k.val = k.val; rw [e3]; omega

/-- Row g of the similarity read from two blocks x0, x1 that hold row g of y (as local row p) and all of y:
    it is row g of the similarity of y. -/
theorem row_eq (y : S8192x128.Idx → Elt Ideal .f32) (x0 : Vec Ideal S256x128 .f32) (x1 : Vec Ideal S8192x128 .f32)
    (p : Fin 256) (g : Fin 8192)
    (h0 : ∀ k : Fin 128, x0 (ValueIdx.ix2 p k) = y (ValueIdx.ix2 g k))
    (h1 : ∀ (q : Fin 8192) (k : Fin 128), x1 (ValueIdx.ix2 q k) = y (ValueIdx.ix2 q k)) :
    (fun (_ : Cert.Loss.R) (c' : Cert.Loss.R) => if g = c' then Cert.Loss.dneg else
        (∑ k : Fin 128, x0 (ValueIdx.ix2 p k) * x1 (ValueIdx.ix2 c' k)) * Cert.Loss.two) g
      = Cert.Loss.simK (fun r' k' => y (ValueIdx.ix2 r' k')) g := by
  funext c'
  unfold Cert.Loss.simK Cert.Loss.dot
  refine if_congr Iff.rfl rfl ?_
  refine congrArg (· * Cert.Loss.two) (Finset.sum_congr rfl fun k _ => ?_)
  rw [h0 k, h1 c' k]

/-- The output buffer after the body is the body's one store, which fills it. -/
theorem out1_2_eq (i : grid1.Coords) (x0 : Vec Ideal S256x128 .f32) (x1 : Vec Ideal S8192x128 .f32) :
    out1_2 i x0 x1 = k1_pay1 i x0 x1 := by
  unfold out1_2
  rw [View.canon_unit_zero hz]
  simp only [View.ld_unit_zero (S := S256x128) hz, View.ld_unit_zero (S := S8192x128) hz]

/-- An index of the output array is in point t's block iff each coordinate is in the block's range. -/
theorem mem_blk (t : Fin cfg1.N) (i : S8192x1.Idx) :
    i ∈ ((cfg1.win 2).blk t).view.set ↔ ∀ a : Fin 2, win1_2.index t a * S256x1.size a ≤ (i a).val ∧ (i a).val < win1_2.index t a * S256x1.size a + S256x1.size a := by
  show i ∈ ((View.whole main_v2).slice (win1_2.rect t)).set ↔ _
  rw [View.set_slice_whole, Rect.mem_set_unit]
  exact Iff.rfl

/-- Row r of the output lies in the block of point r / 256, which is written back. -/
theorem cover (i : S8192x1.Idx) : ∃ t : Fin cfg1.N, (cfg1.win 2).flush t = true ∧ i ∈ ((cfg1.win 2).blk t).view.set := by
  have h0 : (i 0).val < 8192 := (i 0).isLt
  have h1 : (i 1).val < 1 := (i 1).isLt
  have hN : cfg1.N = 32 := N_1
  refine ⟨⟨(i 0).val / 256, by rw [hN]; omega⟩, flush1_2 _, ?_⟩
  rw [mem_blk]
  obtain ⟨-, -, -, -, e4, e5, -⟩ := idx_facts ⟨(i 0).val / 256, by rw [hN]; omega⟩
  intro a
  match a with
  | ⟨0, _⟩ =>
    show win1_2.index ⟨(i 0).val / 256, _⟩ (0 : Fin 2) * 256 ≤ (i 0).val ∧ (i 0).val < win1_2.index ⟨(i 0).val / 256, _⟩ (0 : Fin 2) * 256 + 256
    rw [e4]; show (i 0).val / 256 * 256 ≤ (i 0).val ∧ (i 0).val < (i 0).val / 256 * 256 + 256; omega
  | ⟨1, _⟩ =>
    show win1_2.index ⟨(i 0).val / 256, _⟩ (1 : Fin 2) * 1 ≤ (i 1).val ∧ (i 1).val < win1_2.index ⟨(i 0).val / 256, _⟩ (1 : Fin 2) * 1 + 1
    rw [e5]; omega

section
variable (hpay : ∀ (i : grid1.Coords) (x0 : Vec Ideal S256x128 .f32) (x1 : Vec Ideal S8192x128 .f32) (p : Fin 256) (g : Fin 8192),
          g.val = 256 * (i 0).val + p.val →
          Cert.KernelIdeal.Gen.k1_pay1 (F := Ideal) i x0 x1 (ValueIdx.ix2 p (0 : Fin 1))
            = Cert.Loss.rowK (fun _ c => if g = c then Cert.Loss.dneg else (∑ k : Fin 128, x0 (ValueIdx.ix2 p k) * x1 (ValueIdx.ix2 c k)) * Cert.Loss.two) g)
include hpay

/-- What point t writes back is block t of the whole-array function of the normalised array. -/
theorem flushed_eq (c : Dev nD) (t : Fin cfg1.N) :
    (dat1 V c).flushed 2 t = ((cfg1.win 2).blk t).view.read (Elt Ideal) (G (V c main_v1)) := by
  show (cfg1.win 2).cut (grid1.coords t) ((dat1 V c).after 2 t) = _
  rw [after1_2 V c t, out1_2_eq]
  funext j
  rw [View.read_apply]
  obtain ⟨p, q, rfl⟩ : ∃ (p : Fin 256) (q : Fin 1), j = ValueIdx.ix2 p q :=
    ⟨⟨(j 0).val, (j 0).isLt⟩, ⟨(j 1).val, (j 1).isLt⟩, by funext a; match a with | ⟨0, _⟩ => rfl | ⟨1, _⟩ => rfl⟩
  obtain rfl : q = 0 := Subsingleton.elim q 0
  obtain ⟨-, -, -, -, e4, e5, e6⟩ := idx_facts t
  have hlt : 256 * t.val + p.val < 8192 := by
    have ht : t.val < 32 := t.isLt.trans_eq (N_1 : cfg1.N = 32)
    omega
  show k1_pay1 (grid1.coords t) (iblk1 V c 0 t) (iblk1 V c 1 t) (ValueIdx.ix2 p (0 : Fin 1))
    = G (V c main_v1) (((cfg1.win 2).blk t).view.emb (ValueIdx.ix2 p (0 : Fin 1)))
  refine (hpay (grid1.coords t) (iblk1 V c 0 t) (iblk1 V c 1 t) p ⟨256 * t.val + p.val, hlt⟩
    (by show 256 * t.val + p.val = 256 * (grid1.coords t 0).val + p.val; rw [e6])).trans ?_
  refine Eq.trans ?_ (G_apply (V c main_v1) (((cfg1.win 2).blk t).view.emb (ValueIdx.ix2 p (0 : Fin 1))) ⟨256 * t.val + p.val, hlt⟩ ?_).symm
  · exact rowK_congr _ _ _ (row_eq (V c main_v1) (iblk1 V c 0 t) (iblk1 V c 1 t) p ⟨256 * t.val + p.val, hlt⟩
      (fun k => blk0_apply V c t p k ⟨256 * t.val + p.val, hlt⟩ rfl) (fun q k => blk1_apply V c t q k))
  · show win1_2.index t (0 : Fin 2) * 256 + 1 * p.val = 256 * t.val + p.val
    rw [e4]; omega

/-- The output array after the region is the whole-array function of the normalised array. -/
theorem arr_eq (c : Dev nD) : (dat1 V c).arrAt 2 cfg1.N = G (V c main_v1) :=
  (dat1 V c).arrAt_eq_of_cover 2 (G (V c main_v1)) (fun t _ => flushed_eq V hpay c t) cover

end

/-- The output array after the region: at (r, 0), the row loss of row r of the similarity of the normalised array. -/
theorem final1
    (hpay : ∀ (i : grid1.Coords) (x0 : Vec Ideal S256x128 .f32) (x1 : Vec Ideal S8192x128 .f32) (p : Fin 256) (g : Fin 8192),
      g.val = 256 * (i 0).val + p.val →
      Cert.KernelIdeal.Gen.k1_pay1 (F := Ideal) i x0 x1 (ValueIdx.ix2 p (0 : Fin 1))
        = Cert.Loss.rowK (fun _ c => if g = c then Cert.Loss.dneg else (∑ k : Fin 128, x0 (ValueIdx.ix2 p k) * x1 (ValueIdx.ix2 c k)) * Cert.Loss.two) g)
    (V : (c : Dev nD) → (b : Ref sig .tc) → Buf (Elt Ideal) ((c : Thread nD τ).loc b)) (c : Dev nD) (r : Fin 8192) :
    (Cert.KernelIdeal.Hand.dat1 V c).arrAt 2 cfg1.N (ValueIdx.ix2 r (0 : Fin 1))
      = Cert.Loss.rowK (Cert.Loss.simK (fun r' k' => V c main_v1 (ValueIdx.ix2 r' k'))) r := by
  rw [arr_eq V hpay c]
  exact G_apply _ _ r rfl

end Cert.KernelIdeal.Val1F

end
-- ==== Proof.LibEdgeForms.lean ====
/-
  Readings at an entry (p, q) of a two-axis array, for the operations that pick rows out of a table and stack them.

  * A vector [b] repeated down the rows of an [a, b] array reads at (p, q) its entry q; a one-row array [1, b] repeated
    down a rows reads at (p, q) its entry (0, q).
  * The slice of row 0 of an [a, b] array, kept as [1, b], reads at (0, q) the entry (0, q); taken out as a vector and
    repeated down m rows (directly, or laid as a row first) it reads at (p, q) the entry (0, q).
  * Two arrays [n₁, b] and [n₂, b] stacked along the rows read, at a row below n₁, the first at that row and, at a row
    p at or past n₁, the second at row p − n₁.
  * A gather of whole rows of an [N, C] table, one start word per result row held as a column [R, 1], reads at (r, c)
    the table's entry (ρ r, c), where ρ r is the word of row r read signed and clamped into [0, N − 1].  The row ρ r
    does not depend on the number of columns C.
  * An ordinary product [a, n] × [n, b] of the host, on the extended reals, is at (p, q) the sum over k of
    left (p, k) · right (k, q).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.EdgeForms

open Idealize.ShloMosaic Idealize.ShloMosaic.ValueIdx

variable {α : Type}

/-! ## Repeating a vector or a row down the rows -/

/-- A vector [b] repeated down the rows of an [a, b] array: at (p, q) its entry q. -/
theorem vector_rows_apply {a b : ℕ} (v : (⟨1, ![b]⟩ : Shape).Idx → α)
    (h : (⟨1, ![b]⟩ : Shape).BroadcastsInDim ⟨2, ![a, b]⟩ ![1]) (p : Fin a) (q : Fin b) :
    broadcastInDim ⟨2, ![a, b]⟩ ![1] h v (ix2 p q) = v (ix1 q) := by
  refine broadcastInDim_apply _ h v (ix2 p q) (ix1 q) fun ax => ?_
  match ax with
  | ⟨0, _⟩ =>
    show q.val = if b = 1 then 0 else q.val
    split
    · have := q.isLt; omega
    · rfl

/-- A one-row array [1, b] repeated down a rows: at (p, q) its entry (0, q). -/
theorem row_repeat_apply {a b : ℕ} (u : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h u (ix2 p q) = u (ix2 (0 : Fin 1) q) := by
  refine broadcastInDim_apply _ h u (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-! ## Row 0 of a table -/

/-- The slice of row 0 of an [a, b] array, kept as a one-row array: at (0, q) the entry (0, q). -/
theorem first_row_apply {a b : ℕ} (x : (⟨2, ![a, b]⟩ : Shape).Idx → α)
    (h : (⟨2, ![a, b]⟩ : Shape).Slices ![0, 0] ⟨2, ![1, b]⟩) (ha : 0 < a) (u : Fin 1) (q : Fin b) :
    extractStridedSlice ⟨2, ![1, b]⟩ ![0, 0] x h (ix2 u q) = x (ix2 (⟨0, ha⟩ : Fin a) q) := by
  refine extractStridedSlice_apply _ x h (ix2 u q) (ix2 (⟨0, ha⟩ : Fin a) q) fun ax => ?_
  match ax with
  | ⟨0, _⟩ =>
    show 0 = 0 + u.val
    have := u.isLt; omega
  | ⟨1, _⟩ =>
    show q.val = 0 + q.val
    omega

/-- Row 0 of an [a, b] array taken out as a vector [b]: at q the entry (0, q). -/
theorem first_row_vector_apply {a b : ℕ} (x : (⟨2, ![a, b]⟩ : Shape).Idx → α)
    (hs : (⟨2, ![a, b]⟩ : Shape).Slices ![0, 0] ⟨2, ![1, b]⟩) (hc : (⟨2, ![1, b]⟩ : Shape).ShapeCasts ⟨1, ![b]⟩)
    (ha : 0 < a) (q : Fin b) :
    shapeCast ⟨1, ![b]⟩ (extractStridedSlice ⟨2, ![1, b]⟩ ![0, 0] x hs) hc (ix1 q) = x (ix2 (⟨0, ha⟩ : Fin a) q) :=
  (shapeCast_1a_a_apply _ hc q).trans (first_row_apply x hs ha 0 q)

/-- Row 0 of an [a, b] array, as a vector, repeated down m rows: at (p, q) the entry (0, q). -/
theorem first_row_rows_apply {a b m : ℕ} (x : (⟨2, ![a, b]⟩ : Shape).Idx → α)
    (hs : (⟨2, ![a, b]⟩ : Shape).Slices ![0, 0] ⟨2, ![1, b]⟩) (hc : (⟨2, ![1, b]⟩ : Shape).ShapeCasts ⟨1, ![b]⟩)
    (h1 : (⟨1, ![b]⟩ : Shape).BroadcastsInDim ⟨2, ![m, b]⟩ ![1]) (ha : 0 < a) (p : Fin m) (q : Fin b) :
    broadcastInDim ⟨2, ![m, b]⟩ ![1] h1 (shapeCast ⟨1, ![b]⟩ (extractStridedSlice ⟨2, ![1, b]⟩ ![0, 0] x hs) hc) (ix2 p q)
      = x (ix2 (⟨0, ha⟩ : Fin a) q) :=
  (vector_rows_apply _ h1 p q).trans (first_row_vector_apply x hs hc ha q)

/-- Row 0 of an [a, b] array, as a vector, laid as a one-row array and repeated down m rows: at (p, q) the entry (0, q). -/
theorem first_row_laid_rows_apply {a b m : ℕ} (x : (⟨2, ![a, b]⟩ : Shape).Idx → α)
    (hs : (⟨2, ![a, b]⟩ : Shape).Slices ![0, 0] ⟨2, ![1, b]⟩) (hc : (⟨2, ![1, b]⟩ : Shape).ShapeCasts ⟨1, ![b]⟩)
    (h1 : (⟨1, ![b]⟩ : Shape).BroadcastsInDim ⟨2, ![1, b]⟩ ![1])
    (h2 : (⟨2, ![1, b]⟩ : Shape).BroadcastsInDim ⟨2, ![m, b]⟩ ![0, 1]) (ha : 0 < a) (p : Fin m) (q : Fin b) :
    broadcastInDim ⟨2, ![m, b]⟩ ![0, 1] h2
        (broadcastInDim ⟨2, ![1, b]⟩ ![1] h1 (shapeCast ⟨1, ![b]⟩ (extractStridedSlice ⟨2, ![1, b]⟩ ![0, 0] x hs) hc)) (ix2 p q)
      = x (ix2 (⟨0, ha⟩ : Fin a) q) :=
  (row_repeat_apply _ h2 p q).trans ((vector_rows_apply _ h1 0 q).trans (first_row_vector_apply x hs hc ha q))

/-- A vector [b] laid as a one-row array and repeated down m rows: at (p, q) its entry q. -/
theorem vector_laid_rows_apply {b m : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![m, b]⟩ ![0, 1]) (p : Fin m) (q : Fin b) :
    broadcastInDim ⟨2, ![m, b]⟩ ![0, 1] h2 (broadcastInDim ⟨2, ![1, b]⟩ ![1] h1 v) (ix2 p q) = v (ix1 q) :=
  (row_repeat_apply _ h2 p q).trans (vector_rows_apply v h1 0 q)

/-! ## Two arrays stacked along the rows -/

/-- Two arrays stacked along the rows, at a row below the first's height: the first array at that row. -/
theorem stacked_top_apply {n₁ n₂ n b : ℕ} (x₁ : (⟨2, ![n₁, b]⟩ : Shape).Idx → α) (x₂ : (⟨2, ![n₂, b]⟩ : Shape).Idx → α)
    (h : Shape.Concatenates [(⟨2, ![n₁, b]⟩ : Shape), ⟨2, ![n₂, b]⟩] ⟨2, ![n, b]⟩ 0)
    (p : Fin n) (q : Fin b) (hp : p.val < n₁) :
    concatenate ⟨2, ![n, b]⟩ 0 [⟨⟨2, ![n₁, b]⟩, x₁⟩, ⟨⟨2, ![n₂, b]⟩, x₂⟩] h (ix2 p q) = x₁ (ix2 (⟨p.val, hp⟩ : Fin n₁) q) := by
  refine concatenate_pair_apply_left 0 x₁ x₂ h (ix2 p q) rfl (ix2 (⟨p.val, hp⟩ : Fin n₁) q) fun ax => ?_
  match ax with
  | ⟨0, _⟩ => rfl
  | ⟨1, _⟩ => rfl

/-- Two arrays stacked along the rows, at a row p at or past the first's height n₁: the second array at row p − n₁. -/
theorem stacked_bottom_apply {n₁ n₂ n b : ℕ} (x₁ : (⟨2, ![n₁, b]⟩ : Shape).Idx → α) (x₂ : (⟨2, ![n₂, b]⟩ : Shape).Idx → α)
    (h : Shape.Concatenates [(⟨2, ![n₁, b]⟩ : Shape), ⟨2, ![n₂, b]⟩] ⟨2, ![n, b]⟩ 0)
    (p : Fin n) (q : Fin b) (hp : n₁ ≤ p.val) (hp₂ : p.val - n₁ < n₂) :
    concatenate ⟨2, ![n, b]⟩ 0 [⟨⟨2, ![n₁, b]⟩, x₁⟩, ⟨⟨2, ![n₂, b]⟩, x₂⟩] h (ix2 p q)
      = x₂ (ix2 (⟨p.val - n₁, hp₂⟩ : Fin n₂) q) := by
  refine concatenate_pair_apply_right 0 x₁ x₂ h (ix2 p q) rfl rfl (ix2 (⟨p.val - n₁, hp₂⟩ : Fin n₂) q)
    (fun ax hax => ?_) ?_
  · match ax with
    | ⟨0, _⟩ => exact absurd (Fin.ext rfl) hax
    | ⟨1, _⟩ => rfl
  · show p.val - n₁ + n₁ = p.val
    omega

/-! ## A gather of whole rows -/

/-- The dimension numbers of a gather of whole rows: an operand [N, C], one start word per result row held as a column
    [R, 1], a result [R, C]. -/
abbrev rowGatherDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row of an N-row table that result row r of a gather of whole rows reads: the start word at (r, 0) read as a
    signed integer and clamped into [0, N − 1]. -/
def gatheredRow {N R w : ℕ} (hN : 0 < N) (idx : IVec ⟨2, ![R, 1]⟩ w) (r : Fin R) : Fin N :=
  ⟨min (idx (ix2 r (0 : Fin 1))).toInt.toNat (N - 1), by omega⟩

/-- A gather of whole rows at (r, c): the table's entry (ρ r, c), ρ r the clamped start word of row r. -/
theorem row_gather_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N C R wf) x idx (ix2 r c) = x (ix2 (gatheredRow hN idx r) c) := by
  unfold Host.gather
  refine congrArg x (funext fun a => Fin.ext ?_)
  match a with
  | ⟨0, _⟩ =>
    show (rowGatherDims N C R wf).start (ix2 r c) idx 0 + (rowGatherDims N C R wf).batchCoord (ix2 r c) 0
      + (rowGatherDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r c) ⟨List.idxOf (0 : Fin 2) (rowGatherDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N C R wf).start (ix2 r c) idx 1 + (rowGatherDims N C R wf).batchCoord (ix2 r c) 1
      + (rowGatherDims N C R wf).offCoord (ix2 r c) 1 = c.val
    have hst : (rowGatherDims N C R wf).start (ix2 r c) idx 1 = 0 := by
      unfold GatherDims.start
      rw [dif_neg fun h => absurd (List.mem_singleton.mp h) (by decide : (1 : Fin 2) ≠ 0)]
    have hoff : (rowGatherDims N C R wf).offCoord (ix2 r c) 1 = c.val := by
      unfold GatherDims.offCoord
      rw [dif_pos ((GatherDims.mem_sKept _ _).mpr
        ⟨fun h => absurd (List.mem_singleton.mp h) (by decide : (1 : Fin 2) ≠ 0), List.not_mem_nil⟩)]
      rfl
    rw [hst, GatherDims.batchCoord_eq_zero _ _ _ List.not_mem_nil, hoff]
    omega

/-! ## The host's ordinary product -/

/-- The dimension numbers of an ordinary [a, n] × [n, b] product, over any witness of their well-formedness. -/
abbrev productDims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- The host's ordinary product on the extended reals: at (p, q) the sum over k of left (p, k) · right (k, q). -/
theorem host_product_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    Host.dotGeneral (F := Ideal) (productDims wf) prec L R (ix2 p q) = ∑ k : Fin n, L (ix2 p k) * R (ix2 k q) := by
  show FloatOps.dotGeneral (productDims wf) prec .single L R (ix2 p q) = _
  rw [Ideal.dotGeneral_apply, ← Equiv.sum_comp (contrEquiv1 (productDims wf) n rfl rfl).symm]
  refine Finset.sum_congr rfl fun k _ => ?_
  have hk := contrEquiv1_symm_val (productDims wf) n rfl rfl k
  have el : (productDims wf).lhsIdx (ix2 p q) ((contrEquiv1 (productDims wf) n rfl rfl).symm k) = ix2 p k :=
    funext fun ax => Fin.ext (by
      match ax with
      | ⟨0, _⟩ => rfl
      | ⟨1, _⟩ => exact ((productDims wf).lhsIdx_val_of_single rfl _ _).trans hk)
  have er : (productDims wf).rhsIdx (ix2 p q) ((contrEquiv1 (productDims wf) n rfl rfl).symm k) = ix2 k q :=
    funext fun ax => Fin.ext (by
      match ax with
      | ⟨0, _⟩ => exact ((productDims wf).rhsIdx_val_of_single rfl _ _).trans hk
      | ⟨1, _⟩ => rfl)
  rw [el, er]

end Cert.EdgeForms

end
-- ==== Proof.KIValue.lean ====
/-
  The idealized kernel's result as the specification's mean of row losses.
  The host's mean of the row-loss array is the sum of its 8192 entries from zero, divided by the constant 8192;
  the row-loss array is, row by row, the loss of that row of the masked similarity of the normalised array; the
  normalised array is, entry by entry, the normalisation of the stacked input; and the stacked input read above and
  below the seam is the specification's stacking of the two arguments.
-/
import proofs.«181090_j11141145166516_2_alg».proof.Proof.KI.Tail
import proofs.«181090_j11141145166516_2_alg».proof.Proof.KI0Final
import proofs.«181090_j11141145166516_2_alg».proof.Proof.KI1Final
import proofs.«181090_j11141145166516_2_alg».proof.Proof.Spec
import proofs.«181090_j11141145166516_2_alg».proof.Proof.LibEdgeForms
import Idealize.ShloMosaic.PureOps.Ideal.Laws
import Idealize.ShloMosaic.Lib.ValueIdx

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Hand

/-- The two arguments stacked along the rows, read at (r, k). -/
theorem stacked_read (x0 x1 : FVec Ideal S4096x128 .f32)
    (h : Shape.Concatenates [S4096x128, S4096x128] S8192x128 0) (r : Fin 8192) (k : Fin 128) :
    concatenate S8192x128 0 [⟨S4096x128, x0⟩, ⟨S4096x128, x1⟩] h (ix2 r k)
      = Cert.Loss.stack (Cert.Loss.ofArr2 x0) (Cert.Loss.ofArr2 x1) r k := by
  unfold Cert.Loss.stack
  by_cases hr : r.val < 4096
  · rw [dif_pos hr]
    exact Cert.EdgeForms.stacked_top_apply x0 x1 h r k hr
  · rw [dif_neg hr]
    have := r.isLt
    exact Cert.EdgeForms.stacked_bottom_apply x0 x1 h r k (by omega) (by omega)

/-- The host's mean of a column of 8192 entries: their sum divided by the constant. -/
theorem mean_apply (y : FVec Ideal S8192x1 .f32) (i : S_.Idx) :
    Host.divf (Host.reduceAdd y (constant (F := Ideal) S_ .f32 0x00000000#32) reducesTo_S8192x1_S_d0_1 h_S_)
        (constant (F := Ideal) S_ .f32 0x46000000#32) i
      = Ideal.div (∑ r : Fin 8192, y (ix2 r (0 : Fin 1))) Cert.Loss.cnt := by
  have hsum : Host.reduceAdd y (constant (F := Ideal) S_ .f32 0x00000000#32) reducesTo_S8192x1_S_d0_1 h_S_ i
      = (constant (F := Ideal) S_ .f32 0x00000000#32) (Shape.Idx.first h_S_) + ∑ j : S8192x1.Idx, y j := by
    simp only [Host.reduceAdd, Ideal.hostReduceAdd_def]
    exact Ideal.hostReduceAdd_total reducesTo_S8192x1_S_d0_1 (fun b => b.elim0) y _ i
  show FloatOps.hostDivf _ _ = _
  rw [hsum]
  simp only [constant, Ideal.hostDivf_def, Ideal.ofBits_def, Ideal.ofBits_zero_f32, zero_add]
  rw [sum_idx2]
  simp only [Fin.sum_univ_one]
  rfl

variable (hpay : ∀ (i : grid1.Coords) (x0 : Vec Ideal S256x128 .f32) (x1 : Vec Ideal S8192x128 .f32) (p : Fin 256) (g : Fin 8192),
  g.val = 256 * (i 0).val + p.val →
  Cert.KernelIdeal.Gen.k1_pay1 (F := Ideal) i x0 x1 (ValueIdx.ix2 p (0 : Fin 1))
    = Cert.Loss.rowK (fun _ c => if g = c then Cert.Loss.dneg else (∑ k : Fin 128, x0 (ValueIdx.ix2 p k) * x1 (ValueIdx.ix2 c k)) * Cert.Loss.two) g)

include hpay in
/-- The result buffer's entry after the run is the specification's mean of the row losses of the two arguments. -/
theorem kernel_value (m : (ℓ : Loc nD τ sig) → Buf (Elt Ideal) ℓ) (ρ : Dev nD → PrngReg) (c : Dev nD) (i : S_.Idx) :
    W4 (F := Ideal) m ρ c (Proc.devRef .tc main_v4) i
      = Cert.Loss.totalK (Cert.Loss.ofArr2 (m ((c : Thread nD τ).loc main_arg0))) (Cert.Loss.ofArr2 (m ((c : Thread nD τ).loc main_arg1))) := by
  rw [W4_v4, mean_apply]
  unfold Cert.Loss.totalK
  refine congrArg (fun s => Ideal.div s Cert.Loss.cnt) (Finset.sum_congr rfl fun r _ => ?_)
  rw [V3_v2, Cert.KernelIdeal.Val1F.final1 hpay (V2 m ρ) c r]
  refine congrArg (fun y => Cert.Loss.rowK (Cert.Loss.simK y) r) (funext fun r' => funext fun k' => ?_)
  rw [V2_v1, Cert.KernelIdeal.Val0.final0 (V1 m ρ) c r' k']
  refine congrArg (fun z => Cert.Loss.zn z r' k') (funext fun r'' => funext fun k'' => ?_)
  rw [V1_v0]
  exact stacked_read _ _ _ r'' k''

end Cert.KernelIdeal.Val

end
-- ==== Proof.KI1PayWords.lean ====
/-
  The 32-bit index words of the loss kernel, read as the numbers they denote.

  Block a of 256 rows holds the global rows 256 a + p; the row word is computed as a * 256 + p in 32-bit words and,
  all numbers here being below 8192 + 4096, nothing wraps and every word is non-negative when read signed.  Two such
  words are equal exactly when the numbers are, and the label word, chosen by the signed test "row < 4096" between
  row + 4096 and row - 4096, denotes the partner row of the specification.
-/
import proofs.«181090_j11141145166516_2_alg».proof.Proof.Spec

namespace Cert.KernelIdeal.Val1

open Idealize.ShloMosaic

/-- The word a * 256 + p of local row p of block a denotes the global row 256 a + p. -/
theorem rowWord (a p g : ℕ) (ha : a < 32) (hp : p < 256) (hg : g = 256 * a + p) :
    IntOp.addi (Scalar.muli (BitVec.ofNat 32 a) 256#32) (BitVec.ofNat 32 p) = BitVec.ofNat 32 g := by
  apply BitVec.eq_of_toNat_eq
  show ((BitVec.ofNat 32 a) * 256#32 + BitVec.ofNat 32 p).toNat = _
  rw [BitVec.toNat_add, BitVec.toNat_mul, BitVec.toNat_ofNat, BitVec.toNat_ofNat, BitVec.toNat_ofNat, BitVec.toNat_ofNat]
  omega

/-- The words of two numbers below 2^32 are equal exactly when the numbers are. -/
theorem ofNat_eq_iff (g c : ℕ) (hg : g < 2 ^ 32) (hc : c < 2 ^ 32) :
    BitVec.ofNat 32 g = BitVec.ofNat 32 c ↔ g = c := by
  constructor
  · intro e
    have := congrArg BitVec.toNat e
    rw [BitVec.toNat_ofNat, BitVec.toNat_ofNat, Nat.mod_eq_of_lt hg, Nat.mod_eq_of_lt hc] at this
    exact this
  · intro e; rw [e]

/-- A select on the equality test of two index words chooses by the equality of the numbers. -/
theorem select_eq_words {α : Type} (g c : ℕ) (hg : g < 2 ^ 32) (hc : c < 2 ^ 32) (A B : α) :
    Scalar.select (IntOp.cmpi .eq (BitVec.ofNat 32 g) (BitVec.ofNat 32 c)) A B = if g = c then A else B := by
  by_cases h : g = c
  · rw [if_pos h, h]
    have e : IntOp.cmpi .eq (BitVec.ofNat 32 c) (BitVec.ofNat 32 c) = 1#1 := by simp [IntOp.cmpi]
    rw [e]; exact ValueIdx.select_one A B
  · rw [if_neg h]
    have hne : ¬ BitVec.ofNat 32 g = BitVec.ofNat 32 c := fun e => h ((ofNat_eq_iff g c hg hc).mp e)
    have hb : (BitVec.ofNat 32 g == BitVec.ofNat 32 c) = false := beq_eq_false_iff_ne.mpr hne
    have e : IntOp.cmpi .eq (BitVec.ofNat 32 g) (BitVec.ofNat 32 c) = 0#1 := by
      show BitVec.ofBool (BitVec.ofNat 32 g == BitVec.ofNat 32 c) = 0#1
      rw [hb]; rfl
    rw [e]; exact ValueIdx.select_zero A B

/-- The label word of global row g: row + 4096 below 4096 (a signed test; the words are small), row - 4096 from
    4096 on: the partner row of the specification. -/
theorem labelWord (g : Fin 8192) :
    Scalar.select (IntOp.cmpi .slt (BitVec.ofNat 32 g.val) 4096#32)
        (IntOp.addi (BitVec.ofNat 32 g.val) 4096#32) (IntOp.subi (BitVec.ofNat 32 g.val) 4096#32)
      = BitVec.ofNat 32 (Cert.Loss.lab g).val := by
  have hg := g.isLt
  have hn : (BitVec.ofNat 32 g.val).toNat = g.val := by
    rw [BitVec.toNat_ofNat]; exact Nat.mod_eq_of_lt (by omega)
  have hi : (BitVec.ofNat 32 g.val).toInt = (g.val : ℤ) := by
    rw [BitVec.toInt_eq_toNat_cond, hn, if_pos (by omega)]
  have hk : (4096#32 : BitVec 32).toInt = 4096 := by decide
  have h1 : (4096#32 : BitVec 32).toNat = 4096 := rfl
  unfold Cert.Loss.lab
  by_cases h : g.val < 4096
  · rw [dif_pos h]
    have hs : (BitVec.ofNat 32 g.val).slt 4096#32 = true := by
      rw [BitVec.slt, hi, hk]; exact decide_eq_true (by omega)
    have e : IntOp.cmpi .slt (BitVec.ofNat 32 g.val) 4096#32 = 1#1 := by simp [IntOp.cmpi, hs]
    rw [e, ValueIdx.select_one]
    apply BitVec.eq_of_toNat_eq
    show (BitVec.ofNat 32 g.val + 4096#32).toNat = (BitVec.ofNat 32 (g.val + 4096)).toNat
    have h2 : (BitVec.ofNat 32 (g.val + 4096)).toNat = g.val + 4096 := by
      rw [BitVec.toNat_ofNat]; exact Nat.mod_eq_of_lt (by omega)
    rw [BitVec.toNat_add, hn, h1, h2]
    omega
  · rw [dif_neg h]
    have hs : (BitVec.ofNat 32 g.val).slt 4096#32 = false := by
      rw [BitVec.slt, hi, hk]; exact decide_eq_false (by omega)
    have e : IntOp.cmpi .slt (BitVec.ofNat 32 g.val) 4096#32 = 0#1 := by simp [IntOp.cmpi, hs]
    rw [e, ValueIdx.select_zero]
    apply BitVec.eq_of_toNat_eq
    show (BitVec.ofNat 32 g.val - 4096#32).toNat = (BitVec.ofNat 32 (g.val - 4096)).toNat
    have h2 : (BitVec.ofNat 32 (g.val - 4096)).toNat = g.val - 4096 := by
      rw [BitVec.toNat_ofNat]; exact Nat.mod_eq_of_lt (by omega)
    rw [BitVec.toNat_sub, hn, h1, h2]
    omega

end Cert.KernelIdeal.Val1
-- ==== Proof.LibMatmulRows.lean ====
/-
  A matrix product against the rows of the right factor, read at an entry.

  For the dimension numbers of a product with the right factor transposed — an [a, n] array times an [b, n] array,
  contracting the second axis of both, no batch axis (the einsum "qd,kd->qk") — the product accumulated onto the zero
  array is, on the extended reals, at (p, q) the sum over k of left (p, k) · right (q, k): the dot product of row p of
  the left factor with row q of the right one.  The extents are variables, so the reading does not change with a
  kernel's tiling.
-/
import Idealize.ShloMosaic.Lib.ValueIdx
import Idealize.ShloMosaic.PureOps.Ideal.Laws

noncomputable section

open scoped BigOperators

namespace Cert.MatmulRows

open Idealize.ShloMosaic Idealize.ShloMosaic.ValueIdx

/-- The dimension numbers of an [a, n] × [b, n]ᵀ product, over any witness of their well-formedness. -/
abbrev dims {a n b : ℕ}
    (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ :=
  ⟨[1], [1], [0], [0], [], [], wf⟩

/-- A product against the right factor's rows, onto the zero array: at (p, q) the sum over k of
    left (p, k) · right (q, k). -/
theorem zero_acc_apply {a n b : ℕ} {φ₁ φ₂ : FTy}
    (wf : DotDims.WF ⟨2, ![a, n]⟩ ⟨2, ![b, n]⟩ ⟨2, ![a, b]⟩ [1] [1] [0] [0] [] [])
    (prec : Option ContractPrecision) (L : FVec Ideal ⟨2, ![a, n]⟩ φ₁) (R : FVec Ideal ⟨2, ![b, n]⟩ φ₂)
    (p : Fin a) (q : Fin b) :
    FloatOps.matmul (dims wf) prec L R (constant ⟨2, ![a, b]⟩ .f32 0x00000000#32) (ix2 p q)
      = ∑ k : Fin n, L (ix2 p k) * R (ix2 q k) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 q k :=
    funext fun ax => Fin.ext (by
      match ax with
      | ⟨0, _⟩ => rfl
      | ⟨1, _⟩ => exact ((dims wf).rhsIdx_val_of_single rfl _ _).trans hk)
  rw [el, er]

end Cert.MatmulRows

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.KI1PayRows.lean ====
/-
  The loss kernel's body on one block of 256 rows, cut into named pieces and each piece read at an entry.

  The body forms the 256 x 8192 array of similarities of the block's rows with all rows (a product against the rows of
  the second operand, times 2), replaces the diagonal entry of each row (global row number = column number) by the
  constant, and then reduces along each row three times: the entry in the label's column picked by a masked sum, the
  maximum from -inf, and the sum of the exponentials of the row shifted by its maximum.  Each reduction leaves one
  value per row, kept as a column.
-/
import proofs.«181090_j11141145166516_2_alg».proof.Proof.Spec
import proofs.«181090_j11141145166516_2_alg».proof.Proof.Gen.KernelIdeal.Skeleton
import proofs.«181090_j11141145166516_2_alg».proof.Proof.KI1PayWords
import proofs.«181090_j11141145166516_2_alg».proof.Proof.LibMatmulRows
import proofs.«181090_j11141145166516_2_alg».proof.Proof.LibRowMax
import proofs.«181090_j11141145166516_2_alg».proof.Proof.LibRowOps
import proofs.«181090_j11141145166516_2_alg».proof.Proof.LibKeepdims
import Idealize.ShloMosaic.Lib.ValueLayout

noncomputable section

open scoped BigOperators

namespace Cert.KernelIdeal.Val1

open Idealize.ShloMosaic Idealize.ShloMosaic.ValueIdx Cert.KernelIdeal Cert.KernelIdeal.Gen

/-! ## The pieces -/

/-- The global row numbers of block i, as words: i * 256 + the local row. -/
def rowIds (i : grid1.Coords) : IVec S256x1 32 :=
  addi (broadcast S256x1 (Scalar.muli (BitVec.ofNat 32 (i 0).val) 256#32)) (iota .tc S256x1 32 [0] iota_S256x1_d0_w32)

/-- The column numbers, as words. -/
def colIds : IVec S1x8192 32 := iota .tc S1x8192 32 [1] iota_S1x8192_d1_w32

/-- The column numbers repeated down the 256 rows. -/
def colMat : IVec S256x8192 32 := broadcastTo S256x8192 colIds broadcasts_S1x8192_S256x8192

/-- A column of words repeated along the 8192 columns. -/
def rowMat (w : IVec S256x1 32) : IVec S256x8192 32 := broadcastTo S256x8192 w broadcasts_S256x1_S256x8192

/-- The dot products of the block's rows with all rows. -/
def dots (x0 : Vec Ideal S256x128 .f32) (x1 : Vec Ideal S8192x128 .f32) : FVec Ideal S256x8192 .f32 :=
  matmul (φ₁ := .f32) (φ₂ := .f32) dot_S256x128_S8192x128_S256x8192_1_1_0_0_n_n (some .fp32)
    (shapeCast S256x128 x0 shapeCasts_S256x128_S256x128) (shapeCast S8192x128 x1 shapeCasts_S8192x128_S8192x128)
    (constant S256x8192 .f32 0x00000000#32)

/-- The similarities: the dot products times 2, the diagonal replaced by the constant. -/
def sims (i : grid1.Coords) (x0 : Vec Ideal S256x128 .f32) (x1 : Vec Ideal S8192x128 .f32) : FVec Ideal S256x8192 .f32 :=
  select (cmpi .eq (rowMat (rowIds i)) colMat)
    (broadcast S256x8192 (Scalar.ofBits .f32 0xC7435000#32))
    (mulf (dots x0 x1) (broadcast S256x8192 (Scalar.ofBits .f32 0x40000000#32)))

/-- The label words: row + 4096 below 4096, row - 4096 from there on. -/
def labels (i : grid1.Coords) : IVec S256x1 32 :=
  select (cmpi .slt (rowIds i) (broadcast S256x1 4096#32))
    (addi (rowIds i) (broadcast S256x1 4096#32)) (subi (rowIds i) (broadcast S256x1 4096#32))

/-- A row's entries kept in the label's column, zero elsewhere. -/
def picked (s : FVec Ideal S256x8192 .f32) (l : IVec S256x1 32) : FVec Ideal S256x8192 .f32 :=
  select (cmpi .eq colMat (rowMat l)) s (broadcast S256x8192 (Scalar.ofBits .f32 0x00000000#32))

/-- The picked entry of each row, as a column. -/
def pickCol (s : FVec Ideal S256x8192 .f32) (l : IVec S256x1 32) : FVec Ideal S256x1 .f32 :=
  shapeCast S256x1 (multiReduction .add [1] S256 (picked s l) 0x00000000#32 reduces_S256x8192_S256 (.inl rfl) rfl)
    shapeCasts_S256_S256x1

/-- The maximum of each row, as a column. -/
def maxCol (s : FVec Ideal S256x8192 .f32) : FVec Ideal S256x1 .f32 :=
  shapeCast S256x1 (multiReduction .maximumf [1] S256 s 0xFF800000#32 reduces_S256x8192_S256 (.inl rfl) rfl)
    shapeCasts_S256_S256x1

/-- The exponentials of each row shifted by its maximum. -/
def expRows (s : FVec Ideal S256x8192 .f32) : FVec Ideal S256x8192 .f32 :=
  exp (subf s (broadcastTo S256x8192 (maxCol s) broadcasts_S256x1_S256x8192))

/-- The sum of those exponentials, per row, as a column. -/
def sumCol (s : FVec Ideal S256x8192 .f32) : FVec Ideal S256x1 .f32 :=
  shapeCast S256x1 (multiReduction .add [1] S256 (expRows s) 0x00000000#32 reduces_S256x8192_S256 (.inl rfl) rfl)
    shapeCasts_S256_S256x1

/-- The loss of each row: (maximum + log of the sum) minus the picked entry. -/
def lossCol (s : FVec Ideal S256x8192 .f32) (l : IVec S256x1 32) : FVec Ideal S256x1 .f32 :=
  subf (addf (maxCol s) (log (sumCol s))) (pickCol s l)

set_option maxRecDepth 65536 in
/-- The body's value is the loss column of the similarities and the label words. -/
theorem pay1_eq (i : grid1.Coords) (x0 : Vec Ideal S256x128 .f32) (x1 : Vec Ideal S8192x128 .f32) :
    k1_pay1 (F := Ideal) i x0 x1 = lossCol (sims i x0 x1) (labels i) := rfl

/-! ## The pieces read at an entry -/

/-- Local row p of block i has the word of its global row. -/
theorem rowIds_apply (i : grid1.Coords) (p : Fin 256) (g : Fin 8192) (hg : g.val = 256 * (i 0).val + p.val) :
    rowIds i (ix2 p (0 : Fin 1)) = BitVec.ofNat 32 g.val := by
  have ha : (i 0).val < 32 := (i 0).isLt
  have e : iota .tc S256x1 32 [0] iota_S256x1_d0_w32 (ix2 p (0 : Fin 1)) = BitVec.ofNat 32 p.val :=
    iota_single_apply .tc S256x1 32 0 iota_S256x1_d0_w32 (ix2 p (0 : Fin 1))
  show IntOp.addi (Scalar.muli (BitVec.ofNat 32 (i 0).val) 256#32)
      (iota .tc S256x1 32 [0] iota_S256x1_d0_w32 (ix2 p (0 : Fin 1))) = _
  rw [e]
  exact rowWord (i 0).val p.val g.val ha p.isLt hg

/-- Column c has the word of c, in every row. -/
theorem colMat_apply (p : Fin 256) (c : Fin 8192) : colMat (ix2 p c) = BitVec.ofNat 32 c.val :=
  (broadcastTo_1b_ab_apply colIds broadcasts_S1x8192_S256x8192 p c).trans
    (iota_single_apply .tc S1x8192 32 1 iota_S1x8192_d1_w32 (ix2 (0 : Fin 1) c))

/-- A column of words repeated along the columns reads its row's word. -/
theorem rowMat_apply (w : IVec S256x1 32) (p : Fin 256) (c : Fin 8192) :
    rowMat w (ix2 p c) = w (ix2 p (0 : Fin 1)) :=
  Cert.Keepdims.column_repeat_apply w broadcasts_S256x1_S256x8192 p c

/-- The product at (p, c) is the dot product of row p of the block with row c of the second operand. -/
theorem dots_apply (x0 : Vec Ideal S256x128 .f32) (x1 : Vec Ideal S8192x128 .f32) (p : Fin 256) (c : Fin 8192) :
    dots x0 x1 (ix2 p c) = ∑ k : Fin 128, x0 (ix2 p k) * x1 (ix2 c k) := by
  unfold dots
  refine (Cert.MatmulRows.zero_acc_apply dot_S256x128_S8192x128_S256x8192_1_1_0_0_n_n_wf (some .fp32) _ _ p c).trans ?_
  rw [shapeCast_self, shapeCast_self]

/-- The similarity at (p, c), for the block's row p of global number g: the constant on the diagonal, elsewhere
    twice the dot product. -/
theorem sims_apply (i : grid1.Coords) (x0 : Vec Ideal S256x128 .f32) (x1 : Vec Ideal S8192x128 .f32)
    (p : Fin 256) (g c : Fin 8192) (hg : g.val = 256 * (i 0).val + p.val) :
    sims i x0 x1 (ix2 p c)
      = if g = c then Cert.Loss.dneg else (∑ k : Fin 128, x0 (ix2 p k) * x1 (ix2 c k)) * Cert.Loss.two := by
  have hg' := g.isLt
  have hc' := c.isLt
  show Scalar.select (IntOp.cmpi .eq (rowMat (rowIds i) (ix2 p c)) (colMat (ix2 p c))) Cert.Loss.dneg
      ((dots x0 x1 (ix2 p c) : EReal) * Cert.Loss.two) = _
  rw [rowMat_apply, rowIds_apply i p g hg, colMat_apply, dots_apply,
    select_eq_words g.val c.val (by omega) (by omega)]
  exact if_congr Fin.val_inj rfl rfl

/-- The label word of the block's row p of global number g is the word of g's partner row. -/
theorem labels_apply (i : grid1.Coords) (p : Fin 256) (g : Fin 8192) (hg : g.val = 256 * (i 0).val + p.val) :
    labels i (ix2 p (0 : Fin 1)) = BitVec.ofNat 32 (Cert.Loss.lab g).val := by
  show Scalar.select (IntOp.cmpi .slt (rowIds i (ix2 p (0 : Fin 1))) 4096#32)
      (IntOp.addi (rowIds i (ix2 p (0 : Fin 1))) 4096#32) (IntOp.subi (rowIds i (ix2 p (0 : Fin 1))) 4096#32) = _
  rw [rowIds_apply i p g hg]
  exact labelWord g

/-- The masked row keeps the entry of the column whose number the row's label word denotes. -/
theorem picked_apply (s : FVec Ideal S256x8192 .f32) (l : IVec S256x1 32) (p : Fin 256) (c L : Fin 8192)
    (hl : l (ix2 p (0 : Fin 1)) = BitVec.ofNat 32 L.val) :
    picked s l (ix2 p c) = if c = L then s (ix2 p c) else Cert.Loss.zero := by
  have hc' := c.isLt
  have hL' := L.isLt
  show Scalar.select (IntOp.cmpi .eq (colMat (ix2 p c)) (rowMat l (ix2 p c))) (s (ix2 p c)) Cert.Loss.zero = _
  rw [colMat_apply, rowMat_apply, hl, select_eq_words c.val L.val (by omega) (by omega)]
  exact if_congr Fin.val_inj rfl rfl

/-- The picked entry of row p: the masked sum over the row. -/
theorem pickCol_apply (s : FVec Ideal S256x8192 .f32) (l : IVec S256x1 32) (p : Fin 256) (L : Fin 8192)
    (hl : l (ix2 p (0 : Fin 1)) = BitVec.ofNat 32 L.val) :
    pickCol s l (ix2 p (0 : Fin 1)) = ∑ c : Fin 8192, if c = L then s (ix2 p c) else Cert.Loss.zero := by
  refine (Cert.Keepdims.column_cast_apply _ shapeCasts_S256_S256x1 p).trans ?_
  refine (Cert.RowOps.sum_over_columns_apply (picked s l) reduces_S256x8192_S256 (.inl rfl) rfl p).trans ?_
  exact Finset.sum_congr rfl fun c _ => picked_apply s l p c L hl

/-- The maximum of row p, folded from -inf. -/
theorem maxCol_apply (s : FVec Ideal S256x8192 .f32) (p : Fin 256) :
    maxCol s (ix2 p (0 : Fin 1))
      = (Finset.univ : Finset (Fin 8192)).fold max Cert.Loss.ninf (fun c => s (ix2 p c)) :=
  (Cert.Keepdims.column_cast_apply _ shapeCasts_S256_S256x1 p).trans
    (Cert.RowMax.max_over_columns_apply s reduces_S256x8192_S256 (.inl rfl) rfl p)

/-- The shifted exponential at (p, c). -/
theorem expRows_apply (s : FVec Ideal S256x8192 .f32) (p : Fin 256) (c : Fin 8192) :
    expRows s (ix2 p c) = Ideal.exp (s (ix2 p c) - maxCol s (ix2 p (0 : Fin 1))) :=
  congrArg (fun t => Ideal.exp (s (ix2 p c) - t))
    (Cert.Keepdims.column_repeat_apply (maxCol s) broadcasts_S256x1_S256x8192 p c)

/-- The sum of the shifted exponentials of row p. -/
theorem sumCol_apply (s : FVec Ideal S256x8192 .f32) (p : Fin 256) :
    sumCol s (ix2 p (0 : Fin 1)) = ∑ c : Fin 8192, Ideal.exp (s (ix2 p c) - maxCol s (ix2 p (0 : Fin 1))) := by
  refine (Cert.Keepdims.column_cast_apply _ shapeCasts_S256_S256x1 p).trans ?_
  refine (Cert.RowOps.sum_over_columns_apply (expRows s) reduces_S256x8192_S256 (.inl rfl) rfl p).trans ?_
  exact Finset.sum_congr rfl fun c _ => expRows_apply s p c

/-- The loss of row p, for a row of similarities read as f and a label word denoting column L: the row loss of the
    specification with L as the label. -/
theorem lossCol_apply (s : FVec Ideal S256x8192 .f32) (l : IVec S256x1 32) (p : Fin 256) (L : Fin 8192)
    (hl : l (ix2 p (0 : Fin 1)) = BitVec.ofNat 32 L.val) (f : Fin 8192 → EReal) (hs : ∀ c, s (ix2 p c) = f c) :
    lossCol s l (ix2 p (0 : Fin 1))
      = (Cert.Loss.rmax f + Cert.Loss.lse f) - ∑ c : Fin 8192, if c = L then f c else Cert.Loss.zero := by
  have hm : maxCol s (ix2 p (0 : Fin 1)) = Cert.Loss.rmax f := by
    refine (maxCol_apply s p).trans ?_
    unfold Cert.Loss.rmax
    exact congrArg (fun h : Fin 8192 → EReal => (Finset.univ : Finset (Fin 8192)).fold max Cert.Loss.ninf h) (funext hs)
  have hsum : sumCol s (ix2 p (0 : Fin 1)) = ∑ c : Fin 8192, Ideal.exp (f c - Cert.Loss.rmax f) := by
    refine (sumCol_apply s p).trans ?_
    exact Finset.sum_congr rfl fun c _ => by rw [hm, hs c]
  have hp : pickCol s l (ix2 p (0 : Fin 1)) = ∑ c : Fin 8192, if c = L then f c else Cert.Loss.zero := by
    refine (pickCol_apply s l p L hl).trans ?_
    exact Finset.sum_congr rfl fun c _ => by rw [hs c]
  unfold lossCol Cert.Loss.lse
  refine (subf_apply _ _ _).trans ?_
  refine congrArg₂ (fun a b : EReal => a - b) ?_ hp
  refine (addf_apply _ _ _).trans ?_
  refine congrArg₂ (fun a b : EReal => a + b) hm ?_
  exact congrArg Ideal.log hsum

end Cert.KernelIdeal.Val1

end
-- ==== Proof.KI1Pay.lean ====
/-
  The loss kernel's body read at one row.

  On block i of 256 rows the body leaves, at local row p, the row loss of the specification for the global row
  g = 256 i + p: over the row of similarities "the constant at column g, elsewhere twice the dot product of row p of
  the block with row c of the second operand", the maximum plus the log of the sum of the shifted exponentials, minus
  the entry in the column of g's partner row.
-/
import proofs.«181090_j11141145166516_2_alg».proof.Proof.Spec
import proofs.«181090_j11141145166516_2_alg».proof.Proof.Gen.KernelIdeal.Skeleton
import proofs.«181090_j11141145166516_2_alg».proof.Proof.KI1PayRows

noncomputable section

open scoped BigOperators

namespace Cert.KernelIdeal.Val1

open Idealize.ShloMosaic Idealize.ShloMosaic.ValueIdx Cert.KernelIdeal Cert.KernelIdeal.Gen

/-- The body's value at local row p of block i is the specification's row loss of the global row g = 256 i + p. -/
theorem pay1_apply (i : grid1.Coords) (x0 : Vec Ideal S256x128 .f32) (x1 : Vec Ideal S8192x128 .f32) (p : Fin 256) (g : Fin 8192)
    (hg : g.val = 256 * (i 0).val + p.val) :
    Cert.KernelIdeal.Gen.k1_pay1 (F := Ideal) i x0 x1 (ValueIdx.ix2 p (0 : Fin 1))
      = Cert.Loss.rowK (fun _ c => if g = c then Cert.Loss.dneg else (∑ k : Fin 128, x0 (ValueIdx.ix2 p k) * x1 (ValueIdx.ix2 c k)) * Cert.Loss.two) g := by
  refine (congrFun (pay1_eq i x0 x1) _).trans ?_
  exact lossCol_apply (sims i x0 x1) (labels i) p (Cert.Loss.lab g) (labels_apply i p g hg)
    (fun c => if g = c then Cert.Loss.dneg else (∑ k : Fin 128, x0 (ix2 p k) * x1 (ix2 c k)) * Cert.Loss.two)
    (fun c => sims_apply i x0 x1 p g c hg)

end Cert.KernelIdeal.Val1

end
-- ==== Proof.RefZn.lean ====
/-
  The reference's normalised rows, read at an entry.

  The reference stacks its two [4096, 128] arguments into z : [8192, 128], forms for each row r the sum over d of
  z r d * z r d (a row sum started from the constant 0), takes its square root, clips it below at eps, and divides
  every entry of the row by that clipped length.  Read at (r, k) this is the specification's zn applied to the
  stacked argument: the stacked array read above and below the seam is the specification's stack, and the starting
  value 0 of the sum disappears.
-/
import proofs.«181090_j11141145166516_2_alg».proof.Proof.RefReadP
import proofs.«181090_j11141145166516_2_alg».proof.Proof.Spec
import proofs.«181090_j11141145166516_2_alg».proof.Proof.LibEdgeForms

noncomputable section

namespace Cert.Loss.Ref

open Cert.ReferenceIdeal Cert.ReferenceIdeal.Read Idealize.ShloMosaic Idealize.ShloMosaic.ValueIdx

/-- The two arguments stacked along the rows, read at (r, k): the specification's stack. -/
theorem stacked_read (x0 x1 : (⟨S4096x128, .f32⟩ : BufTy).Contents (Elt Ideal))
    (h : Shape.Concatenates [S4096x128, S4096x128] S8192x128 0) (r : Fin 8192) (k : Fin 128) :
    concatenate S8192x128 0 [⟨S4096x128, x0⟩, ⟨S4096x128, x1⟩] h (ix2 r k)
      = Cert.Loss.stack (Cert.Loss.ofArr2 x0) (Cert.Loss.ofArr2 x1) r k := by
  unfold Cert.Loss.stack
  by_cases hr : r.val < 4096
  · rw [dif_pos hr]
    exact Cert.EdgeForms.stacked_top_apply x0 x1 h r k hr
  · rw [dif_neg hr]
    have := r.isLt
    exact Cert.EdgeForms.stacked_bottom_apply x0 x1 h r k (by omega) (by omega)

/-- The stacked argument of the reference, read at (r, k). -/
theorem ref_z (x0 x1 : (⟨S4096x128, .f32⟩ : BufTy).Contents (Elt Ideal)) (r : Fin 8192) (k : Fin 128) :
    val_main_v0 (F := Ideal) x0 x1 (ix2 r k)
      = Cert.Loss.stack (Cert.Loss.ofArr2 x0) (Cert.Loss.ofArr2 x1) r k :=
  stacked_read x0 x1 _ r k

/-- The reference's normalised rows at (r, k) are the specification's zn of the stacked argument. -/
theorem ref_zn (x0 x1 : (⟨S4096x128, .f32⟩ : BufTy).Contents (Elt Ideal)) (r : Fin 8192) (k : Fin 128) :
    Cert.ReferenceIdeal.Read.val_main_v5 (F := Ideal) x0 x1 (ValueIdx.ix2 r k)
      = Cert.Loss.zn (Cert.Loss.stack (Cert.Loss.ofArr2 x0) (Cert.Loss.ofArr2 x1)) r k := by
  have hz : ∀ (p : Fin 8192) (q : Fin 128), val_main_v0 (F := Ideal) x0 x1 (ix2 p q)
      = Cert.Loss.stack (Cert.Loss.ofArr2 x0) (Cert.Loss.ofArr2 x1) p q := ref_z x0 x1
  generalize Cert.Loss.stack (Cert.Loss.ofArr2 x0) (Cert.Loss.ofArr2 x1) = z at hz ⊢
  have e4 : idx_main_v4 (ix2 r k) = ix2 r (0 : Fin 1) :=
    funext fun a => Fin.ext (by match a with | ⟨0, _⟩ => rfl | ⟨1, _⟩ => rfl)
  have e2 : idx_main_call0_v2 (ix2 r (0 : Fin 1)) = ix1 r :=
    funext fun a => Fin.ext (by match a with | ⟨0, _⟩ => rfl)
  have e1 : ∀ d : Fin 128, idx_main_call0_v1 (ix1 r) d = ix2 r d := fun d =>
    funext fun a => Fin.ext (by match a with | ⟨0, _⟩ => rfl | ⟨1, _⟩ => rfl)
  rw [val_main_v5_apply, val_main_v4_apply, e4, val_main_v3_apply, val_main_v1_apply, val_main_call0_v2_apply, e2,
    val_main_call0_v1_apply, val_main_call0_cst_apply, val_main_v2_apply, val_main_cst_apply]
  simp only [e1, val_main_call0_v0_apply, hz, Ideal.hostDivf_def, Ideal.maximumf_def, Ideal.hostUnary_sqrt_def,
    Ideal.ofBits_def, Ideal.mulf_def, Ideal.ofBits_zero_f32, zero_add]
  rfl

end Cert.Loss.Ref

end
-- ==== Proof.LibScatterConst.lean ====
/-
  Two general facts about array operations, free of any particular program.

  A scatter that overwrites with one constant.  A scatter whose body returns the update, and whose update values are all
  one constant c, is a left fold of overwrites by c over the update indices.  Because every overwrite writes the same
  value, neither the order of the updates nor how many of them share a target matters: at an operand index i' the
  result is c when some update index lands at i', and the operand's element when none does.  This is proved first for a
  fold over any list of steps that each overwrite at most one index with c (foldl_overwrite_const), then for the
  scatter (scatter_const_apply).

  A maximum over a finite set.  The fold of the maximum from a starting value b over a finite family is at least
  every member (le_fold_of_mem), and is b or one of the members (fold_eq_init_or_mem); and the reduction by maximum over
  the second axis of a two-axis array of extended reals is, at row p, that fold over the row's entries
  (hostReduce_max_rows).
-/
import Idealize.ShloMosaic.PureOps.ShapeOps
import Idealize.ShloMosaic.PureOps.Reduce
import Idealize.ShloMosaic.PureOps.Ideal.Laws
import Idealize.ShloMosaic.Lib.ValueIdx

noncomputable section

namespace Cert.ScatterConst

open Idealize.ShloMosaic Idealize.ShloMosaic.ValueIdx

/-- Overwriting by one constant, folded over a list of steps. Step `k` has a target `R k` (or none): with a target `i` it
    makes the function `c` at `i` and leaves it alone elsewhere, with no target it leaves it alone everywhere. After the
    whole list the function is, at `i'`, either `c`, and then some step of the list targeted `i'`, or what it was at the
    start, and then no step of the list targeted `i'`. No order of the steps matters: every overwrite writes the same
    value. -/
theorem foldl_overwrite_const {ι κ α : Type} (R : κ → Option ι) (c : α) (step : (ι → α) → κ → ι → α)
    (h_hit : ∀ r k i, R k = some i → step r k i = c)
    (h_miss : ∀ r k i i', R k = some i → i' ≠ i → step r k i' = r i')
    (h_none : ∀ r k, R k = none → step r k = r) (i' : ι) :
    ∀ (l : List κ) (x : ι → α),
      (l.foldl step x i' = c ∧ ∃ k ∈ l, R k = some i') ∨ (l.foldl step x i' = x i' ∧ ∀ k ∈ l, R k ≠ some i')
  | [], x => Or.inr ⟨rfl, fun k hk => absurd hk (List.not_mem_nil)⟩
  | k :: l, x => by
    rw [List.foldl_cons]
    rcases foldl_overwrite_const R c step h_hit h_miss h_none i' l (step x k) with ⟨h1, n, hn, hR⟩ | ⟨h1, h2⟩
    · exact Or.inl ⟨h1, n, List.mem_cons_of_mem _ hn, hR⟩
    · rw [h1]
      cases hk : R k with
      | none =>
        rw [h_none x k hk]
        refine Or.inr ⟨rfl, fun n hn => ?_⟩
        rcases List.mem_cons.1 hn with rfl | hn
        · rw [hk]; exact (Option.some_ne_none i').symm
        · exact h2 n hn
      | some i =>
        by_cases hi : i' = i
        · subst hi
          exact Or.inl ⟨h_hit x k _ hk, k, List.mem_cons_self, hk⟩
        · refine Or.inr ⟨h_miss x k i i' hk hi, fun n hn => ?_⟩
          rcases List.mem_cons.1 hn with rfl | hn
          · rw [hk]; intro e; exact hi (Option.some.inj e).symm
          · exact h2 n hn

/-- A scatter whose body returns the update, with every update value the same `c`: at `i'` the result is `c`, and
    then some update index lands at `i'`, or it is the operand's element, and then no update index lands at `i'`. -/
theorem scatter_const_apply {s si u : Shape} {α : Type} {w : Nat} (d : ScatterDims s si u) (x : s.Idx → α) (idx : IVec si w)
    (upd : u.Idx → α) (c : α) (hupd : ∀ j, upd j = c) (i' : s.Idx) :
    (Host.scatter d (fun _ b => b) x idx upd i' = c
        ∧ ∃ n ∈ List.finRange u.numel, d.resultIdx? (u.rowMajor.symm n) idx = some i')
      ∨ (Host.scatter d (fun _ b => b) x idx upd i' = x i'
        ∧ ∀ n ∈ List.finRange u.numel, d.resultIdx? (u.rowMajor.symm n) idx ≠ some i') := by
  unfold Host.scatter
  refine foldl_overwrite_const (fun n => d.resultIdx? (u.rowMajor.symm n) idx) c _ ?_ ?_ ?_ i' _ x
  · intro r k i hk
    beta_reduce at hk ⊢
    rw [hk]
    dsimp only
    rw [if_pos rfl]
    exact hupd _
  · intro r k i i'' hk hi
    beta_reduce at hk ⊢
    rw [hk]
    dsimp only
    rw [if_neg hi]
  · intro r k hk
    beta_reduce at hk ⊢
    rw [hk]

/-- A fold of the maximum over a finite set, from `b`, is at least every folded value. -/
theorem le_fold_of_mem {ι β : Type} [DecidableEq ι] [LinearOrder β] (op : β → β → β) [Std.Commutative op] [Std.Associative op]
    (hop : ∀ x y, op x y = max x y) (b : β) (f : ι → β) (s : Finset ι) :
    ∀ x ∈ s, f x ≤ s.fold op b f := by
  induction s using Finset.induction_on with
  | empty => intro x hx; simp at hx
  | insert a s ha ih =>
    intro x hx
    rw [Finset.fold_insert ha, hop]
    rcases Finset.mem_insert.1 hx with rfl | hx
    · exact le_max_left _ _
    · exact (ih x hx).trans (le_max_right _ _)

/-- A fold of the maximum over a finite set, from `b`, is `b` or one of the folded values. -/
theorem fold_eq_init_or_mem {ι β : Type} [DecidableEq ι] [LinearOrder β] (op : β → β → β) [Std.Commutative op] [Std.Associative op]
    (hop : ∀ x y, op x y = max x y) (b : β) (f : ι → β) (s : Finset ι) :
    s.fold op b f = b ∨ ∃ x ∈ s, s.fold op b f = f x := by
  induction s using Finset.induction_on with
  | empty => left; simp
  | insert a s ha ih =>
    rw [Finset.fold_insert ha, hop]
    rcases max_choice (f a) (s.fold op b f) with h | h
    · right; exact ⟨a, Finset.mem_insert_self _ _, h⟩
    · rw [h]
      rcases ih with ih | ⟨x, hx, ih⟩
      · left; exact ih
      · right; exact ⟨x, Finset.mem_insert_of_mem hx, ih⟩

/-- The maximum over the second axis of an [a, n] array of extended reals, from the starting value's element: at row
    `p` it is the fold of the maximum over the columns `q` of the entries `(p, q)`. -/
theorem hostReduce_max_rows {a n : ℕ} {φ : FTy} {u : Shape} (y : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := φ)) y init h' hu (ix1 p)
      = (Finset.univ : Finset (Fin n)).fold (FloatOps.maximumf (F := Ideal) (φ := φ)) (init (Shape.Idx.first hu))
          (fun q => y (ix2 p q)) := by
  rw [Host.reduce_eq_fold_single (s := ⟨2, ![a, n]⟩) (t := ⟨1, ![a]⟩) (a := (1 : Fin 2))
    (FloatOps.maximumf (F := Ideal) (φ := φ)) y init h' h hu (ix1 p)]
  refine Finset.fold_congr fun k _ => ?_
  rw [Function.comp_apply]
  exact congrArg y (funext fun ax => Fin.ext (by match ax with | ⟨0, _⟩ => rfl | ⟨1, _⟩ => rfl))

end Cert.ScatterConst

end
-- ==== Proof.RefDiagScatter.lean ====
/-
  A scatter that writes one update per row of a square array onto the diagonal.

  The update vector has one entry per row e; its two start words, held as the two columns of an [n, 2] array of
  32-bit words, both denote e.  No axis of the update is a window axis and both axes of the operand are inserted, so
  update e lands at the single cell (e, e).  When every update value is one constant c the result is therefore c on
  the diagonal and the operand's entry off it.
-/
import Idealize.ShloMosaic.PureOps.ShapeOps
import Idealize.ShloMosaic.Lib.ValueIdx
import proofs.«181090_j11141145166516_2_alg».proof.Proof.LibScatterConst

noncomputable section

namespace Cert.Loss.Ref

open Idealize.ShloMosaic Idealize.ShloMosaic.ValueIdx

/-- The dimension numbers of the diagonal scatter, over any witness of their well-formedness. -/
abbrev diagDims (wf : ScatterDims.WF ⟨2, ![8192, 8192]⟩ ⟨2, ![8192, 2]⟩ ⟨1, ![8192]⟩ [] [0, 1] [0, 1] 1) :
    ScatterDims ⟨2, ![8192, 8192]⟩ ⟨2, ![8192, 2]⟩ ⟨1, ![8192]⟩ :=
  ⟨[], [0, 1], [0, 1], 1, wf⟩

/-- The signed reading of the word of a row number below 8192 is the row number. -/
theorem toInt_ofNat_row (e : Fin 8192) : (BitVec.ofNat 32 e.val).toInt = (e.val : Int) := by
  have he := e.isLt
  rw [BitVec.toInt_eq_toNat_cond, BitVec.toNat_ofNat, Nat.mod_eq_of_lt (by omega)]
  rw [if_pos (by omega)]

theorem diag_start0 (wf) (idx : IVec ⟨2, ![8192, 2]⟩ 32) (e : Fin 8192) :
    (diagDims wf).start (ix1 e) idx 0 = (idx (ix2 e (0 : Fin 2))).toInt := by
  unfold ScatterDims.start
  rw [dif_pos (show (0 : Fin 2) ∈ ([0, 1] : List (Fin 2)) by decide)]
  refine congrArg (fun z => (idx z).toInt) (funext fun b => Fin.ext ?_)
  match b with
  | ⟨0, _⟩ => rfl
  | ⟨1, _⟩ => rfl

theorem diag_start1 (wf) (idx : IVec ⟨2, ![8192, 2]⟩ 32) (e : Fin 8192) :
    (diagDims wf).start (ix1 e) idx 1 = (idx (ix2 e (1 : Fin 2))).toInt := by
  unfold ScatterDims.start
  rw [dif_pos (show (1 : Fin 2) ∈ ([0, 1] : List (Fin 2)) by decide)]
  refine congrArg (fun z => (idx z).toInt) (funext fun b => Fin.ext ?_)
  match b with
  | ⟨0, _⟩ => rfl
  | ⟨1, _⟩ => rfl

theorem diag_window (wf) (e : Fin 8192) (a : Fin 2) : (diagDims wf).window (ix1 e) a = 0 := by
  have hk : ∀ b : Fin 2, b ∉ (⟨2, ![8192, 8192]⟩ : Shape).kept [0, 1] := by decide
  unfold ScatterDims.window
  rw [dif_neg (hk a)]

/-- Update e of the diagonal scatter lands at the cell (e, e). -/
theorem diag_resultIdx (wf) (idx : IVec ⟨2, ![8192, 2]⟩ 32)
    (h0 : ∀ e : Fin 8192, idx (ix2 e (0 : Fin 2)) = BitVec.ofNat 32 e.val)
    (h1 : ∀ e : Fin 8192, idx (ix2 e (1 : Fin 2)) = BitVec.ofNat 32 e.val) (e : Fin 8192) :
    (diagDims wf).resultIdx? (ix1 e) idx = some (ix2 e e) := by
  have hs : ∀ a : Fin 2, (diagDims wf).start (ix1 e) idx a + (diagDims wf).window (ix1 e) a = (e.val : Int) := by
    intro a
    rw [diag_window, Nat.cast_zero, add_zero]
    match a with
    | ⟨0, _⟩ => exact (diag_start0 wf idx e).trans ((congrArg BitVec.toInt (h0 e)).trans (toInt_ofNat_row e))
    | ⟨1, _⟩ => exact (diag_start1 wf idx e).trans ((congrArg BitVec.toInt (h1 e)).trans (toInt_ofNat_row e))
  unfold ScatterDims.resultIdx?
  rw [dif_pos (fun a => by
    rw [hs a]
    have he := e.isLt
    match a with
    | ⟨0, _⟩ => exact ⟨by omega, by show (e.val : Int) < 8192; omega⟩
    | ⟨1, _⟩ => exact ⟨by omega, by show (e.val : Int) < 8192; omega⟩)]
  refine congrArg some (funext fun a => Fin.ext ?_)
  show ((diagDims wf).start (ix1 e) idx a + (diagDims wf).window (ix1 e) a).toNat = _
  rw [hs a]
  match a with
  | ⟨0, _⟩ => exact Int.toNat_natCast _
  | ⟨1, _⟩ => exact Int.toNat_natCast _

/-- The diagonal scatter of one constant c: entry (r, q) is c when r = q and the operand's entry otherwise. -/
theorem diag_scatter_apply {α : Type} (wf) (x : (⟨2, ![8192, 8192]⟩ : Shape).Idx → α) (idx : IVec ⟨2, ![8192, 2]⟩ 32)
    (upd : (⟨1, ![8192]⟩ : Shape).Idx → α) (c : α) (hupd : ∀ j, upd j = c)
    (h0 : ∀ e : Fin 8192, idx (ix2 e (0 : Fin 2)) = BitVec.ofNat 32 e.val)
    (h1 : ∀ e : Fin 8192, idx (ix2 e (1 : Fin 2)) = BitVec.ofNat 32 e.val) (r q : Fin 8192) :
    Host.scatter (diagDims wf) (fun _ b => b) x idx upd (ix2 r q) = if r = q then c else x (ix2 r q) := by
  rcases Cert.ScatterConst.scatter_const_apply (diagDims wf) x idx upd c hupd (ix2 r q) with ⟨h, n, _, hn⟩ | ⟨h, hn⟩
  · obtain ⟨e, he⟩ : ∃ e : Fin 8192, (⟨1, ![8192]⟩ : Shape).rowMajor.symm n = ix1 e := ⟨_, eq_ix1 _⟩
    rw [he, diag_resultIdx wf idx h0 h1 e] at hn
    have hq := Option.some.inj hn
    have e0 : e = r := congrFun hq 0
    have e1 : e = q := congrFun hq 1
    rw [h, if_pos (e0.symm.trans e1)]
  · rw [h]
    by_cases hrq : r = q
    · subst hrq
      refine absurd ?_ (hn ((⟨1, ![8192]⟩ : Shape).rowMajor (ix1 r)) (List.mem_finRange _))
      rw [Equiv.symm_apply_apply]
      exact diag_resultIdx wf idx h0 h1 r
    · rw [if_neg hrq]

end Cert.Loss.Ref

end
-- ==== Proof.LibColumns.lean ====
/-
  Columns of a two-axis array: laid side by side, and taken out again.

  Stacking k vectors of length a along a new last axis is, in the lowered programs, each vector kept as a column
  [a, 1] and the columns joined along axis 1 into [a, k]: entry (p, j) of the joined array is entry p of column j.
  Taking column j of an [a, c] array is a unit-stride slice [a, 1] at column offset j with the unit axis dropped:
  entry p of the result is entry (p, j) of the array. Here: the join of two and of three columns read at an entry,
  and a column taken out read at an entry.
-/
import Idealize.ShloMosaic.Lib.Pipeline.Value
import Idealize.ShloMosaic.Lib.ValueIdx

noncomputable section

namespace Cert.Columns

open Idealize.ShloMosaic Idealize.ShloMosaic.ValueIdx

variable {α : Type}

/-- Off the joining axis a column's index follows the joined array's index. -/
private theorem off_axis {a k : ℕ} (p : Fin a) (j : Fin k) :
    ∀ b : Fin (⟨2, ![a, 1]⟩ : Shape).rank, b.cast (rfl : (2 : ℕ) = 2) ≠ (1 : Fin 2) →
      ((ix2 p (0 : Fin 1) : (⟨2, ![a, 1]⟩ : Shape).Idx) b).val
        = ((ix2 p j : (⟨2, ![a, k]⟩ : Shape).Idx) (b.cast (rfl : (2 : ℕ) = 2))).val := fun b hb => by
  match b with
  | ⟨0, _⟩ => rfl
  | ⟨1, _⟩ => exact absurd rfl hb

/-- Three columns joined: entry (p, 0) is the first column's entry p. -/
theorem join3_apply0 {a : ℕ} (u0 u1 u2 : (⟨2, ![a, 1]⟩ : Shape).Idx → α)
    (h : Shape.Concatenates [⟨2, ![a, 1]⟩, ⟨2, ![a, 1]⟩, ⟨2, ![a, 1]⟩] ⟨2, ![a, 3]⟩ 1) (p : Fin a) :
    concatenate ⟨2, ![a, 3]⟩ 1 [⟨⟨2, ![a, 1]⟩, u0⟩, ⟨⟨2, ![a, 1]⟩, u1⟩, ⟨⟨2, ![a, 1]⟩, u2⟩] h (ix2 p (0 : Fin 3))
      = u0 (ix2 p (0 : Fin 1)) :=
  concatenate_apply_piece 1 [⟨⟨2, ![a, 1]⟩, u0⟩, ⟨⟨2, ![a, 1]⟩, u1⟩, ⟨⟨2, ![a, 1]⟩, u2⟩] h (ix2 p (0 : Fin 3)) 0 (by simp) _ u0 rfl rfl 0 rfl (ix2 p (0 : Fin 1))
    (off_axis p (0 : Fin 3)) rfl

/-- Three columns joined: entry (p, 1) is the second column's entry p. -/
theorem join3_apply1 {a : ℕ} (u0 u1 u2 : (⟨2, ![a, 1]⟩ : Shape).Idx → α)
    (h : Shape.Concatenates [⟨2, ![a, 1]⟩, ⟨2, ![a, 1]⟩, ⟨2, ![a, 1]⟩] ⟨2, ![a, 3]⟩ 1) (p : Fin a) :
    concatenate ⟨2, ![a, 3]⟩ 1 [⟨⟨2, ![a, 1]⟩, u0⟩, ⟨⟨2, ![a, 1]⟩, u1⟩, ⟨⟨2, ![a, 1]⟩, u2⟩] h (ix2 p (1 : Fin 3))
      = u1 (ix2 p (0 : Fin 1)) :=
  concatenate_apply_piece 1 [⟨⟨2, ![a, 1]⟩, u0⟩, ⟨⟨2, ![a, 1]⟩, u1⟩, ⟨⟨2, ![a, 1]⟩, u2⟩] h (ix2 p (1 : Fin 3)) 1 (by simp) _ u1 rfl rfl 1 rfl (ix2 p (0 : Fin 1))
    (off_axis p (1 : Fin 3)) rfl

/-- Three columns joined: entry (p, 2) is the third column's entry p. -/
theorem join3_apply2 {a : ℕ} (u0 u1 u2 : (⟨2, ![a, 1]⟩ : Shape).Idx → α)
    (h : Shape.Concatenates [⟨2, ![a, 1]⟩, ⟨2, ![a, 1]⟩, ⟨2, ![a, 1]⟩] ⟨2, ![a, 3]⟩ 1) (p : Fin a) :
    concatenate ⟨2, ![a, 3]⟩ 1 [⟨⟨2, ![a, 1]⟩, u0⟩, ⟨⟨2, ![a, 1]⟩, u1⟩, ⟨⟨2, ![a, 1]⟩, u2⟩] h (ix2 p (2 : Fin 3))
      = u2 (ix2 p (0 : Fin 1)) :=
  concatenate_apply_piece 1 [⟨⟨2, ![a, 1]⟩, u0⟩, ⟨⟨2, ![a, 1]⟩, u1⟩, ⟨⟨2, ![a, 1]⟩, u2⟩] h (ix2 p (2 : Fin 3)) 2 (by simp) _ u2 rfl rfl 2 rfl (ix2 p (0 : Fin 1))
    (off_axis p (2 : Fin 3)) rfl

/-- Two columns joined: entry (p, 0) is the first column's entry p. -/
theorem join2_apply0 {a : ℕ} (u0 u1 : (⟨2, ![a, 1]⟩ : Shape).Idx → α)
    (h : Shape.Concatenates [⟨2, ![a, 1]⟩, ⟨2, ![a, 1]⟩] ⟨2, ![a, 2]⟩ 1) (p : Fin a) :
    concatenate ⟨2, ![a, 2]⟩ 1 [⟨⟨2, ![a, 1]⟩, u0⟩, ⟨⟨2, ![a, 1]⟩, u1⟩] h (ix2 p (0 : Fin 2))
      = u0 (ix2 p (0 : Fin 1)) :=
  concatenate_apply_piece 1 [⟨⟨2, ![a, 1]⟩, u0⟩, ⟨⟨2, ![a, 1]⟩, u1⟩] h (ix2 p (0 : Fin 2)) 0 (by simp) _ u0 rfl rfl 0 rfl (ix2 p (0 : Fin 1))
    (off_axis p (0 : Fin 2)) rfl

/-- Two columns joined: entry (p, 1) is the second column's entry p. -/
theorem join2_apply1 {a : ℕ} (u0 u1 : (⟨2, ![a, 1]⟩ : Shape).Idx → α)
    (h : Shape.Concatenates [⟨2, ![a, 1]⟩, ⟨2, ![a, 1]⟩] ⟨2, ![a, 2]⟩ 1) (p : Fin a) :
    concatenate ⟨2, ![a, 2]⟩ 1 [⟨⟨2, ![a, 1]⟩, u0⟩, ⟨⟨2, ![a, 1]⟩, u1⟩] h (ix2 p (1 : Fin 2))
      = u1 (ix2 p (0 : Fin 1)) :=
  concatenate_apply_piece 1 [⟨⟨2, ![a, 1]⟩, u0⟩, ⟨⟨2, ![a, 1]⟩, u1⟩] h (ix2 p (1 : Fin 2)) 1 (by simp) _ u1 rfl rfl 1 rfl (ix2 p (0 : Fin 1))
    (off_axis p (1 : Fin 2)) rfl

/-- Column j of an [a, c] array, taken as a slice [a, 1] and flattened to [a]: entry p is the array's entry (p, j). -/
theorem column_apply {a c : ℕ} (x : (⟨2, ![a, c]⟩ : Shape).Idx → α) (j : ℕ) (hj : j < c)
    (hs : (⟨2, ![a, c]⟩ : Shape).Slices ![0, j] ⟨2, ![a, 1]⟩)
    (hc : (⟨2, ![a, 1]⟩ : Shape).ShapeCasts ⟨1, ![a]⟩) (p : Fin a) :
    shapeCast ⟨1, ![a]⟩ (extractStridedSlice ⟨2, ![a, 1]⟩ ![0, j] x hs) hc (ix1 p) = x (ix2 p ⟨j, hj⟩) := by
  refine (shapeCast_apply _ hc (ix1 p) (ix2 p (0 : Fin 1)) ?_).trans ?_
  · rw [Shape.rowMajor_val_one, Shape.rowMajor_val_two]
    show p.val * 1 + 0 = p.val
    omega
  · refine extractStridedSlice_apply _ x hs _ (ix2 p ⟨j, hj⟩) fun b => ?_
    match b with
    | ⟨0, _⟩ => show p.val = 0 + p.val; omega
    | ⟨1, _⟩ => show j = j + 0; omega

/-- The same for the whole column at once: column j of x, as a vector, is p ↦ x (p, j). -/
theorem column_eq {a c : ℕ} (x : (⟨2, ![a, c]⟩ : Shape).Idx → α) (j : ℕ) (hj : j < c)
    (hs : (⟨2, ![a, c]⟩ : Shape).Slices ![0, j] ⟨2, ![a, 1]⟩)
    (hc : (⟨2, ![a, 1]⟩ : Shape).ShapeCasts ⟨1, ![a]⟩) :
    shapeCast ⟨1, ![a]⟩ (extractStridedSlice ⟨2, ![a, 1]⟩ ![0, j] x hs) hc = fun i => x (ix2 (i 0) ⟨j, hj⟩) := by
  funext i
  rw [eq_ix1 i]
  exact column_apply x j hj hs hc (i 0)

end Cert.Columns

end
-- ==== Proof.LibWordIndex.lean ====
/-
  Small numbers as 32-bit index words.

  An index computed in 32-bit words is read back by a gather as a SIGNED integer; jax first adds the
  axis' extent to a negative index. For a word that denotes a number below 2^31 neither matters: the
  signed reading is the number itself and the sign test is false. And 64 * r + w, computed in words
  for r < 16 and a word w below 64, denotes 64 r + w (nothing wraps).
-/
import Idealize.ShloMosaic.Lib.ValueIdx

open Idealize.ShloMosaic

namespace Cert.WordIndex

/-- The signed reading of a word below 2^31, as a natural number, is the number it denotes. -/
theorem toInt_toNat_of_lt (v : BitVec 32) (hv : v.toNat < 2 ^ 31) : v.toInt.toNat = v.toNat := by
  rw [BitVec.toInt_eq_toNat_cond]
  have : 2 * v.toNat < 2 ^ 32 := by omega
  rw [if_pos this]
  exact Int.toNat_natCast _

/-- A word below 2^31 is not negative: the select that would add the extent keeps the word. -/
theorem select_slt_zero (v a : BitVec 32) (hv : v.toNat < 2 ^ 31) :
    Scalar.select (IntOp.cmpi .slt v 0#32) a v = v := by
  have h : IntOp.cmpi .slt v 0#32 = 0#1 := by
    have hs : v.slt 0#32 = false := by
      rw [BitVec.slt, BitVec.toInt_eq_toNat_cond, if_pos (by omega : 2 * v.toNat < 2 ^ 32)]
      simp
    simp [IntOp.cmpi, hs]
  rw [h]
  exact ValueIdx.select_zero a v

/-- A counter below 2^32, as a word, denotes itself. -/
theorem toNat_ofNat_of_lt {k : ℕ} (hk : k < 2 ^ 32) : (BitVec.ofNat 32 k).toNat = k := by
  rw [BitVec.toNat_ofNat, Nat.mod_eq_of_lt hk]

/-- 64 r + w in words, for a row r < 16 and a column word w below 64, denotes 64 r + w. -/
theorem toNat_row_add (r : ℕ) (hr : r < 16) (w : BitVec 32) (hw : w.toNat < 64) :
    (IntOp.addi (IntOp.muli (BitVec.ofNat 32 r) 64#32) w).toNat = r * 64 + w.toNat := by
  show ((BitVec.ofNat 32 r) * 64#32 + w).toNat = _
  rw [BitVec.toNat_add, BitVec.toNat_mul, BitVec.toNat_ofNat]
  show (r % 2 ^ 32 * 64 % 2 ^ 32 + w.toNat) % 2 ^ 32 = _
  omega

end Cert.WordIndex
-- ==== Proof.RefSim.lean ====
/-
  The reference's masked similarity, read at an entry.

  The reference multiplies the normalised rows y : [8192, 128] by their transpose, so entry (r, c) of the product is
  the sum over k of y r k * y c k; it divides every entry by the temperature 1/2; and it overwrites the diagonal with
  the constant -50000 by a scatter whose update e carries the start words (e, e): both columns of the index array hold
  the row counter e (the counter is never negative, so the branch that would add the extent is not taken), hence
  update e lands at the cell (e, e) and nowhere else.  Entry (r, c) of the result is therefore -50000 when r = c and
  the divided dot product otherwise: the specification's simR of the normalised rows.
-/
import proofs.«181090_j11141145166516_2_alg».proof.Proof.RefZn
import proofs.«181090_j11141145166516_2_alg».proof.Proof.RefDiagScatter
import proofs.«181090_j11141145166516_2_alg».proof.Proof.LibColumns
import proofs.«181090_j11141145166516_2_alg».proof.Proof.LibWordIndex

noncomputable section

namespace Cert.Loss.Ref

open Cert.ReferenceIdeal Cert.ReferenceIdeal.Read Idealize.ShloMosaic Idealize.ShloMosaic.ValueIdx

/-- The word of a row counter below 8192 denotes a number below 2^31. -/
theorem row_word_small (e : Fin 8192) : (BitVec.ofNat 32 e.val).toNat < 2 ^ 31 := by
  have he := e.isLt
  rw [BitVec.toNat_ofNat, Nat.mod_eq_of_lt (by omega)]
  omega

/-- The first column of the scatter's index array holds the row counter. -/
theorem ref_idx0 (e : Fin 8192) : val_main_v23 (F := Ideal) (ix2 e (0 : Fin 2)) = BitVec.ofNat 32 e.val := by
  have e21 : idx_main_v21 (ix2 e (0 : Fin 1)) = ix1 e :=
    funext fun a => Fin.ext (by match a with | ⟨0, _⟩ => rfl)
  unfold val_main_v23
  refine (Cert.Columns.join2_apply0 _ _ _ e).trans ?_
  rw [val_main_v21_apply, e21, val_main_v15_apply, val_main_v12_apply, val_main_v11_apply, val_main_c_apply,
    val_main_v10_apply]
  exact Cert.WordIndex.select_slt_zero _ _ (row_word_small e)

/-- The second column of the scatter's index array holds the row counter. -/
theorem ref_idx1 (e : Fin 8192) : val_main_v23 (F := Ideal) (ix2 e (1 : Fin 2)) = BitVec.ofNat 32 e.val := by
  have e22 : idx_main_v22 (ix2 e (0 : Fin 1)) = ix1 e :=
    funext fun a => Fin.ext (by match a with | ⟨0, _⟩ => rfl)
  unfold val_main_v23
  refine (Cert.Columns.join2_apply1 _ _ _ e).trans ?_
  rw [val_main_v22_apply, e22, val_main_v20_apply, val_main_v17_apply, val_main_v16_apply, val_main_c_2_apply,
    val_main_v10_apply]
  exact Cert.WordIndex.select_slt_zero _ _ (row_word_small e)

/-- Every update value of the scatter is the constant -50000. -/
theorem ref_upd (j : S8192.Idx) : val_main_v24 (F := Ideal) j = Cert.Loss.dneg := by
  rw [val_main_v24_apply, val_main_cst_4_apply]
  rfl

/-- The divided product at (r, c): the dot product of the normalised rows r and c over the temperature. -/
theorem ref_scaled (x0 x1 : (⟨S4096x128, .f32⟩ : BufTy).Contents (Elt Ideal)) (r c : Fin 8192) :
    val_main_v9 (F := Ideal) x0 x1 (ix2 r c)
      = Ideal.div (Cert.Loss.dot (Cert.Loss.zn (Cert.Loss.stack (Cert.Loss.ofArr2 x0) (Cert.Loss.ofArr2 x1))) r c)
          Cert.Loss.half := by
  have el : ∀ k : Fin 128, lidx_main_v7 (ix2 r c) k = ix2 r k := fun k =>
    funext fun a => Fin.ext (by match a with | ⟨0, _⟩ => rfl | ⟨1, _⟩ => rfl)
  have er : ∀ k : Fin 128, idx_main_v6 (ridx_main_v7 (ix2 r c) k) = ix2 c k := fun k =>
    funext fun a => Fin.ext (by match a with | ⟨0, _⟩ => rfl | ⟨1, _⟩ => rfl)
  rw [val_main_v9_apply, val_main_v8_apply, val_main_cst_0_apply, val_main_v7_apply, Ideal.hostDivf_def]
  refine congrArg (fun s => Ideal.div s _) (Finset.sum_congr rfl fun k _ => ?_)
  rw [val_main_v6_apply, el k, er k, ref_zn, ref_zn]

/-- The reference's masked similarity at (r, c) is the specification's simR of the normalised rows. -/
theorem ref_sim (x0 x1 : (⟨S4096x128, .f32⟩ : BufTy).Contents (Elt Ideal)) (r c : Fin 8192) :
    Cert.ReferenceIdeal.Read.val_main_v25 (F := Ideal) x0 x1 (ValueIdx.ix2 r c)
      = Cert.Loss.simR (Cert.Loss.zn (Cert.Loss.stack (Cert.Loss.ofArr2 x0) (Cert.Loss.ofArr2 x1))) r c := by
  have h9 := ref_scaled x0 x1 r c
  unfold val_main_v25
  generalize val_main_v9 (F := Ideal) x0 x1 = y9 at h9 ⊢
  have hd : scatter_S8192x8192_S8192x2_S8192_n_01_01_1
      = diagDims Facts₀.scatter_S8192x8192_S8192x2_S8192_n_01_01_1_wf := rfl
  rw [hd]
  refine (diag_scatter_apply _ y9 _ _ Cert.Loss.dneg ref_upd ref_idx0 ref_idx1 r c).trans ?_
  rw [h9]
  rfl

end Cert.Loss.Ref

end
-- ==== Proof.LibGatherCell.lean ====
/-
  A gather of single cells of a two-axis array by pairs of indices, read at an entry.

  What x[rows, j] of an array x : [N, C] at an integer vector rows : [R] and one column number j lowers to: the pairs
  (rows[e], j) laid along a last axis of extent 2 ([R, 2]), both axes of the operand collapsed (slice sizes [1, 1]),
  no offset axis: the result is a vector [R]. Its entry e is x at the row the pair's first component names and the
  column its second component names, each component read as a signed integer and clamped into its axis, as the
  gather clamps every start index.
-/
import Idealize.ShloMosaic.Lib.ValueIdx

open Idealize.ShloMosaic Idealize.ShloMosaic.ValueIdx

namespace Cert.GatherCell

variable {α : Type}

/-- Those dimension numbers for an operand [N, C], start indices [R, 2] and result [R]. -/
abbrev cellDims (N C R : Nat)
    (wf : GatherDims.WF ⟨2, ![N, C]⟩ ⟨2, ![R, 2]⟩ ⟨1, ![R]⟩ [] [0, 1] [] [0, 1] [] 1 ![1, 1]) :
    GatherDims ⟨2, ![N, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- THE GATHER READ AT e: the operand at the pair's two components, each read signed and clamped into its axis. -/
theorem gather_cell_apply {N C R w : Nat} (hN : 0 < N) (hC : 0 < C)
    (wf : GatherDims.WF ⟨2, ![N, C]⟩ ⟨2, ![R, 2]⟩ ⟨1, ![R]⟩ [] [0, 1] [] [0, 1] [] 1 ![1, 1])
    (x : (⟨2, ![N, C]⟩ : Shape).Idx → α) (idx : IVec ⟨2, ![R, 2]⟩ w) (e : Fin R) :
    Host.gather (cellDims N C R wf) x idx (ix1 e)
      = x (ix2 ⟨min (idx (ix2 e (0 : Fin 2))).toInt.toNat (N - 1), by omega⟩
               ⟨min (idx (ix2 e (1 : Fin 2))).toInt.toNat (C - 1), by omega⟩) := by
  unfold Host.gather
  refine congrArg x ?_
  funext a
  refine Fin.ext ?_
  have h0 : (0 : Fin 2) ∈ (cellDims N C R wf).startIndexMap := List.mem_cons_self
  have h1 : (1 : Fin 2) ∈ (cellDims N C R wf).startIndexMap := List.mem_cons_of_mem _ List.mem_cons_self
  match a with
  | ⟨0, _⟩ =>
    show (cellDims N C R wf).start (ix1 e) idx 0 + (cellDims N C R wf).batchCoord (ix1 e) 0
      + (cellDims N C R wf).offCoord (ix1 e) 0 = _
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos h0]
    have hsi : (cellDims N C R wf).siIdx (ix1 e) ⟨List.idxOf (0 : Fin 2) (cellDims N C R wf).startIndexMap,
        List.idxOf_lt_length_iff.2 h0⟩ = ix2 e (0 : Fin 2) := by
      funext b; refine Fin.ext ?_
      match b with
      | ⟨0, _⟩ => rfl
      | ⟨1, _⟩ => rfl
    rw [hsi]
    rfl
  | ⟨1, _⟩ =>
    show (cellDims N C R wf).start (ix1 e) idx 1 + (cellDims N C R wf).batchCoord (ix1 e) 1
      + (cellDims N C R wf).offCoord (ix1 e) 1 = _
    rw [GatherDims.batchCoord_eq_zero _ _ _ List.not_mem_nil,
      GatherDims.offCoord_eq_zero _ _ _ (fun h => ((GatherDims.mem_sKept _ _).mp h).1
        (List.mem_cons_of_mem _ List.mem_cons_self))]
    simp only [Nat.add_zero]
    unfold GatherDims.start
    rw [dif_pos h1]
    have hsi : (cellDims N C R wf).siIdx (ix1 e) ⟨List.idxOf (1 : Fin 2) (cellDims N C R wf).startIndexMap,
        List.idxOf_lt_length_iff.2 h1⟩ = ix2 e (1 : Fin 2) := by
      funext b; refine Fin.ext ?_
      match b with
      | ⟨0, _⟩ => rfl
      | ⟨1, _⟩ => rfl
    rw [hsi]
    rfl

end Cert.GatherCell
-- ==== Proof.RefLogp.lean ====
/-
  The reference's log-probabilities read at an entry.

  The log_softmax of an array with entries S: the row maxima are the maximum over the second axis folded from -inf and
  compared with -inf once more (which changes nothing, the fold being at least its starting value); the shifted entries
  are S r c - max_r; their exponentials are summed along the row from zero; and the entry (r, c) of the result is the
  shifted entry minus the logarithm of that sum: (S r c - max_r) - log (sum_c' exp (S r c' - max_r)).
-/
import proofs.«181090_j11141145166516_2_alg».proof.Proof.Spec
import proofs.«181090_j11141145166516_2_alg».proof.Proof.LibScatterConst
import proofs.«181090_j11141145166516_2_alg».proof.Proof.RefReadP

noncomputable section

namespace Cert.Loss.Ref

open Idealize.ShloMosaic Idealize.ShloMosaic.ValueIdx Cert.ReferenceIdeal Cert.ReferenceIdeal.Read

/-- The row maximum is at least the value it is folded from, so comparing it with that value once more changes
    nothing. -/
theorem max_ninf_rmax (f : R → EReal) : max ninf (rmax f) = rmax f :=
  max_eq_right ((Finset.le_fold_max ninf).2 (Or.inl le_rfl))

/-- The maximum over the second axis of an array whose entries are S, folded from -inf: at row r the row maximum
    of S r. -/
theorem rowmax_read (y : FVec Ideal ⟨2, ![8192, 8192]⟩ .f32) (S : R → R → EReal) (hS : ∀ r c : R, y (ix2 r c) = S r c)
    (init : (⟨0, ![]⟩ : Shape).Idx → Ideal .f32) (hinit : ∀ i, init i = ninf)
    (h' : (⟨2, ![8192, 8192]⟩ : Shape).ReducesTo [1] ⟨1, ![8192]⟩) (hu : 0 < (⟨0, ![]⟩ : Shape).numel) (r : R) :
    Host.reduce (FloatOps.maximumf (F := Ideal) (φ := .f32)) y init h' hu (ix1 r) = rmax (S r) := by
  rw [Cert.ScatterConst.hostReduce_max_rows y init h' (by decide) hu r, hinit]
  exact Finset.fold_congr fun q _ => hS r q

/-- The reference's row maxima: at row r the row maximum of S r. -/
theorem rowmax_stage (x0 x1 : (⟨S4096x128, .f32⟩ : BufTy).Contents (Elt Ideal)) (S : R → R → EReal)
    (hS : ∀ r c : R, val_main_v25 (F := Ideal) x0 x1 (ix2 r c) = S r c) (r : R) :
    val_main_call1_v0 (F := Ideal) x0 x1 (ix1 r) = rmax (S r) := by
  unfold val_main_call1_v0
  generalize val_main_v25 (F := Ideal) x0 x1 = y at hS ⊢
  exact rowmax_read y S hS _ (fun _ => rfl) _ _ r

/-- The reference's shifted entries: S r c minus the row maximum. -/
theorem shifted_apply (x0 x1 : (⟨S4096x128, .f32⟩ : BufTy).Contents (Elt Ideal)) (S : R → R → EReal)
    (hS : ∀ r c : R, val_main_v25 (F := Ideal) x0 x1 (ix2 r c) = S r c) (r c : R) :
    val_main_call1_v5 (F := Ideal) x0 x1 (ix2 r c) = S r c - rmax (S r) := by
  have e4 : idx_main_call1_v4 (ix2 r c) = ix2 r (0 : Fin 1) :=
    funext fun a => Fin.ext (by match a with | ⟨0, _⟩ => rfl | ⟨1, _⟩ => rfl)
  have e3 : idx_main_call1_v3 (ix2 r (0 : Fin 1)) = ix1 r :=
    funext fun a => Fin.ext (by match a with | ⟨0, _⟩ => rfl)
  rw [val_main_call1_v5_apply, val_main_call1_v4_apply, e4, val_main_call1_v3_apply, e3, val_main_call1_v2_apply,
    val_main_call1_v1_apply, val_main_call1_cst_0_apply, rowmax_stage x0 x1 S hS r, hS]
  simp only [Ideal.subf_def, Ideal.maximumf_def, Ideal.ofBits_def]
  rw [show Ideal.ofBits .f32 0xFF800000#32 = ninf from rfl, max_ninf_rmax]

/-- THE LOG-PROBABILITIES AT AN ENTRY: the shifted entry minus the logarithm of the row's sum of shifted
    exponentials. -/
theorem logp_apply (x0 x1 : (⟨S4096x128, .f32⟩ : BufTy).Contents (Elt Ideal)) (S : R → R → EReal)
    (hS : ∀ r c : R, val_main_v25 (F := Ideal) x0 x1 (ix2 r c) = S r c) (r c : R) :
    val_main_v29 (F := Ideal) x0 x1 (ix2 r c) = (S r c - rmax (S r)) - lse (S r) := by
  have e10 : idx_main_call1_v10 (ix2 r c) = ix2 r (0 : Fin 1) :=
    funext fun a => Fin.ext (by match a with | ⟨0, _⟩ => rfl | ⟨1, _⟩ => rfl)
  have e8 : idx_main_call1_v8 (ix2 r (0 : Fin 1)) = ix1 r :=
    funext fun a => Fin.ext (by match a with | ⟨0, _⟩ => rfl)
  have e7 : ∀ k : Fin 8192, idx_main_call1_v7 (ix1 r) k = ix2 r k := fun k =>
    funext fun a => Fin.ext (by match a with | ⟨0, _⟩ => rfl | ⟨1, _⟩ => rfl)
  rw [val_main_v29_apply, shifted_apply x0 x1 S hS, val_main_call1_v10_apply, e10, val_main_call1_v9_apply,
    val_main_call1_v8_apply, e8, val_main_call1_v7_apply, val_main_call1_cst_1_apply]
  simp only [e7, val_main_call1_v6_apply, shifted_apply x0 x1 S hS, Ideal.subf_def, Ideal.hostUnary_exp_def,
    Ideal.hostUnary_log_def, Ideal.ofBits_def, Ideal.ofBits_zero_f32, zero_add]
  rfl

end Cert.Loss.Ref

end
-- ==== Proof.RefTail.lean ====
/-
  The reference's second half read at its one entry: the log-probabilities' label entries, their mean, and the sign.

  The label of row e is the counter 0..8191 with its two halves exchanged (rows 4096..8191 first, then rows 0..4095):
  the row 4096 places further on, cyclically.  Both the row numbers and the labels are 32-bit words below 2^31, so the
  test "negative, then add the extent" keeps each word, the signed reading of a word is the number it denotes, and the
  clamp into an axis of 8192 entries does nothing.  The pairs (row, label) laid side by side drive a gather of single
  cells: its entry e is the log-probability at (e, label e).  The 8192 entries are summed from zero, the sum is divided
  by the count, and the quotient is negated.
-/
import proofs.«181090_j11141145166516_2_alg».proof.Proof.Spec
import proofs.«181090_j11141145166516_2_alg».proof.Proof.LibWordIndex
import proofs.«181090_j11141145166516_2_alg».proof.Proof.LibColumns
import proofs.«181090_j11141145166516_2_alg».proof.Proof.LibGatherCell
import proofs.«181090_j11141145166516_2_alg».proof.Proof.RefLogp

noncomputable section

namespace Cert.Loss.Ref

open Idealize.ShloMosaic Idealize.ShloMosaic.ValueIdx Cert.ReferenceIdeal Cert.ReferenceIdeal.Read

/-! ## General readings -/

/-- Two vectors of 4096 entries laid end to end: entry e of the result is entry e of the first below 4096, and entry
    e - 4096 of the second from there on. -/
theorem stacked_words_read {α : Type} (u0 u1 : (⟨1, ![4096]⟩ : Shape).Idx → α)
    (h : Shape.Concatenates [(⟨1, ![4096]⟩ : Shape), ⟨1, ![4096]⟩] ⟨1, ![8192]⟩ 0) (e : R) :
    concatenate ⟨1, ![8192]⟩ 0 [⟨⟨1, ![4096]⟩, u0⟩, ⟨⟨1, ![4096]⟩, u1⟩] h (ix1 e)
      = if he : e.val < 4096 then u0 (ix1 (⟨e.val, he⟩ : Fin 4096))
        else u1 (ix1 (⟨e.val - 4096, by have := e.isLt; omega⟩ : Fin 4096)) := by
  by_cases he : e.val < 4096
  · rw [dif_pos he]
    refine concatenate_pair_apply_left 0 u0 u1 h (ix1 e) rfl (ix1 (⟨e.val, he⟩ : Fin 4096)) fun ax => ?_
    match ax with
    | ⟨0, _⟩ => rfl
  · rw [dif_neg he]
    refine concatenate_pair_apply_right 0 u0 u1 h (ix1 e) rfl rfl
      (ix1 (⟨e.val - 4096, by have := e.isLt; omega⟩ : Fin 4096)) (fun ax hax => ?_) ?_
    · match ax with
      | ⟨0, _⟩ => exact absurd (Fin.ext rfl) hax
    · show e.val - 4096 + 4096 = e.val
      omega

/-- The word of a number below 8192 denotes a number below 2^31. -/
theorem word_lt (k : ℕ) (hk : k < 8192) : (BitVec.ofNat 32 k).toNat < 2 ^ 31 := by
  rw [Cert.WordIndex.toNat_ofNat_of_lt (by omega)]; omega

/-- The word of a number below 8192, read signed and clamped into an axis of 8192 entries, is the number. -/
theorem word_clamped (k : ℕ) (hk : k < 8192) : min (BitVec.ofNat 32 k).toInt.toNat (8192 - 1) = k := by
  rw [Cert.WordIndex.toInt_toNat_of_lt _ (word_lt k hk), Cert.WordIndex.toNat_ofNat_of_lt (by omega)]
  omega

/-- A one-axis index set is its coordinate's range ... -/
def idxEquiv1 {n : ℕ} : (⟨1, ![n]⟩ : Shape).Idx ≃ Fin n where
  toFun i := i 0
  invFun p := ix1 p
  left_inv i := (eq_ix1 i).symm
  right_inv _ := rfl

/-- ... so a sum over it is the sum over the coordinate. -/
theorem sum_idx1 {M : Type*} [AddCommMonoid M] {n : ℕ} (f : (⟨1, ![n]⟩ : Shape).Idx → M) :
    ∑ j, f j = ∑ p : Fin n, f (ix1 p) :=
  (Equiv.sum_comp (idxEquiv1 (n := n)).symm f).symm

/-- The gather of single cells at entry e, when the pair of words at e denotes the row p and the column q: the
    operand's entry (p, q). -/
theorem gather_cell_at {α : Type}
    (wf : GatherDims.WF ⟨2, ![8192, 8192]⟩ ⟨2, ![8192, 2]⟩ ⟨1, ![8192]⟩ [] [0, 1] [] [0, 1] [] 1 ![1, 1])
    (x : (⟨2, ![8192, 8192]⟩ : Shape).Idx → α) (idx : IVec ⟨2, ![8192, 2]⟩ 32) (e p q : R)
    (hp : idx (ix2 e (0 : Fin 2)) = BitVec.ofNat 32 p.val) (hq : idx (ix2 e (1 : Fin 2)) = BitVec.ofNat 32 q.val) :
    Host.gather (Cert.GatherCell.cellDims 8192 8192 8192 wf) x idx (ix1 e) = x (ix2 p q) := by
  rw [Cert.GatherCell.gather_cell_apply (by decide) (by decide) wf x idx e]
  have hix : ∀ (a a' b b' : R), a = a' → b = b' →
      (ix2 a b : (⟨2, ![8192, 8192]⟩ : Shape).Idx) = ix2 a' b' := by
    intro a a' b b' h1 h2; rw [h1, h2]
  refine congrArg x (hix _ _ _ _ (Fin.ext ?_) (Fin.ext ?_))
  · show min (idx (ix2 e (0 : Fin 2))).toInt.toNat (8192 - 1) = p.val
    rw [hp]; exact word_clamped _ p.isLt
  · show min (idx (ix2 e (1 : Fin 2))).toInt.toNat (8192 - 1) = q.val
    rw [hq]; exact word_clamped _ q.isLt

/-! ## The pairs (row, label) -/

/-- The exchanged counter at row e is the word of the label of e. -/
theorem label_word (e : R) : val_main_v28 (F := Ideal) (ix1 e) = BitVec.ofNat 32 (lab e).val := by
  unfold val_main_v28
  refine (stacked_words_read _ _ _ e).trans ?_
  unfold lab
  by_cases he : e.val < 4096
  · rw [dif_pos he, dif_pos he, val_main_v26_apply, val_main_v10_apply]
    show BitVec.ofNat 32 (4096 + e.val) = BitVec.ofNat 32 (e.val + 4096)
    rw [Nat.add_comm]
  · rw [dif_neg he, dif_neg he, val_main_v27_apply, val_main_v10_apply]

/-- The label word is not negative: the select keeps it. -/
theorem label_kept (e : R) : val_main_v39 (F := Ideal) (ix1 e) = BitVec.ofNat 32 (lab e).val := by
  rw [val_main_v39_apply, val_main_v36_apply, val_main_v35_apply, val_main_c_7_apply, label_word]
  exact Cert.WordIndex.select_slt_zero _ _ (word_lt _ (lab e).isLt)

/-- The row word is not negative: the select keeps it. -/
theorem row_kept (e : R) : val_main_v34 (F := Ideal) (ix1 e) = BitVec.ofNat 32 e.val := by
  rw [val_main_v34_apply, val_main_v31_apply, val_main_v30_apply, val_main_c_5_apply, val_main_v10_apply]
  exact Cert.WordIndex.select_slt_zero _ _ (word_lt _ e.isLt)

/-- The first component of pair e is the word of e. -/
theorem pair_row (e : R) : val_main_v42 (F := Ideal) (ix2 e (0 : Fin 2)) = BitVec.ofNat 32 e.val := by
  have e40 : idx_main_v40 (ix2 e (0 : Fin 1)) = ix1 e :=
    funext fun a => Fin.ext (by match a with | ⟨0, _⟩ => rfl)
  unfold val_main_v42
  refine (Cert.Columns.join2_apply0 _ _ _ e).trans ?_
  rw [val_main_v40_apply, e40, row_kept]

/-- The second component of pair e is the word of the label of e. -/
theorem pair_label (e : R) : val_main_v42 (F := Ideal) (ix2 e (1 : Fin 2)) = BitVec.ofNat 32 (lab e).val := by
  have e41 : idx_main_v41 (ix2 e (0 : Fin 1)) = ix1 e :=
    funext fun a => Fin.ext (by match a with | ⟨0, _⟩ => rfl)
  unfold val_main_v42
  refine (Cert.Columns.join2_apply1 _ _ _ e).trans ?_
  rw [val_main_v41_apply, e41, label_kept]

/-! ## The gathered entries, their mean, the sign -/

/-- Entry e of the gather is the log-probability of the label of row e. -/
theorem gathered_apply (x0 x1 : (⟨S4096x128, .f32⟩ : BufTy).Contents (Elt Ideal)) (S : R → R → EReal)
    (hS : ∀ r c : R, val_main_v25 (F := Ideal) x0 x1 (ix2 r c) = S r c) (e : R) :
    val_main_v43 (F := Ideal) x0 x1 (ix1 e) = rowR S e := by
  have hy : ∀ r c : R, val_main_v29 (F := Ideal) x0 x1 (ix2 r c) = (S r c - rmax (S r)) - lse (S r) :=
    logp_apply x0 x1 S hS
  unfold val_main_v43
  generalize val_main_v29 (F := Ideal) x0 x1 = y at hy ⊢
  refine (gather_cell_at _ y (val_main_v42 (F := Ideal)) e e (lab e)
    (pair_row e) (pair_label e)).trans ?_
  rw [hy]
  rfl

/-- THE REFERENCE'S RESULT: minus the mean of the label entries' log-probabilities. -/
theorem ref_tail (x0 x1 : (⟨S4096x128, .f32⟩ : BufTy).Contents (Elt Ideal)) (S : Fin 8192 → Fin 8192 → EReal)
    (hS : ∀ r c : Fin 8192, Cert.ReferenceIdeal.Read.val_main_v25 (F := Ideal) x0 x1 (ValueIdx.ix2 r c) = S r c) (i : S_.Idx) :
    Cert.ReferenceIdeal.Read.val_main_v46 (F := Ideal) x0 x1 i
      = - Ideal.div (∑ r : Fin 8192, Cert.Loss.rowR S r) Cert.Loss.cnt := by
  rw [val_main_v46_apply, val_main_v45_apply, val_main_v44_apply, val_main_cst_9_apply, val_main_cst_10_apply, sum_idx1]
  simp only [gathered_apply x0 x1 S hS, Ideal.hostNegf_def, Ideal.negf_def, Ideal.hostDivf_def, Ideal.ofBits_def,
    Ideal.ofBits_zero_f32, zero_add]
  rfl

end Cert.Loss.Ref

end
-- ==== Proof.RefRunHOps.lean ====
/-
  The reference program as a list of operations, cut into four pieces.

  The program is a straight line of 78 array operations.  Its value at the result is a composition in which the
  stacked input, the scaled rows, the similarity matrix and the shifted similarities are each used more than once.
  The line is cut after the scaled rows, after the similarity matrix with its diagonal replaced, and after the
  log-probabilities.  Each later piece is written as a function of the few arrays it reads, and these functions
  composed are the program's stages read one operation at a time.
-/
import proofs.«181090_j11141145166516_2_alg».proof.Proof.RefReadP

noncomputable section

namespace Cert.Loss.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 78 operations, in order. -/
abbrev ops : List (HloOp τ sig (Elt F)) :=
  [ binary main_arg0 main_arg1 main_v0 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)),
    TRef.binary (TRef.of (T := ⟨S8192x128, .f32⟩) main_v0) (TRef.of (T := ⟨S8192x128, .f32⟩) main_v0) (TRef.of (T := ⟨S8192x128, .f32⟩) main_call0_v0) mulf,
    TRef.nullary (TRef.of (T := ⟨S_, .f32⟩) main_call0_cst) (constant S_ .f32 0x00000000#32),
    TRef.binary (TRef.of (T := ⟨S8192x128, .f32⟩) main_call0_v0) (TRef.of (T := ⟨S_, .f32⟩) main_call0_cst) (TRef.of (T := ⟨S8192, .f32⟩) main_call0_v1) (fun x v => Host.reduceAdd x v reducesTo_S8192x128_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v1) Host.sqrt,
    nullary main_cst (constant S_ .f32 0x322BCC77#32),
    unary main_cst main_v2 (broadcastInDim S8192x1 ![] bcast_S_S8192x1 : (⟨S_, .f32⟩ : BufTy).Contents (Elt F) → (⟨S8192x1, .f32⟩ : BufTy).Contents (Elt F)),
    binary main_v1 main_v2 main_v3 (maximumf : (⟨S8192x1, .f32⟩ : BufTy).Contents (Elt F) → (⟨S8192x1, .f32⟩ : BufTy).Contents (Elt F) → (⟨S8192x1, .f32⟩ : BufTy).Contents (Elt F)),
    unary main_v3 main_v4 (broadcastInDim S8192x128 ![0, 1] bcast_S8192x1_S8192x128_0_1 : (⟨S8192x1, .f32⟩ : BufTy).Contents (Elt F) → (⟨S8192x128, .f32⟩ : BufTy).Contents (Elt F)),
    binary main_v0 main_v4 main_v5 (Host.divf : (⟨S8192x128, .f32⟩ : BufTy).Contents (Elt F) → (⟨S8192x128, .f32⟩ : BufTy).Contents (Elt F) → (⟨S8192x128, .f32⟩ : BufTy).Contents (Elt F)),
    unary main_v5 main_v6 ((transpose S128x8192 [1, 0] · transposes_S8192x128_S128x8192_1_0) : (⟨S8192x128, .f32⟩ : BufTy).Contents (Elt F) → (⟨S128x8192, .f32⟩ : BufTy).Contents (Elt F)),
    binary main_v5 main_v6 main_v7 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_0 (constant S_ .f32 0x3F000000#32),
    unary main_cst_0 main_v8 (broadcastInDim S8192x8192 ![] bcast_S_S8192x8192 : (⟨S_, .f32⟩ : BufTy).Contents (Elt F) → (⟨S8192x8192, .f32⟩ : BufTy).Contents (Elt F)),
    binary main_v7 main_v8 main_v9 (Host.divf : (⟨S8192x8192, .f32⟩ : BufTy).Contents (Elt F) → (⟨S8192x8192, .f32⟩ : BufTy).Contents (Elt F) → (⟨S8192x8192, .f32⟩ : BufTy).Contents (Elt F)),
    nullary main_v10 (iotaInDim S8192 32 0),
    nullary main_c (constantI S_ 32 0#32),
    unary main_c main_v11 (broadcastInDim S8192 ![] bcast_S_S8192 : (⟨S_, .i32⟩ : BufTy).Contents (Elt F) → (⟨S8192, .i32⟩ : BufTy).Contents (Elt F)),
    binary main_v10 main_v11 main_v12 (cmpi .slt : (⟨S8192, .i32⟩ : BufTy).Contents (Elt F) → (⟨S8192, .i32⟩ : BufTy).Contents (Elt F) → (⟨S8192, .i1⟩ : BufTy).Contents (Elt F)),
    nullary main_c_1 (constantI S_ 32 8192#32),
    unary main_c_1 main_v13 (broadcastInDim S8192 ![] bcast_S_S8192 : (⟨S_, .i32⟩ : BufTy).Contents (Elt F) → (⟨S8192, .i32⟩ : BufTy).Contents (Elt F)),
    binary main_v10 main_v13 main_v14 (addi : (⟨S8192, .i32⟩ : BufTy).Contents (Elt F) → (⟨S8192, .i32⟩ : BufTy).Contents (Elt F) → (⟨S8192, .i32⟩ : BufTy).Contents (Elt F)),
    ternary main_v12 main_v14 main_v10 main_v15 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_2 (constantI S_ 32 0#32),
    unary main_c_2 main_v16 (broadcastInDim S8192 ![] bcast_S_S8192 : (⟨S_, .i32⟩ : BufTy).Contents (Elt F) → (⟨S8192, .i32⟩ : BufTy).Contents (Elt F)),
    binary main_v10 main_v16 main_v17 (cmpi .slt : (⟨S8192, .i32⟩ : BufTy).Contents (Elt F) → (⟨S8192, .i32⟩ : BufTy).Contents (Elt F) → (⟨S8192, .i1⟩ : BufTy).Contents (Elt F)),
    nullary main_c_3 (constantI S_ 32 8192#32),
    unary main_c_3 main_v18 (broadcastInDim S8192 ![] bcast_S_S8192 : (⟨S_, .i32⟩ : BufTy).Contents (Elt F) → (⟨S8192, .i32⟩ : BufTy).Contents (Elt F)),
    binary main_v10 main_v18 main_v19 (addi : (⟨S8192, .i32⟩ : BufTy).Contents (Elt F) → (⟨S8192, .i32⟩ : BufTy).Contents (Elt F) → (⟨S8192, .i32⟩ : BufTy).Contents (Elt F)),
    ternary main_v17 main_v19 main_v10 main_v20 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v15 main_v21 (broadcastInDim S8192x1 ![0] bcast_S8192_S8192x1_0 : (⟨S8192, .i32⟩ : BufTy).Contents (Elt F) → (⟨S8192x1, .i32⟩ : BufTy).Contents (Elt F)),
    unary main_v20 main_v22 (broadcastInDim S8192x1 ![0] bcast_S8192_S8192x1_0 : (⟨S8192, .i32⟩ : BufTy).Contents (Elt F) → (⟨S8192x1, .i32⟩ : BufTy).Contents (Elt F)),
    binary main_v21 main_v22 main_v23 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    nullary main_cst_4 (constant S_ .f32 0xC7435000#32),
    unary main_cst_4 main_v24 (broadcastInDim S8192 ![] bcast_S_S8192 : (⟨S_, .f32⟩ : BufTy).Contents (Elt F) → (⟨S8192, .f32⟩ : BufTy).Contents (Elt F)),
    ternary main_v9 main_v23 main_v24 main_v25 ((fun x i u => Host.scatter scatter_S8192x8192_S8192x2_S8192_n_01_01_1 (fun _ b => b) x i u) : (⟨S8192x8192, .f32⟩ : BufTy).Contents (Elt F) → (⟨S8192x2, .i32⟩ : BufTy).Contents (Elt F) → (⟨S8192, .f32⟩ : BufTy).Contents (Elt F) → (⟨S8192x8192, .f32⟩ : BufTy).Contents (Elt F)),
    unary main_v10 main_v26 ((extractStridedSlice S4096 ![4096] · slices_S8192_S4096_4096) : (⟨S8192, .i32⟩ : BufTy).Contents (Elt F) → (⟨S4096, .i32⟩ : BufTy).Contents (Elt F)),
    unary main_v10 main_v27 ((extractStridedSlice S4096 ![0] · slices_S8192_S4096_0) : (⟨S8192, .i32⟩ : BufTy).Contents (Elt F) → (⟨S4096, .i32⟩ : BufTy).Contents (Elt F)),
    binary main_v26 main_v27 main_v28 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)),
    TRef.nullary (TRef.of (T := ⟨S_, .f32⟩) main_call1_cst) (constant S_ .f32 0xFF800000#32),
    TRef.binary (TRef.of (T := ⟨S8192x8192, .f32⟩) main_v25) (TRef.of (T := ⟨S_, .f32⟩) main_call1_cst) (TRef.of (T := ⟨S8192, .f32⟩) main_call1_v0) (fun x v => Host.reduce FloatOps.maximumf x v reducesTo_S8192x8192_S8192_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S8192, .f32⟩) main_call1_v1) (broadcastInDim S8192 ![] bcast_S_S8192),
    TRef.binary (TRef.of (T := ⟨S8192, .f32⟩) main_call1_v1) (TRef.of (T := ⟨S8192, .f32⟩) main_call1_v0) (TRef.of (T := ⟨S8192, .f32⟩) main_call1_v2) maximumf,
    TRef.unary (TRef.of (T := ⟨S8192, .f32⟩) main_call1_v2) (TRef.of (T := ⟨S8192x1, .f32⟩) main_call1_v3) (broadcastInDim S8192x1 ![0] bcast_S8192_S8192x1_0),
    TRef.unary (TRef.of (T := ⟨S8192x1, .f32⟩) main_call1_v3) (TRef.of (T := ⟨S8192x8192, .f32⟩) main_call1_v4) (broadcastInDim S8192x8192 ![0, 1] bcast_S8192x1_S8192x8192_0_1),
    TRef.binary (TRef.of (T := ⟨S8192x8192, .f32⟩) main_v25) (TRef.of (T := ⟨S8192x8192, .f32⟩) main_call1_v4) (TRef.of (T := ⟨S8192x8192, .f32⟩) main_call1_v5) subf,
    TRef.unary (TRef.of (T := ⟨S8192x8192, .f32⟩) main_call1_v5) (TRef.of (T := ⟨S8192x8192, .f32⟩) main_call1_v6) Host.exp,
    TRef.nullary (TRef.of (T := ⟨S_, .f32⟩) main_call1_cst_1) (constant S_ .f32 0x00000000#32),
    TRef.binary (TRef.of (T := ⟨S8192x8192, .f32⟩) main_call1_v6) (TRef.of (T := ⟨S_, .f32⟩) main_call1_cst_1) (TRef.of (T := ⟨S8192, .f32⟩) main_call1_v7) (fun x v => Host.reduceAdd x v reducesTo_S8192x8192_S8192_d1 h_S_),
    TRef.unary (TRef.of (T := ⟨S8192, .f32⟩) main_call1_v7) (TRef.of (T := ⟨S8192x1, .f32⟩) main_call1_v8) (broadcastInDim S8192x1 ![0] bcast_S8192_S8192x1_0),
    TRef.unary (TRef.of (T := ⟨S8192x1, .f32⟩) main_call1_v8) (TRef.of (T := ⟨S8192x1, .f32⟩) main_call1_v9) Host.log,
    TRef.unary (TRef.of (T := ⟨S8192x1, .f32⟩) main_call1_v9) (TRef.of (T := ⟨S8192x8192, .f32⟩) main_call1_v10) (broadcastInDim S8192x8192 ![0, 1] bcast_S8192x1_S8192x8192_0_1),
    TRef.binary (TRef.of (T := ⟨S8192x8192, .f32⟩) main_call1_v5) (TRef.of (T := ⟨S8192x8192, .f32⟩) main_call1_v10) (TRef.of (T := ⟨S8192x8192, .f32⟩) main_v29) subf,
    nullary main_c_5 (constantI S_ 32 0#32),
    unary main_c_5 main_v30 (broadcastInDim S8192 ![] bcast_S_S8192 : (⟨S_, .i32⟩ : BufTy).Contents (Elt F) → (⟨S8192, .i32⟩ : BufTy).Contents (Elt F)),
    binary main_v10 main_v30 main_v31 (cmpi .slt : (⟨S8192, .i32⟩ : BufTy).Contents (Elt F) → (⟨S8192, .i32⟩ : BufTy).Contents (Elt F) → (⟨S8192, .i1⟩ : BufTy).Contents (Elt F)),
    nullary main_c_6 (constantI S_ 32 8192#32),
    unary main_c_6 main_v32 (broadcastInDim S8192 ![] bcast_S_S8192 : (⟨S_, .i32⟩ : BufTy).Contents (Elt F) → (⟨S8192, .i32⟩ : BufTy).Contents (Elt F)),
    binary main_v10 main_v32 main_v33 (addi : (⟨S8192, .i32⟩ : BufTy).Contents (Elt F) → (⟨S8192, .i32⟩ : BufTy).Contents (Elt F) → (⟨S8192, .i32⟩ : BufTy).Contents (Elt F)),
    ternary main_v31 main_v33 main_v10 main_v34 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_7 (constantI S_ 32 0#32),
    unary main_c_7 main_v35 (broadcastInDim S8192 ![] bcast_S_S8192 : (⟨S_, .i32⟩ : BufTy).Contents (Elt F) → (⟨S8192, .i32⟩ : BufTy).Contents (Elt F)),
    binary main_v28 main_v35 main_v36 (cmpi .slt : (⟨S8192, .i32⟩ : BufTy).Contents (Elt F) → (⟨S8192, .i32⟩ : BufTy).Contents (Elt F) → (⟨S8192, .i1⟩ : BufTy).Contents (Elt F)),
    nullary main_c_8 (constantI S_ 32 8192#32),
    unary main_c_8 main_v37 (broadcastInDim S8192 ![] bcast_S_S8192 : (⟨S_, .i32⟩ : BufTy).Contents (Elt F) → (⟨S8192, .i32⟩ : BufTy).Contents (Elt F)),
    binary main_v28 main_v37 main_v38 (addi : (⟨S8192, .i32⟩ : BufTy).Contents (Elt F) → (⟨S8192, .i32⟩ : BufTy).Contents (Elt F) → (⟨S8192, .i32⟩ : BufTy).Contents (Elt F)),
    ternary main_v36 main_v38 main_v28 main_v39 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v34 main_v40 (broadcastInDim S8192x1 ![0] bcast_S8192_S8192x1_0 : (⟨S8192, .i32⟩ : BufTy).Contents (Elt F) → (⟨S8192x1, .i32⟩ : BufTy).Contents (Elt F)),
    unary main_v39 main_v41 (broadcastInDim S8192x1 ![0] bcast_S8192_S8192x1_0 : (⟨S8192, .i32⟩ : BufTy).Contents (Elt F) → (⟨S8192x1, .i32⟩ : BufTy).Contents (Elt F)),
    binary main_v40 main_v41 main_v42 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v29 main_v42 main_v43 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_9 (constant S_ .f32 0x00000000#32),
    binary main_v43 main_cst_9 main_v44 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_10 (constant S_ .f32 0x46000000#32),
    binary main_v44 main_cst_10 main_v45 (Host.divf : (⟨S_, .f32⟩ : BufTy).Contents (Elt F) → (⟨S_, .f32⟩ : BufTy).Contents (Elt F) → (⟨S_, .f32⟩ : BufTy).Contents (Elt F)),
    unary main_v45 main_v46 (Host.negf : (⟨S_, .f32⟩ : BufTy).Contents (Elt F) → (⟨S_, .f32⟩ : BufTy).Contents (Elt F)) ]

/-- Operations 1-11: the stacked input and its rows scaled to unit length. -/
abbrev opsA : List (HloOp τ sig (Elt F)) :=
  [ binary main_arg0 main_arg1 main_v0 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)),
    TRef.binary (TRef.of (T := ⟨S8192x128, .f32⟩) main_v0) (TRef.of (T := ⟨S8192x128, .f32⟩) main_v0) (TRef.of (T := ⟨S8192x128, .f32⟩) main_call0_v0) mulf,
    TRef.nullary (TRef.of (T := ⟨S_, .f32⟩) main_call0_cst) (constant S_ .f32 0x00000000#32),
    TRef.binary (TRef.of (T := ⟨S8192x128, .f32⟩) main_call0_v0) (TRef.of (T := ⟨S_, .f32⟩) main_call0_cst) (TRef.of (T := ⟨S8192, .f32⟩) main_call0_v1) (fun x v => Host.reduceAdd x v reducesTo_S8192x128_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v1) Host.sqrt,
    nullary main_cst (constant S_ .f32 0x322BCC77#32),
    unary main_cst main_v2 (broadcastInDim S8192x1 ![] bcast_S_S8192x1 : (⟨S_, .f32⟩ : BufTy).Contents (Elt F) → (⟨S8192x1, .f32⟩ : BufTy).Contents (Elt F)),
    binary main_v1 main_v2 main_v3 (maximumf : (⟨S8192x1, .f32⟩ : BufTy).Contents (Elt F) → (⟨S8192x1, .f32⟩ : BufTy).Contents (Elt F) → (⟨S8192x1, .f32⟩ : BufTy).Contents (Elt F)),
    unary main_v3 main_v4 (broadcastInDim S8192x128 ![0, 1] bcast_S8192x1_S8192x128_0_1 : (⟨S8192x1, .f32⟩ : BufTy).Contents (Elt F) → (⟨S8192x128, .f32⟩ : BufTy).Contents (Elt F)),
    binary main_v0 main_v4 main_v5 (Host.divf : (⟨S8192x128, .f32⟩ : BufTy).Contents (Elt F) → (⟨S8192x128, .f32⟩ : BufTy).Contents (Elt F) → (⟨S8192x128, .f32⟩ : BufTy).Contents (Elt F)) ]

/-- Operations 12-37: the similarity matrix, the row numbers, and the diagonal replaced by the constant. -/
abbrev opsB : List (HloOp τ sig (Elt F)) :=
  [ unary main_v5 main_v6 ((transpose S128x8192 [1, 0] · transposes_S8192x128_S128x8192_1_0) : (⟨S8192x128, .f32⟩ : BufTy).Contents (Elt F) → (⟨S128x8192, .f32⟩ : BufTy).Contents (Elt F)),
    binary main_v5 main_v6 main_v7 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_0 (constant S_ .f32 0x3F000000#32),
    unary main_cst_0 main_v8 (broadcastInDim S8192x8192 ![] bcast_S_S8192x8192 : (⟨S_, .f32⟩ : BufTy).Contents (Elt F) → (⟨S8192x8192, .f32⟩ : BufTy).Contents (Elt F)),
    binary main_v7 main_v8 main_v9 (Host.divf : (⟨S8192x8192, .f32⟩ : BufTy).Contents (Elt F) → (⟨S8192x8192, .f32⟩ : BufTy).Contents (Elt F) → (⟨S8192x8192, .f32⟩ : BufTy).Contents (Elt F)),
    nullary main_v10 (iotaInDim S8192 32 0),
    nullary main_c (constantI S_ 32 0#32),
    unary main_c main_v11 (broadcastInDim S8192 ![] bcast_S_S8192 : (⟨S_, .i32⟩ : BufTy).Contents (Elt F) → (⟨S8192, .i32⟩ : BufTy).Contents (Elt F)),
    binary main_v10 main_v11 main_v12 (cmpi .slt : (⟨S8192, .i32⟩ : BufTy).Contents (Elt F) → (⟨S8192, .i32⟩ : BufTy).Contents (Elt F) → (⟨S8192, .i1⟩ : BufTy).Contents (Elt F)),
    nullary main_c_1 (constantI S_ 32 8192#32),
    unary main_c_1 main_v13 (broadcastInDim S8192 ![] bcast_S_S8192 : (⟨S_, .i32⟩ : BufTy).Contents (Elt F) → (⟨S8192, .i32⟩ : BufTy).Contents (Elt F)),
    binary main_v10 main_v13 main_v14 (addi : (⟨S8192, .i32⟩ : BufTy).Contents (Elt F) → (⟨S8192, .i32⟩ : BufTy).Contents (Elt F) → (⟨S8192, .i32⟩ : BufTy).Contents (Elt F)),
    ternary main_v12 main_v14 main_v10 main_v15 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_2 (constantI S_ 32 0#32),
    unary main_c_2 main_v16 (broadcastInDim S8192 ![] bcast_S_S8192 : (⟨S_, .i32⟩ : BufTy).Contents (Elt F) → (⟨S8192, .i32⟩ : BufTy).Contents (Elt F)),
    binary main_v10 main_v16 main_v17 (cmpi .slt : (⟨S8192, .i32⟩ : BufTy).Contents (Elt F) → (⟨S8192, .i32⟩ : BufTy).Contents (Elt F) → (⟨S8192, .i1⟩ : BufTy).Contents (Elt F)),
    nullary main_c_3 (constantI S_ 32 8192#32),
    unary main_c_3 main_v18 (broadcastInDim S8192 ![] bcast_S_S8192 : (⟨S_, .i32⟩ : BufTy).Contents (Elt F) → (⟨S8192, .i32⟩ : BufTy).Contents (Elt F)),
    binary main_v10 main_v18 main_v19 (addi : (⟨S8192, .i32⟩ : BufTy).Contents (Elt F) → (⟨S8192, .i32⟩ : BufTy).Contents (Elt F) → (⟨S8192, .i32⟩ : BufTy).Contents (Elt F)),
    ternary main_v17 main_v19 main_v10 main_v20 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v15 main_v21 (broadcastInDim S8192x1 ![0] bcast_S8192_S8192x1_0 : (⟨S8192, .i32⟩ : BufTy).Contents (Elt F) → (⟨S8192x1, .i32⟩ : BufTy).Contents (Elt F)),
    unary main_v20 main_v22 (broadcastInDim S8192x1 ![0] bcast_S8192_S8192x1_0 : (⟨S8192, .i32⟩ : BufTy).Contents (Elt F) → (⟨S8192x1, .i32⟩ : BufTy).Contents (Elt F)),
    binary main_v21 main_v22 main_v23 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    nullary main_cst_4 (constant S_ .f32 0xC7435000#32),
    unary main_cst_4 main_v24 (broadcastInDim S8192 ![] bcast_S_S8192 : (⟨S_, .f32⟩ : BufTy).Contents (Elt F) → (⟨S8192, .f32⟩ : BufTy).Contents (Elt F)),
    ternary main_v9 main_v23 main_v24 main_v25 ((fun x i u => Host.scatter scatter_S8192x8192_S8192x2_S8192_n_01_01_1 (fun _ b => b) x i u) : (⟨S8192x8192, .f32⟩ : BufTy).Contents (Elt F) → (⟨S8192x2, .i32⟩ : BufTy).Contents (Elt F) → (⟨S8192, .f32⟩ : BufTy).Contents (Elt F) → (⟨S8192x8192, .f32⟩ : BufTy).Contents (Elt F)) ]

/-- Operations 38-55: the label of each row and the row-wise log-probabilities. -/
abbrev opsC : List (HloOp τ sig (Elt F)) :=
  [ unary main_v10 main_v26 ((extractStridedSlice S4096 ![4096] · slices_S8192_S4096_4096) : (⟨S8192, .i32⟩ : BufTy).Contents (Elt F) → (⟨S4096, .i32⟩ : BufTy).Contents (Elt F)),
    unary main_v10 main_v27 ((extractStridedSlice S4096 ![0] · slices_S8192_S4096_0) : (⟨S8192, .i32⟩ : BufTy).Contents (Elt F) → (⟨S4096, .i32⟩ : BufTy).Contents (Elt F)),
    binary main_v26 main_v27 main_v28 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)),
    TRef.nullary (TRef.of (T := ⟨S_, .f32⟩) main_call1_cst) (constant S_ .f32 0xFF800000#32),
    TRef.binary (TRef.of (T := ⟨S8192x8192, .f32⟩) main_v25) (TRef.of (T := ⟨S_, .f32⟩) main_call1_cst) (TRef.of (T := ⟨S8192, .f32⟩) main_call1_v0) (fun x v => Host.reduce FloatOps.maximumf x v reducesTo_S8192x8192_S8192_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S8192, .f32⟩) main_call1_v1) (broadcastInDim S8192 ![] bcast_S_S8192),
    TRef.binary (TRef.of (T := ⟨S8192, .f32⟩) main_call1_v1) (TRef.of (T := ⟨S8192, .f32⟩) main_call1_v0) (TRef.of (T := ⟨S8192, .f32⟩) main_call1_v2) maximumf,
    TRef.unary (TRef.of (T := ⟨S8192, .f32⟩) main_call1_v2) (TRef.of (T := ⟨S8192x1, .f32⟩) main_call1_v3) (broadcastInDim S8192x1 ![0] bcast_S8192_S8192x1_0),
    TRef.unary (TRef.of (T := ⟨S8192x1, .f32⟩) main_call1_v3) (TRef.of (T := ⟨S8192x8192, .f32⟩) main_call1_v4) (broadcastInDim S8192x8192 ![0, 1] bcast_S8192x1_S8192x8192_0_1),
    TRef.binary (TRef.of (T := ⟨S8192x8192, .f32⟩) main_v25) (TRef.of (T := ⟨S8192x8192, .f32⟩) main_call1_v4) (TRef.of (T := ⟨S8192x8192, .f32⟩) main_call1_v5) subf,
    TRef.unary (TRef.of (T := ⟨S8192x8192, .f32⟩) main_call1_v5) (TRef.of (T := ⟨S8192x8192, .f32⟩) main_call1_v6) Host.exp,
    TRef.nullary (TRef.of (T := ⟨S_, .f32⟩) main_call1_cst_1) (constant S_ .f32 0x00000000#32),
    TRef.binary (TRef.of (T := ⟨S8192x8192, .f32⟩) main_call1_v6) (TRef.of (T := ⟨S_, .f32⟩) main_call1_cst_1) (TRef.of (T := ⟨S8192, .f32⟩) main_call1_v7) (fun x v => Host.reduceAdd x v reducesTo_S8192x8192_S8192_d1 h_S_),
    TRef.unary (TRef.of (T := ⟨S8192, .f32⟩) main_call1_v7) (TRef.of (T := ⟨S8192x1, .f32⟩) main_call1_v8) (broadcastInDim S8192x1 ![0] bcast_S8192_S8192x1_0),
    TRef.unary (TRef.of (T := ⟨S8192x1, .f32⟩) main_call1_v8) (TRef.of (T := ⟨S8192x1, .f32⟩) main_call1_v9) Host.log,
    TRef.unary (TRef.of (T := ⟨S8192x1, .f32⟩) main_call1_v9) (TRef.of (T := ⟨S8192x8192, .f32⟩) main_call1_v10) (broadcastInDim S8192x8192 ![0, 1] bcast_S8192x1_S8192x8192_0_1),
    TRef.binary (TRef.of (T := ⟨S8192x8192, .f32⟩) main_call1_v5) (TRef.of (T := ⟨S8192x8192, .f32⟩) main_call1_v10) (TRef.of (T := ⟨S8192x8192, .f32⟩) main_v29) subf ]

/-- Operations 56-78: the label entries gathered, their mean, the sign. -/
abbrev opsD : List (HloOp τ sig (Elt F)) :=
  [ nullary main_c_5 (constantI S_ 32 0#32),
    unary main_c_5 main_v30 (broadcastInDim S8192 ![] bcast_S_S8192 : (⟨S_, .i32⟩ : BufTy).Contents (Elt F) → (⟨S8192, .i32⟩ : BufTy).Contents (Elt F)),
    binary main_v10 main_v30 main_v31 (cmpi .slt : (⟨S8192, .i32⟩ : BufTy).Contents (Elt F) → (⟨S8192, .i32⟩ : BufTy).Contents (Elt F) → (⟨S8192, .i1⟩ : BufTy).Contents (Elt F)),
    nullary main_c_6 (constantI S_ 32 8192#32),
    unary main_c_6 main_v32 (broadcastInDim S8192 ![] bcast_S_S8192 : (⟨S_, .i32⟩ : BufTy).Contents (Elt F) → (⟨S8192, .i32⟩ : BufTy).Contents (Elt F)),
    binary main_v10 main_v32 main_v33 (addi : (⟨S8192, .i32⟩ : BufTy).Contents (Elt F) → (⟨S8192, .i32⟩ : BufTy).Contents (Elt F) → (⟨S8192, .i32⟩ : BufTy).Contents (Elt F)),
    ternary main_v31 main_v33 main_v10 main_v34 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_7 (constantI S_ 32 0#32),
    unary main_c_7 main_v35 (broadcastInDim S8192 ![] bcast_S_S8192 : (⟨S_, .i32⟩ : BufTy).Contents (Elt F) → (⟨S8192, .i32⟩ : BufTy).Contents (Elt F)),
    binary main_v28 main_v35 main_v36 (cmpi .slt : (⟨S8192, .i32⟩ : BufTy).Contents (Elt F) → (⟨S8192, .i32⟩ : BufTy).Contents (Elt F) → (⟨S8192, .i1⟩ : BufTy).Contents (Elt F)),
    nullary main_c_8 (constantI S_ 32 8192#32),
    unary main_c_8 main_v37 (broadcastInDim S8192 ![] bcast_S_S8192 : (⟨S_, .i32⟩ : BufTy).Contents (Elt F) → (⟨S8192, .i32⟩ : BufTy).Contents (Elt F)),
    binary main_v28 main_v37 main_v38 (addi : (⟨S8192, .i32⟩ : BufTy).Contents (Elt F) → (⟨S8192, .i32⟩ : BufTy).Contents (Elt F) → (⟨S8192, .i32⟩ : BufTy).Contents (Elt F)),
    ternary main_v36 main_v38 main_v28 main_v39 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v34 main_v40 (broadcastInDim S8192x1 ![0] bcast_S8192_S8192x1_0 : (⟨S8192, .i32⟩ : BufTy).Contents (Elt F) → (⟨S8192x1, .i32⟩ : BufTy).Contents (Elt F)),
    unary main_v39 main_v41 (broadcastInDim S8192x1 ![0] bcast_S8192_S8192x1_0 : (⟨S8192, .i32⟩ : BufTy).Contents (Elt F) → (⟨S8192x1, .i32⟩ : BufTy).Contents (Elt F)),
    binary main_v40 main_v41 main_v42 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v29 main_v42 main_v43 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_9 (constant S_ .f32 0x00000000#32),
    binary main_v43 main_cst_9 main_v44 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_10 (constant S_ .f32 0x46000000#32),
    binary main_v44 main_cst_10 main_v45 (Host.divf : (⟨S_, .f32⟩ : BufTy).Contents (Elt F) → (⟨S_, .f32⟩ : BufTy).Contents (Elt F) → (⟨S_, .f32⟩ : BufTy).Contents (Elt F)),
    unary main_v45 main_v46 (Host.negf : (⟨S_, .f32⟩ : BufTy).Contents (Elt F) → (⟨S_, .f32⟩ : BufTy).Contents (Elt F)) ]

set_option maxRecDepth 8192 in
set_option maxHeartbeats 4000000 in
theorem ops_split : (ops : List (HloOp τ sig (Elt F))) = opsA ++ (opsB ++ (opsC ++ opsD)) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., binary_bufs_sub .., unary_bufs_sub ..⟩

/-- The state after two lines run in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ### The pieces as functions of the arrays they read -/

/-- The similarity matrix with its diagonal replaced, from the scaled rows. -/
def t25 (y : (⟨S8192x128, .f32⟩ : BufTy).Contents (Elt F)) : (⟨S8192x8192, .f32⟩ : BufTy).Contents (Elt F) :=
  Host.scatter scatter_S8192x8192_S8192x2_S8192_n_01_01_1 (fun _ b => b)
    (Host.divf (Host.dotGeneral dot_S8192x128_S128x8192_S8192x8192_1_0_0_1_n_n none y
      (transpose S128x8192 [1, 0] y transposes_S8192x128_S128x8192_1_0)) (Read.val_main_v8 (F := F)))
    (Read.val_main_v23 (F := F)) (Read.val_main_v24 (F := F))

/-- The similarities minus their row maximum. -/
def tsh (y : (⟨S8192x8192, .f32⟩ : BufTy).Contents (Elt F)) : (⟨S8192x8192, .f32⟩ : BufTy).Contents (Elt F) :=
  subf y (broadcastInDim S8192x8192 ![0, 1] bcast_S8192x1_S8192x8192_0_1
    (broadcastInDim S8192x1 ![0] bcast_S8192_S8192x1_0
      (maximumf (Read.val_main_call1_v1 (F := F))
        (Host.reduce FloatOps.maximumf y (Read.val_main_call1_cst (F := F)) reducesTo_S8192x8192_S8192_d1 h_S_))))

/-- The row-wise log-probabilities, from the similarity matrix. -/
def t29 (y : (⟨S8192x8192, .f32⟩ : BufTy).Contents (Elt F)) : (⟨S8192x8192, .f32⟩ : BufTy).Contents (Elt F) :=
  subf (tsh y) (broadcastInDim S8192x8192 ![0, 1] bcast_S8192x1_S8192x8192_0_1
    (Host.log (broadcastInDim S8192x1 ![0] bcast_S8192_S8192x1_0
      (Host.reduceAdd (Host.exp (tsh y)) (Read.val_main_call1_cst_1 (F := F)) reducesTo_S8192x8192_S8192_d1 h_S_))))

/-- The label of each row, from the row numbers. -/
def t28 (j : (⟨S8192, .i32⟩ : BufTy).Contents (Elt F)) : (⟨S8192, .i32⟩ : BufTy).Contents (Elt F) :=
  concatenate S8192 0 [⟨S4096, extractStridedSlice S4096 ![4096] j slices_S8192_S4096_4096⟩,
    ⟨S4096, extractStridedSlice S4096 ![0] j slices_S8192_S4096_0⟩] concatenates_S4096_S4096_S8192_d0

/-- The (row, label) index pairs, from the row numbers and the labels. -/
def t42 (j l : (⟨S8192, .i32⟩ : BufTy).Contents (Elt F)) : (⟨S8192x2, .i32⟩ : BufTy).Contents (Elt F) :=
  concatenate S8192x2 1
    [⟨S8192x1, broadcastInDim S8192x1 ![0] bcast_S8192_S8192x1_0
        (select (cmpi .slt j (Read.val_main_v30 (F := F))) (addi j (Read.val_main_v32 (F := F))) j)⟩,
     ⟨S8192x1, broadcastInDim S8192x1 ![0] bcast_S8192_S8192x1_0
        (select (cmpi .slt l (Read.val_main_v35 (F := F))) (addi l (Read.val_main_v37 (F := F))) l)⟩]
    concatenates_S8192x1_S8192x1_S8192x2_d1

/-- Minus the mean of the label entries of the log-probabilities. -/
def t46 (y : (⟨S8192x8192, .f32⟩ : BufTy).Contents (Elt F)) (j l : (⟨S8192, .i32⟩ : BufTy).Contents (Elt F)) : (⟨S_, .f32⟩ : BufTy).Contents (Elt F) :=
  Host.negf (Host.divf (Host.reduceAdd (Host.gather gather_S8192x8192_S8192x2_S8192_n_01_n_n_01_1_11 y (t42 j l))
    (Read.val_main_cst_9 (F := F)) reducesTo_S8192_S_d0 h_S_) (Read.val_main_cst_10 (F := F)))

/-- The pieces composed are the stages of the program read one operation at a time. -/
theorem t25_eq (x0 x1 : (⟨S4096x128, .f32⟩ : BufTy).Contents (Elt F)) :
    t25 (Read.val_main_v5 (F := F) x0 x1) = Read.val_main_v25 (F := F) x0 x1 := rfl
theorem t29_eq (x0 x1 : (⟨S4096x128, .f32⟩ : BufTy).Contents (Elt F)) :
    t29 (Read.val_main_v25 (F := F) x0 x1) = Read.val_main_v29 (F := F) x0 x1 := rfl
theorem t28_eq : t28 (Read.val_main_v10 (F := F)) = (Read.val_main_v28 (F := F)) := rfl
theorem t46_eq (x0 x1 : (⟨S4096x128, .f32⟩ : BufTy).Contents (Elt F)) :
    t46 (Read.val_main_v29 (F := F) x0 x1) (Read.val_main_v10 (F := F)) (Read.val_main_v28 (F := F)) = Read.val_main_v46 (F := F) x0 x1 := rfl

end Cert.Loss.RefRun

end
-- ==== Proof.RefRunH.lean ====
/-
  The reference program's run, read back piece by piece.

  Each of the four pieces of the operation list is read back from an arbitrary incoming state as a function of the few
  arrays it reads; the pieces are then composed, so every shared array is mentioned by its name once per use and never
  expanded.  Every weakly fair execution ends with the result at the last stage's value of the two arguments.
-/
import proofs.«181090_j11141145166516_2_alg».proof.Proof.RefRunHOps

noncomputable section

namespace Cert.Loss.RefRun

open Cert.ReferenceIdeal Cert.ReferenceIdeal.Gen Idealize.ShloMosaic Idealize.ShloMosaic.TcCoe Idealize.SL.Sem Idealize.ShloMosaic.StableHlo

variable {F : FTy → Type} [FloatOps F]

/-! ### Each piece read back from an arbitrary incoming state -/

/-- Contents moved to a buffer's own type and back along the same equation are unchanged. -/
theorem ofBuf_toBuf {sg : RefSig} {Vl : EltTy → Type} {T : BufTy} (x : TRef sg T) (v : T.Contents Vl) :
    x.ofBuf (x.toBuf v) = v := by
  obtain ⟨r, h, _, _⟩ := x
  subst h
  rfl

theorem afterA_v5 (V : Valuation τ sig (Elt F)) :
    after opsA V (Proc.devRef .tc main_v5) = Read.val_main_v5 (F := F) (V (Proc.devRef .tc main_arg0)) (V (Proc.devRef .tc main_arg1)) := by
  after_results_simp <;> rfl

theorem afterB_v25 (V : Valuation τ sig (Elt F)) :
    after opsB V (Proc.devRef .tc main_v25) = t25 (V (Proc.devRef .tc main_v5)) := by
  after_results_simp <;> rfl

theorem afterB_v10 (V : Valuation τ sig (Elt F)) :
    after opsB V (Proc.devRef .tc main_v10) = (Read.val_main_v10 (F := F)) := by
  after_results_simp <;> rfl

theorem afterC_v29 (V : Valuation τ sig (Elt F)) :
    after opsC V (Proc.devRef .tc main_v29) = t29 (V (Proc.devRef .tc main_v25)) := by
  after_results_simp
  simp only [ofBuf_toBuf]
  rfl

theorem afterC_v28 (V : Valuation τ sig (Elt F)) :
    after opsC V (Proc.devRef .tc main_v28) = t28 (V (Proc.devRef .tc main_v10)) := by
  after_results_simp <;> rfl

theorem afterC_v10 (V : Valuation τ sig (Elt F)) :
    after opsC V (Proc.devRef .tc main_v10) = V (Proc.devRef .tc main_v10) := by
  after_results_simp <;> rfl

theorem afterD_v46 (V : Valuation τ sig (Elt F)) :
    after opsD V (Proc.devRef .tc main_v46) = t46 (V (Proc.devRef .tc main_v29)) (V (Proc.devRef .tc main_v10)) (V (Proc.devRef .tc main_v28)) := by
  after_results_simp <;> rfl

/-! ### The whole line -/

theorem after_v46 (V : Valuation τ sig (Elt F)) :
    after ops V (Proc.devRef .tc main_v46) = Read.val_main_v46 (F := F) (V (Proc.devRef .tc main_arg0)) (V (Proc.devRef .tc main_arg1)) := by
  rw [ops_split, after_app, after_app, after_app, afterD_v46, afterC_v29, afterC_v28, afterC_v10, afterB_v25, afterB_v10,
    afterA_v5, t25_eq, t29_eq, t28_eq, t46_eq]

theorem after_arg0 (V : Valuation τ sig (Elt F)) : after ops V (Proc.devRef .tc main_arg0) = V (Proc.devRef .tc main_arg0) := by
  after_results_simp <;> rfl

theorem after_arg1 (V : Valuation τ sig (Elt F)) : after ops V (Proc.devRef .tc main_arg1) = V (Proc.devRef .tc main_arg1) := by
  after_results_simp <;> rfl

/-- On every device, from any memory with zero counters: every weakly fair execution of the program terminates with
    the result at the last stage's value of the two arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = Read.val_main_v46 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v46).trans (after_v46 _),
      (h c main_arg0).trans (after_arg0 _),
      (h c main_arg1).trans (after_arg1 _)⟩)
    (run_seq scopedRefs_eq scopedSems_eq defs main (fun _ => ops) main_eq (fun _ => ops_sub) m ρ)

end Cert.Loss.RefRun

end
-- ==== Proof.BridgeFinite.lean ====
/-
  Extended reals that are ordinary reals.

  Both arrangements of the loss agree only where every intermediate value is an ordinary real (an infinite similarity
  would make the two orders of subtraction differ).  This module fixes the predicate, shows that it is preserved by
  the operations the loss is built from (sums, products, the clipped square root, the quotient by a non-zero real,
  the row maximum folded from -inf over a non-empty row, exp, the log of a positive real), and evaluates the literals.
-/
import proofs.«181090_j11141145166516_2_alg».proof.Proof.Spec

noncomputable section

namespace Cert.Loss

open Idealize.ShloMosaic
open scoped BigOperators

/-! ### The literals -/

theorem two_eq : two = ((2 : ℝ) : EReal) := by
  simp [two, Ideal.ofBits, Ideal.ieee, -EReal.coe_mul]; norm_num

theorem half_eq : half = ((1 / 2 : ℝ) : EReal) := by
  simp [half, Ideal.ofBits, Ideal.ieee, -EReal.coe_mul]; norm_num

theorem ninf_eq : ninf = ⊥ := by
  simp [ninf, Ideal.ofBits, Ideal.ieee]

theorem zero_eq : zero = 0 := by
  simp [zero, Ideal.ofBits, Ideal.ieee]

theorem cnt_eq : cnt = ((8192 : ℝ) : EReal) := by
  simp [cnt, Ideal.ofBits, Ideal.ieee, -EReal.coe_mul]; norm_num

theorem dneg_eq : dneg = ((-50000 : ℝ) : EReal) := by
  simp [dneg, Ideal.ofBits, Ideal.ieee, -EReal.coe_mul]; norm_num

/-- The clipping constant is a positive real (about 1e-8). -/
theorem eps_pos : ∃ e : ℝ, 0 < e ∧ eps = (e : EReal) := by
  simp [eps, Ideal.ofBits, Ideal.ieee, -EReal.coe_mul]

/-! ### The predicate and its closure -/

/-- An extended real that is an ordinary real. -/
def IsReal (x : EReal) : Prop := ∃ v : ℝ, x = (v : EReal)

theorem isReal_coe (v : ℝ) : IsReal (v : EReal) := ⟨v, rfl⟩

theorem IsReal.ne_top {x : EReal} (h : IsReal x) : x ≠ ⊤ := by
  obtain ⟨v, rfl⟩ := h; exact EReal.coe_ne_top v

theorem IsReal.ne_bot {x : EReal} (h : IsReal x) : x ≠ ⊥ := by
  obtain ⟨v, rfl⟩ := h; exact EReal.coe_ne_bot v

theorem isReal_of_ne {x : EReal} (h1 : x ≠ ⊤) (h2 : x ≠ ⊥) : IsReal x :=
  ⟨x.toReal, (EReal.coe_toReal h1 h2).symm⟩

theorem IsReal.add {x y : EReal} (hx : IsReal x) (hy : IsReal y) : IsReal (x + y) := by
  obtain ⟨u, rfl⟩ := hx; obtain ⟨v, rfl⟩ := hy; exact ⟨u + v, (EReal.coe_add u v).symm⟩

theorem IsReal.sub {x y : EReal} (hx : IsReal x) (hy : IsReal y) : IsReal (x - y) := by
  obtain ⟨u, rfl⟩ := hx; obtain ⟨v, rfl⟩ := hy; exact ⟨u - v, (EReal.coe_sub u v).symm⟩

theorem IsReal.mul {x y : EReal} (hx : IsReal x) (hy : IsReal y) : IsReal (x * y) := by
  obtain ⟨u, rfl⟩ := hx; obtain ⟨v, rfl⟩ := hy; exact ⟨u * v, (EReal.coe_mul u v).symm⟩

theorem IsReal.neg {x : EReal} (hx : IsReal x) : IsReal (-x) := by
  obtain ⟨u, rfl⟩ := hx; exact ⟨-u, (EReal.coe_neg u).symm⟩

/-- The coercion of a finite sum of reals is the sum of the coercions. -/
theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The square root of a non-negative real is a real. -/
theorem IsReal.sqrt {x : EReal} (hx : IsReal x) (h0 : 0 ≤ x) : IsReal (Ideal.sqrt x) := by
  obtain ⟨v, rfl⟩ := hx
  have hv : ¬ v < 0 := not_lt.mpr (EReal.coe_nonneg.mp h0)
  rw [Ideal.sqrt_coe, if_neg hv]
  exact ⟨_, rfl⟩

/-- A real clipped below at the positive constant is a non-zero real. -/
theorem max_eps_real {x : EReal} (hx : IsReal x) : ∃ m : ℝ, m ≠ 0 ∧ max x eps = (m : EReal) := by
  obtain ⟨v, rfl⟩ := hx
  obtain ⟨e, he, hE⟩ := eps_pos
  refine ⟨max v e, (lt_of_lt_of_le he (le_max_right v e)).ne', ?_⟩
  rw [hE]
  exact (EReal.coe_strictMono.monotone.map_max).symm

/-- The quotient of a real by a non-zero real is a real. -/
theorem IsReal.div {x d : EReal} (hx : IsReal x) (hd : ∃ m : ℝ, m ≠ 0 ∧ d = (m : EReal)) :
    IsReal (Ideal.div x d) := by
  obtain ⟨v, rfl⟩ := hx
  obtain ⟨m, hm, rfl⟩ := hd
  rw [Ideal.div_coe hm, ← EReal.coe_mul]
  exact ⟨_, rfl⟩

/-- exp of a real is a positive real. -/
theorem exp_pos_real {x : EReal} (hx : IsReal x) : ∃ v : ℝ, 0 < v ∧ Ideal.exp x = (v : EReal) := by
  obtain ⟨u, rfl⟩ := hx
  exact ⟨Real.exp u, Real.exp_pos u, Ideal.exp_coe u⟩

/-- log of a positive real is a real. -/
theorem log_real {x : EReal} (hx : ∃ v : ℝ, 0 < v ∧ x = (v : EReal)) : IsReal (Ideal.log x) := by
  obtain ⟨v, hv, rfl⟩ := hx
  rw [Ideal.log_coe, if_neg (not_le.mpr hv)]
  exact ⟨_, rfl⟩

/-- A non-empty finite sum of positive reals is a positive real. -/
theorem sum_pos_real {ι : Type*} (s : Finset ι) (hs : s.Nonempty) (f : ι → EReal)
    (h : ∀ i, ∃ v : ℝ, 0 < v ∧ f i = (v : EReal)) : ∃ v : ℝ, 0 < v ∧ ∑ i ∈ s, f i = (v : EReal) := by
  choose g hg0 hg using h
  refine ⟨∑ i ∈ s, g i, Finset.sum_pos (fun i _ => hg0 i) hs, ?_⟩
  rw [← coe_sum]
  exact Finset.sum_congr rfl (fun i _ => hg i)

/-- The maximum of a non-empty finite family of reals, folded from -inf, is a real. -/
theorem isReal_fold_max {ι : Type*} (s : Finset ι) (hs : s.Nonempty) (f : ι → EReal)
    (h : ∀ i ∈ s, IsReal (f i)) : IsReal (s.fold max ⊥ f) := by
  apply isReal_of_ne
  · apply ne_of_lt
    rw [Finset.fold_max_lt]
    exact ⟨bot_lt_top, fun i hi => lt_top_iff_ne_top.mpr (h i hi).ne_top⟩
  · apply ne_of_gt
    rw [Finset.lt_fold_max]
    obtain ⟨i, hi⟩ := hs
    exact Or.inr ⟨i, hi, bot_lt_iff_ne_bot.mpr (h i hi).ne_bot⟩

end Cert.Loss

end
-- ==== Proof.BridgeRow.lean ====
/-
  One row of the loss, in both arrangements.

  With real inputs every scaled row is real, so every similarity is real; the factor 2 and the divisor 1/2 give the
  same similarity at every extended real.  For a row s of real similarities with maximum M, log-sum-exp L and label
  entry x, one arrangement forms (M + L) - x and the other (x - M) - L: each is minus the other.
-/
import proofs.«181090_j11141145166516_2_alg».proof.Proof.BridgeFinite

noncomputable section

namespace Cert.Loss

open Idealize.ShloMosaic
open scoped BigOperators

/-- Every entry of the stacked array is a real when the two arguments' entries are. -/
theorem stack_real (a b : Fin 4096 → D → EReal) (ha : ∀ r k, IsReal (a r k)) (hb : ∀ r k, IsReal (b r k))
    (r : R) (k : D) : IsReal (stack a b r k) := by
  unfold stack
  split_ifs with h
  · exact ha _ k
  · exact hb _ k

/-- A row of reals has a real, non-negative sum of squares, so its clipped length is a non-zero real and the scaled
    row is real. -/
theorem zn_real (z : R → D → EReal) (hz : ∀ r k, IsReal (z r k)) (r : R) (k : D) : IsReal (zn z r k) := by
  unfold zn
  refine (hz r k).div (max_eps_real (IsReal.sqrt ?_ ?_))
  · exact IsReal.sum _ _ (fun d _ => (hz r d).mul (hz r d))
  · apply Finset.sum_nonneg
    intro d _
    obtain ⟨v, hv⟩ := hz r d
    rw [hv, ← EReal.coe_mul]
    exact EReal.coe_nonneg.mpr (mul_self_nonneg v)

theorem dot_real (y : R → D → EReal) (hy : ∀ r k, IsReal (y r k)) (r c : R) : IsReal (dot y r c) :=
  IsReal.sum _ _ (fun k _ => (hy r k).mul (hy c k))

/-- Multiplying by 2 and dividing by 1/2 agree at every extended real. -/
theorem mul_two_eq_div_half (x : EReal) : x * two = Ideal.div x half := by
  have h : (1 / (1 / 2 : ℝ)) = 2 := by norm_num
  rw [two_eq, half_eq, Ideal.div_coe (by norm_num : (1 / 2 : ℝ) ≠ 0), h]

/-- The two similarities are one function. -/
theorem simK_eq_simR (y : R → D → EReal) : simK y = simR y := by
  funext r c
  unfold simK simR
  rw [mul_two_eq_div_half]

theorem simK_real (y : R → D → EReal) (hy : ∀ r k, IsReal (y r k)) (r c : R) : IsReal (simK y r c) := by
  unfold simK
  split_ifs
  · rw [dneg_eq]; exact isReal_coe _
  · rw [two_eq]; exact (dot_real y hy r c).mul (isReal_coe _)

/-- The maximum of a row of reals is a real. -/
theorem rmax_real (f : R → EReal) (hf : ∀ c, IsReal (f c)) : IsReal (rmax f) := by
  unfold rmax
  rw [ninf_eq]
  exact isReal_fold_max _ Finset.univ_nonempty f (fun i _ => hf i)

/-- The log-sum-exp of a row of reals is a real: the sum is one of 8192 positive reals. -/
theorem lse_real (f : R → EReal) (hf : ∀ c, IsReal (f c)) : IsReal (lse f) := by
  unfold lse
  exact log_real (sum_pos_real _ Finset.univ_nonempty _
    (fun c => exp_pos_real ((hf c).sub (rmax_real f hf))))

/-- The masked sum picks the label entry. -/
theorem masked_sum (f : R → EReal) (l : R) : ∑ c : R, (if c = l then f c else zero) = f l := by
  rw [zero_eq, Finset.sum_ite_eq', if_pos (Finset.mem_univ l)]

theorem rowR_real (s : R → R → EReal) (hs : ∀ r c, IsReal (s r c)) (r : R) : IsReal (rowR s r) :=
  ((hs r (lab r)).sub (rmax_real (s r) (hs r))).sub (lse_real (s r) (hs r))

/-- On real similarities the row loss is minus the label's log-probability. -/
theorem rowK_eq_neg_rowR (s : R → R → EReal) (hs : ∀ r c, IsReal (s r c)) (r : R) :
    rowK s r = - rowR s r := by
  unfold rowK rowR
  rw [masked_sum]
  obtain ⟨M, hM⟩ := rmax_real (s r) (hs r)
  obtain ⟨L, hL⟩ := lse_real (s r) (hs r)
  obtain ⟨x, hx⟩ := hs r (lab r)
  rw [hM, hL, hx, ← EReal.coe_add, ← EReal.coe_sub, ← EReal.coe_sub, ← EReal.coe_sub, ← EReal.coe_neg]
  congr 1
  ring

end Cert.Loss

end
-- ==== Proof.Bridge.lean ====
/-
  The two arrangements of the loss agree on real inputs.

  Every similarity is real, the two similarity functions coincide, and row by row one arrangement is minus the other;
  the sum of the negated real rows is minus their sum, and dividing by the row count 8192 commutes with the sign.
-/
import proofs.«181090_j11141145166516_2_alg».proof.Proof.BridgeRow

noncomputable section

namespace Cert.Loss

open Idealize.ShloMosaic
open scoped BigOperators

theorem total_eq (a b : Fin 4096 → Fin 128 → EReal)
    (ha : ∀ r k, ∃ v : ℝ, a r k = (v : EReal)) (hb : ∀ r k, ∃ v : ℝ, b r k = (v : EReal)) :
    Cert.Loss.totalK a b = Cert.Loss.totalR a b := by
  have hz : ∀ r k, IsReal (stack a b r k) := stack_real a b ha hb
  have hy : ∀ r k, IsReal (zn (stack a b) r k) := zn_real _ hz
  have hs : ∀ r c, IsReal (simK (zn (stack a b)) r c) := simK_real _ hy
  unfold totalK totalR
  rw [← simK_eq_simR]
  generalize simK (zn (stack a b)) = s at hs ⊢
  have hR : ∀ r, IsReal (rowR s r) := rowR_real s hs
  choose ρ hρ using hR
  have h1 : ∑ r : R, rowK s r = ((-(∑ r : R, ρ r) : ℝ) : EReal) := by
    rw [← Finset.sum_neg_distrib, ← coe_sum]
    refine Finset.sum_congr rfl (fun r _ => ?_)
    rw [rowK_eq_neg_rowR s hs r, hρ r, EReal.coe_neg]
  have h2 : ∑ r : R, rowR s r = ((∑ r : R, ρ r : ℝ) : EReal) := by
    rw [← coe_sum]
    exact Finset.sum_congr rfl (fun r _ => hρ r)
  rw [h1, h2, cnt_eq, Ideal.div_coe (by norm_num : (8192 : ℝ) ≠ 0), Ideal.div_coe (by norm_num : (8192 : ℝ) ≠ 0),
    ← EReal.coe_mul, ← EReal.coe_mul, ← EReal.coe_neg]
  congr 1
  ring

end Cert.Loss

end
-- ==== Proof.FiniteIn.lean ====
/-
  The precondition read back: both inputs hold only real numbers.

  The precondition says, of each input, that every entry x has |x| < +inf, where |x| = max x (-x) on the
  extended reals and +inf is the value of the word 0x7F800000.  An extended real with max x (-x) < +inf is
  neither +inf (then max x (-x) = +inf) nor -inf (then -x = +inf), so it is a real number.
-/
import proofs.«181090_j11141145166516_2_alg».proof.Pre_finite_inputs
import Idealize.ShloMosaic.Lib.ReduceAll
import Idealize.ShloMosaic.PureOps.Ideal

noncomputable section

namespace Cert.Loss

open Idealize.ShloMosaic

/-- A rank-0 array has one index. -/
instance subsingleton_scalar_idx : Subsingleton Cert.Pre_finite_inputs.S_.Idx :=
  ⟨fun a b => funext fun d => d.elim0⟩

/-- The word 0x7F800000 denotes +inf. -/
theorem ofBits_inf : Ideal.ofBits .f32 0x7F800000#32 = (⊤ : EReal) := by
  simp [Ideal.ofBits, Ideal.ieee]

/-- An extended real whose absolute value compares below +inf is a real number. -/
theorem real_of_abs_lt_inf (x : EReal)
    (h : Ideal.cmp .olt (max x (-x)) (Ideal.ofBits .f32 0x7F800000#32) = 1#1) : ∃ v : ℝ, x = (v : EReal) := by
  rw [ofBits_inf] at h
  induction x using EReal.rec with
  | bot => simp [Ideal.cmp] at h
  | coe v => exact ⟨v, rfl⟩
  | top => simp [Ideal.cmp] at h

/-- Under the precondition every entry of both inputs is a real number. -/
theorem finite_of_pre [Cert.Pre_finite_inputs.Facts] (x0 x1 : FVec Ideal Cert.Pre_finite_inputs.S4096x128 .f32)
    (h : Cert.Pre_finite_inputs.fn (F := Ideal) x0 x1 = fun _ => 1#1) :
    (∀ i, ∃ v : ℝ, x0 i = (v : EReal)) ∧ (∀ i, ∃ v : ℝ, x1 i = (v : EReal)) := by
  have h0 := congrFun h (fun a => a.elim0)
  dsimp only [Cert.Pre_finite_inputs.fn] at h0
  obtain ⟨ha, hb⟩ := IntOp.andi_eq_one.1 h0
  refine ⟨fun i => ?_, fun i => ?_⟩
  · have e := Host.reduce_andi_all _ _ _ _ _ ha i
    exact real_of_abs_lt_inf (x0 i) e
  · have e := Host.reduce_andi_all _ _ _ _ _ hb i
    exact real_of_abs_lt_inf (x1 i) e

end Cert.Loss

end
-- ==== Proof.lean ====
/-
  The certificate of the contrastive loss kernel against its reference.

  Both programs stack the two inputs, scale every row to unit length (the length clipped below at a small constant),
  form the similarity of every pair of rows divided by the temperature 1/2 with the diagonal replaced by -50000, and
  average over the rows the loss  log-sum-exp of the row minus its entry at the row's partner.  The kernel does this
  in two grid regions (rows normalised block by block; then, block by block, the losses of 256 rows against all
  rows) and a host mean; the reference with one matrix product, a scatter on the diagonal, log_softmax, a gather of
  the partner entries, a mean and a sign.

  The frames of the two kernel programs: the four segments of the program run in order, every unscoped buffer held
  at a known valuation between them, the arguments never written.  The reference's frame is its run with the result
  dropped.  No operation of the kernel was rewritten by the idealization, so that claim is trivial.  At the ideal
  instance the kernel's result is the specification's mean of row losses (the regions' write-backs cover their
  output arrays; each block is the body's store over the input blocks) and the reference's is minus the mean of the
  log-probabilities; the two agree when every input is a real number: all intermediate quantities are then reals,
  multiplying by 2 is dividing by 1/2, and (max + log-sum) - x = -((x - max) - log-sum).
-/
import proofs.«181090_j11141145166516_2_alg».proof.Defs
import proofs.«181090_j11141145166516_2_alg».proof.Proof.Gen.Kernel
import proofs.«181090_j11141145166516_2_alg».proof.Proof.Gen.KernelIdeal
import proofs.«181090_j11141145166516_2_alg».proof.Proof.Gen.ReferenceIdeal
import proofs.«181090_j11141145166516_2_alg».proof.Proof.Gen.Pre_finite_inputs
import proofs.«181090_j11141145166516_2_alg».proof.Proof.KB.Tail
import proofs.«181090_j11141145166516_2_alg».proof.Proof.KIValue
import proofs.«181090_j11141145166516_2_alg».proof.Proof.KI1Pay
import proofs.«181090_j11141145166516_2_alg».proof.Proof.RefSim
import proofs.«181090_j11141145166516_2_alg».proof.Proof.RefTail
import proofs.«181090_j11141145166516_2_alg».proof.Proof.RefRunH
import proofs.«181090_j11141145166516_2_alg».proof.Proof.Bridge
import proofs.«181090_j11141145166516_2_alg».proof.Proof.FiniteIn

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Loss.RefRun.run (F := Ideal) m ρ)

/-- The reference's result, read at its one entry, is the specification's minus-mean of log-probabilities. -/
theorem ref_value (x0 x1 : (⟨Cert.ReferenceIdeal.S4096x128, .f32⟩ : BufTy).Contents (Elt Ideal)) (i : Cert.ReferenceIdeal.S_.Idx) :
    Cert.ReferenceIdeal.Read.val_main_v46 (F := Ideal) x0 x1 i = Cert.Loss.totalR (Cert.Loss.ofArr2 x0) (Cert.Loss.ofArr2 x1) :=
  Cert.Loss.Ref.ref_tail x0 x1 _ (Cert.Loss.Ref.ref_sim x0 x1) i

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W4 (F := Ideal) m ρ c (Proc.devRef .tc Cert.KernelIdeal.main_v4),
    Cert.KernelIdeal.Hand.run_result (F := Ideal) m ρ, ?_⟩
  refine (θ_run Cert.ReferenceIdeal.defs _ _).mono (fun _ h c => ⟨(h c).1.trans ?_, (h c).2⟩)
    (Cert.Loss.RefRun.run (F := Ideal) m' ρ')
  funext i
  obtain ⟨h0, h1⟩ := Cert.Loss.finite_of_pre _ _ (hpre c)
  rw [ref_value, (hagree c).1, (hagree c).2]
  refine (Cert.Loss.total_eq _ _ (fun r k => h0 (ValueIdx.ix2 r k)) (fun r k => h1 (ValueIdx.ix2 r k))).symm.trans ?_
  exact (Cert.KernelIdeal.Val.kernel_value Cert.KernelIdeal.Val1.pay1_apply m ρ c i).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
